-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v444)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v444) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S3x33x33x33 .f32) (main_arg1 : FVec F S8x3x1024x1024 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S1x33x33x33 : Shape := ⟨4, ![1, 33, 33, 33]⟩
abbrev S33x33x33 : Shape := ⟨3, ![33, 33, 33]⟩
abbrev S35937 : Shape := ⟨1, ![35937]⟩
abbrev S8x1024x1024x1 : Shape := ⟨4, ![8, 1024, 1024, 1]⟩
abbrev S1x8x3x1024x1024 : Shape := ⟨5, ![1, 8, 3, 1024, 1024]⟩
abbrev S2x8x3x1024x1024 : Shape := ⟨5, ![2, 8, 3, 1024, 1024]⟩
abbrev S2x1x3x128x1024 : Shape := ⟨5, ![2, 1, 3, 128, 1024]⟩
abbrev S1x128x1024 : Shape := ⟨3, ![1, 128, 1024]⟩
abbrev S1x3x128x1024 : Shape := ⟨4, ![1, 3, 128, 1024]⟩
abbrev S1x1x3x128x1024 : Shape := ⟨5, ![1, 1, 3, 128, 1024]⟩
abbrev S1x1x128x1024 : Shape := ⟨4, ![1, 1, 128, 1024]⟩

abbrev nBuf : Space → Nat
  | .hbm => 565
  | .vmem => 6
  | .smem => 0
  | _ => 0

abbrev hbmTy0_0 (i : Nat) : BufTy := match i % 128 with
  | 0 => ⟨S3x33x33x33, .f32⟩
  | 1 => ⟨S8x3x1024x1024, .f32⟩
  | 2 => ⟨S8x1x1024x1024, .f32⟩
  | 3 => ⟨S8x1024x1024, .f32⟩
  | 4 => ⟨S8x1x1024x1024, .f32⟩
  | 5 => ⟨S8x1024x1024, .f32⟩
  | 6 => ⟨S8x1x1024x1024, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .i32⟩
  | 20 => ⟨S_, .i32⟩
  | 21 => ⟨S_, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i32⟩
  | 27 => ⟨S8x1024x1024, .f32⟩
  | 28 => ⟨S8x1024x1024, .i32⟩
  | 29 => ⟨S_, .i32⟩
  | 30 => ⟨S_, .i32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S8x1024x1024, .f32⟩
  | 38 => ⟨S8x1024x1024, .i32⟩
  | 39 => ⟨S_, .i32⟩
  | 40 => ⟨S_, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S_, .i32⟩
  | 54 => ⟨S8x1024x1024, .i32⟩
  | 55 => ⟨S8x1024x1024, .i32⟩
  | 56 => ⟨S_, .i32⟩
  | 57 => ⟨S8x1024x1024, .i32⟩
  | 58 => ⟨S8x1024x1024, .i32⟩
  | 59 => ⟨S_, .i32⟩
  | 60 => ⟨S8x1024x1024, .i32⟩
  | 61 => ⟨S8x1024x1024, .i32⟩
  | 62 => ⟨S8x1024x1024, .i32⟩
  | 63 => ⟨S_, .i32⟩
  | 64 => ⟨S8x1024x1024, .i32⟩
  | 65 => ⟨S8x1024x1024, .i32⟩
  | 66 => ⟨S_, .i32⟩
  | 67 => ⟨S8x1024x1024, .i32⟩
  | 68 => ⟨S8x1024x1024, .i32⟩
  | 69 => ⟨S8x1024x1024, .i32⟩
  | 70 => ⟨S1x33x33x33, .f32⟩
  | 71 => ⟨S33x33x33, .f32⟩
  | 72 => ⟨S35937, .f32⟩
  | 73 => ⟨S_, .i32⟩
  | 74 => ⟨S8x1024x1024, .i32⟩
  | 75 => ⟨S8x1024x1024, .i1⟩
  | 76 => ⟨S_, .i32⟩
  | 77 => ⟨S8x1024x1024, .i32⟩
  | 78 => ⟨S8x1024x1024, .i32⟩
  | 79 => ⟨S8x1024x1024, .i32⟩
  | 80 => ⟨S8x1024x1024x1, .i32⟩
  | 81 => ⟨S8x1024x1024, .f32⟩
  | 82 => ⟨S1x33x33x33, .f32⟩
  | 83 => ⟨S33x33x33, .f32⟩
  | 84 => ⟨S35937, .f32⟩
  | 85 => ⟨S_, .i32⟩
  | 86 => ⟨S8x1024x1024, .i32⟩
  | 87 => ⟨S8x1024x1024, .i1⟩
  | 88 => ⟨S_, .i32⟩
  | 89 => ⟨S8x1024x1024, .i32⟩
  | 90 => ⟨S8x1024x1024, .i32⟩
  | 91 => ⟨S8x1024x1024, .i32⟩
  | 92 => ⟨S8x1024x1024x1, .i32⟩
  | 93 => ⟨S8x1024x1024, .f32⟩
  | 94 => ⟨S1x33x33x33, .f32⟩
  | 95 => ⟨S33x33x33, .f32⟩
  | 96 => ⟨S35937, .f32⟩
  | 97 => ⟨S_, .i32⟩
  | 98 => ⟨S8x1024x1024, .i32⟩
  | 99 => ⟨S8x1024x1024, .i1⟩
  | 100 => ⟨S_, .i32⟩
  | 101 => ⟨S8x1024x1024, .i32⟩
  | 102 => ⟨S8x1024x1024, .i32⟩
  | 103 => ⟨S8x1024x1024, .i32⟩
  | 104 => ⟨S8x1024x1024x1, .i32⟩
  | 105 => ⟨S8x1024x1024, .f32⟩
  | 106 => ⟨S8x1x1024x1024, .f32⟩
  | 107 => ⟨S8x1x1024x1024, .f32⟩
  | 108 => ⟨S8x1x1024x1024, .f32⟩
  | 109 => ⟨S8x3x1024x1024, .f32⟩
  | 110 => ⟨S_, .i32⟩
  | 111 => ⟨S8x1024x1024, .i32⟩
  | 112 => ⟨S8x1024x1024, .i32⟩
  | 113 => ⟨S_, .i32⟩
  | 114 => ⟨S8x1024x1024, .i32⟩
  | 115 => ⟨S8x1024x1024, .i32⟩
  | 116 => ⟨S_, .i32⟩
  | 117 => ⟨S8x1024x1024, .i32⟩
  | 118 => ⟨S8x1024x1024, .i32⟩
  | 119 => ⟨S8x1024x1024, .i32⟩
  | 120 => ⟨S_, .i32⟩
  | 121 => ⟨S8x1024x1024, .i32⟩
  | 122 => ⟨S8x1024x1024, .i32⟩
  | 123 => ⟨S_, .i32⟩
  | 124 => ⟨S8x1024x1024, .i32⟩
  | 125 => ⟨S8x1024x1024, .i32⟩
  | 126 => ⟨S8x1024x1024, .i32⟩
  | 127 => ⟨S1x33x33x33, .f32⟩
  | _ => ⟨S3x33x33x33, .f32⟩

abbrev hbmTy0_1 (i : Nat) : BufTy := match i % 128 with
  | 0 => ⟨S33x33x33, .f32⟩
  | 1 => ⟨S35937, .f32⟩
  | 2 => ⟨S_, .i32⟩
  | 3 => ⟨S8x1024x1024, .i32⟩
  | 4 => ⟨S8x1024x1024, .i1⟩
  | 5 => ⟨S_, .i32⟩
  | 6 => ⟨S8x1024x1024, .i32⟩
  | 7 => ⟨S8x1024x1024, .i32⟩
  | 8 => ⟨S8x1024x1024, .i32⟩
  | 9 => ⟨S8x1024x1024x1, .i32⟩
  | 10 => ⟨S8x1024x1024, .f32⟩
  | 11 => ⟨S1x33x33x33, .f32⟩
  | 12 => ⟨S33x33x33, .f32⟩
  | 13 => ⟨S35937, .f32⟩
  | 14 => ⟨S_, .i32⟩
  | 15 => ⟨S8x1024x1024, .i32⟩
  | 16 => ⟨S8x1024x1024, .i1⟩
  | 17 => ⟨S_, .i32⟩
  | 18 => ⟨S8x1024x1024, .i32⟩
  | 19 => ⟨S8x1024x1024, .i32⟩
  | 20 => ⟨S8x1024x1024, .i32⟩
  | 21 => ⟨S8x1024x1024x1, .i32⟩
  | 22 => ⟨S8x1024x1024, .f32⟩
  | 23 => ⟨S1x33x33x33, .f32⟩
  | 24 => ⟨S33x33x33, .f32⟩
  | 25 => ⟨S35937, .f32⟩
  | 26 => ⟨S_, .i32⟩
  | 27 => ⟨S8x1024x1024, .i32⟩
  | 28 => ⟨S8x1024x1024, .i1⟩
  | 29 => ⟨S_, .i32⟩
  | 30 => ⟨S8x1024x1024, .i32⟩
  | 31 => ⟨S8x1024x1024, .i32⟩
  | 32 => ⟨S8x1024x1024, .i32⟩
  | 33 => ⟨S8x1024x1024x1, .i32⟩
  | 34 => ⟨S8x1024x1024, .f32⟩
  | 35 => ⟨S8x1x1024x1024, .f32⟩
  | 36 => ⟨S8x1x1024x1024, .f32⟩
  | 37 => ⟨S8x1x1024x1024, .f32⟩
  | 38 => ⟨S8x3x1024x1024, .f32⟩
  | 39 => ⟨S_, .i32⟩
  | 40 => ⟨S8x1024x1024, .i32⟩
  | 41 => ⟨S8x1024x1024, .i32⟩
  | 42 => ⟨S_, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i32⟩
  | 48 => ⟨S8x1024x1024, .i32⟩
  | 49 => ⟨S_, .i32⟩
  | 50 => ⟨S8x1024x1024, .i32⟩
  | 51 => ⟨S8x1024x1024, .i32⟩
  | 52 => ⟨S_, .i32⟩
  | 53 => ⟨S8x1024x1024, .i32⟩
  | 54 => ⟨S8x1024x1024, .i32⟩
  | 55 => ⟨S8x1024x1024, .i32⟩
  | 56 => ⟨S1x33x33x33, .f32⟩
  | 57 => ⟨S33x33x33, .f32⟩
  | 58 => ⟨S35937, .f32⟩
  | 59 => ⟨S_, .i32⟩
  | 60 => ⟨S8x1024x1024, .i32⟩
  | 61 => ⟨S8x1024x1024, .i1⟩
  | 62 => ⟨S_, .i32⟩
  | 63 => ⟨S8x1024x1024, .i32⟩
  | 64 => ⟨S8x1024x1024, .i32⟩
  | 65 => ⟨S8x1024x1024, .i32⟩
  | 66 => ⟨S8x1024x1024x1, .i32⟩
  | 67 => ⟨S8x1024x1024, .f32⟩
  | 68 => ⟨S1x33x33x33, .f32⟩
  | 69 => ⟨S33x33x33, .f32⟩
  | 70 => ⟨S35937, .f32⟩
  | 71 => ⟨S_, .i32⟩
  | 72 => ⟨S8x1024x1024, .i32⟩
  | 73 => ⟨S8x1024x1024, .i1⟩
  | 74 => ⟨S_, .i32⟩
  | 75 => ⟨S8x1024x1024, .i32⟩
  | 76 => ⟨S8x1024x1024, .i32⟩
  | 77 => ⟨S8x1024x1024, .i32⟩
  | 78 => ⟨S8x1024x1024x1, .i32⟩
  | 79 => ⟨S8x1024x1024, .f32⟩
  | 80 => ⟨S1x33x33x33, .f32⟩
  | 81 => ⟨S33x33x33, .f32⟩
  | 82 => ⟨S35937, .f32⟩
  | 83 => ⟨S_, .i32⟩
  | 84 => ⟨S8x1024x1024, .i32⟩
  | 85 => ⟨S8x1024x1024, .i1⟩
  | 86 => ⟨S_, .i32⟩
  | 87 => ⟨S8x1024x1024, .i32⟩
  | 88 => ⟨S8x1024x1024, .i32⟩
  | 89 => ⟨S8x1024x1024, .i32⟩
  | 90 => ⟨S8x1024x1024x1, .i32⟩
  | 91 => ⟨S8x1024x1024, .f32⟩
  | 92 => ⟨S8x1x1024x1024, .f32⟩
  | 93 => ⟨S8x1x1024x1024, .f32⟩
  | 94 => ⟨S8x1x1024x1024, .f32⟩
  | 95 => ⟨S8x3x1024x1024, .f32⟩
  | 96 => ⟨S_, .i32⟩
  | 97 => ⟨S8x1024x1024, .i32⟩
  | 98 => ⟨S8x1024x1024, .i32⟩
  | 99 => ⟨S_, .i32⟩
  | 100 => ⟨S8x1024x1024, .i32⟩
  | 101 => ⟨S8x1024x1024, .i32⟩
  | 102 => ⟨S_, .i32⟩
  | 103 => ⟨S8x1024x1024, .i32⟩
  | 104 => ⟨S8x1024x1024, .i32⟩
  | 105 => ⟨S8x1024x1024, .i32⟩
  | 106 => ⟨S_, .i32⟩
  | 107 => ⟨S8x1024x1024, .i32⟩
  | 108 => ⟨S8x1024x1024, .i32⟩
  | 109 => ⟨S_, .i32⟩
  | 110 => ⟨S8x1024x1024, .i32⟩
  | 111 => ⟨S8x1024x1024, .i32⟩
  | 112 => ⟨S8x1024x1024, .i32⟩
  | 113 => ⟨S1x33x33x33, .f32⟩
  | 114 => ⟨S33x33x33, .f32⟩
  | 115 => ⟨S35937, .f32⟩
  | 116 => ⟨S_, .i32⟩
  | 117 => ⟨S8x1024x1024, .i32⟩
  | 118 => ⟨S8x1024x1024, .i1⟩
  | 119 => ⟨S_, .i32⟩
  | 120 => ⟨S8x1024x1024, .i32⟩
  | 121 => ⟨S8x1024x1024, .i32⟩
  | 122 => ⟨S8x1024x1024, .i32⟩
  | 123 => ⟨S8x1024x1024x1, .i32⟩
  | 124 => ⟨S8x1024x1024, .f32⟩
  | 125 => ⟨S1x33x33x33, .f32⟩
  | 126 => ⟨S33x33x33, .f32⟩
  | 127 => ⟨S35937, .f32⟩
  | _ => ⟨S3x33x33x33, .f32⟩

abbrev hbmTy0_2 (i : Nat) : BufTy := match i % 128 with
  | 0 => ⟨S_, .i32⟩
  | 1 => ⟨S8x1024x1024, .i32⟩
  | 2 => ⟨S8x1024x1024, .i1⟩
  | 3 => ⟨S_, .i32⟩
  | 4 => ⟨S8x1024x1024, .i32⟩
  | 5 => ⟨S8x1024x1024, .i32⟩
  | 6 => ⟨S8x1024x1024, .i32⟩
  | 7 => ⟨S8x1024x1024x1, .i32⟩
  | 8 => ⟨S8x1024x1024, .f32⟩
  | 9 => ⟨S1x33x33x33, .f32⟩
  | 10 => ⟨S33x33x33, .f32⟩
  | 11 => ⟨S35937, .f32⟩
  | 12 => ⟨S_, .i32⟩
  | 13 => ⟨S8x1024x1024, .i32⟩
  | 14 => ⟨S8x1024x1024, .i1⟩
  | 15 => ⟨S_, .i32⟩
  | 16 => ⟨S8x1024x1024, .i32⟩
  | 17 => ⟨S8x1024x1024, .i32⟩
  | 18 => ⟨S8x1024x1024, .i32⟩
  | 19 => ⟨S8x1024x1024x1, .i32⟩
  | 20 => ⟨S8x1024x1024, .f32⟩
  | 21 => ⟨S8x1x1024x1024, .f32⟩
  | 22 => ⟨S8x1x1024x1024, .f32⟩
  | 23 => ⟨S8x1x1024x1024, .f32⟩
  | 24 => ⟨S8x3x1024x1024, .f32⟩
  | 25 => ⟨S8x1x1024x1024, .f32⟩
  | 26 => ⟨S8x1x1024x1024, .f32⟩
  | 27 => ⟨S_, .f32⟩
  | 28 => ⟨S8x1x1024x1024, .f32⟩
  | 29 => ⟨S8x1x1024x1024, .f32⟩
  | 30 => ⟨S8x3x1024x1024, .f32⟩
  | 31 => ⟨S8x3x1024x1024, .f32⟩
  | 32 => ⟨S8x3x1024x1024, .f32⟩
  | 33 => ⟨S8x3x1024x1024, .f32⟩
  | 34 => ⟨S8x3x1024x1024, .f32⟩
  | 35 => ⟨S_, .f32⟩
  | 36 => ⟨S8x1x1024x1024, .f32⟩
  | 37 => ⟨S8x1x1024x1024, .f32⟩
  | 38 => ⟨S8x3x1024x1024, .f32⟩
  | 39 => ⟨S8x3x1024x1024, .f32⟩
  | 40 => ⟨S8x3x1024x1024, .f32⟩
  | 41 => ⟨S8x3x1024x1024, .f32⟩
  | 42 => ⟨S8x3x1024x1024, .f32⟩
  | 43 => ⟨S_, .f32⟩
  | 44 => ⟨S8x1x1024x1024, .f32⟩
  | 45 => ⟨S8x1x1024x1024, .f32⟩
  | 46 => ⟨S8x3x1024x1024, .f32⟩
  | 47 => ⟨S8x3x1024x1024, .f32⟩
  | 48 => ⟨S8x3x1024x1024, .f32⟩
  | 49 => ⟨S8x3x1024x1024, .f32⟩
  | 50 => ⟨S8x3x1024x1024, .f32⟩
  | 51 => ⟨S_, .i32⟩
  | 52 => ⟨S8x1024x1024, .i32⟩
  | 53 => ⟨S8x1024x1024, .i32⟩
  | 54 => ⟨S_, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i32⟩
  | 60 => ⟨S8x1024x1024, .i32⟩
  | 61 => ⟨S_, .i32⟩
  | 62 => ⟨S8x1024x1024, .i32⟩
  | 63 => ⟨S8x1024x1024, .i32⟩
  | 64 => ⟨S_, .i32⟩
  | 65 => ⟨S8x1024x1024, .i32⟩
  | 66 => ⟨S8x1024x1024, .i32⟩
  | 67 => ⟨S8x1024x1024, .i32⟩
  | 68 => ⟨S1x33x33x33, .f32⟩
  | 69 => ⟨S33x33x33, .f32⟩
  | 70 => ⟨S35937, .f32⟩
  | 71 => ⟨S_, .i32⟩
  | 72 => ⟨S8x1024x1024, .i32⟩
  | 73 => ⟨S8x1024x1024, .i1⟩
  | 74 => ⟨S_, .i32⟩
  | 75 => ⟨S8x1024x1024, .i32⟩
  | 76 => ⟨S8x1024x1024, .i32⟩
  | 77 => ⟨S8x1024x1024, .i32⟩
  | 78 => ⟨S8x1024x1024x1, .i32⟩
  | 79 => ⟨S8x1024x1024, .f32⟩
  | 80 => ⟨S1x33x33x33, .f32⟩
  | 81 => ⟨S33x33x33, .f32⟩
  | 82 => ⟨S35937, .f32⟩
  | 83 => ⟨S_, .i32⟩
  | 84 => ⟨S8x1024x1024, .i32⟩
  | 85 => ⟨S8x1024x1024, .i1⟩
  | 86 => ⟨S_, .i32⟩
  | 87 => ⟨S8x1024x1024, .i32⟩
  | 88 => ⟨S8x1024x1024, .i32⟩
  | 89 => ⟨S8x1024x1024, .i32⟩
  | 90 => ⟨S8x1024x1024x1, .i32⟩
  | 91 => ⟨S8x1024x1024, .f32⟩
  | 92 => ⟨S1x33x33x33, .f32⟩
  | 93 => ⟨S33x33x33, .f32⟩
  | 94 => ⟨S35937, .f32⟩
  | 95 => ⟨S_, .i32⟩
  | 96 => ⟨S8x1024x1024, .i32⟩
  | 97 => ⟨S8x1024x1024, .i1⟩
  | 98 => ⟨S_, .i32⟩
  | 99 => ⟨S8x1024x1024, .i32⟩
  | 100 => ⟨S8x1024x1024, .i32⟩
  | 101 => ⟨S8x1024x1024, .i32⟩
  | 102 => ⟨S8x1024x1024x1, .i32⟩
  | 103 => ⟨S8x1024x1024, .f32⟩
  | 104 => ⟨S8x1x1024x1024, .f32⟩
  | 105 => ⟨S8x1x1024x1024, .f32⟩
  | 106 => ⟨S8x1x1024x1024, .f32⟩
  | 107 => ⟨S8x3x1024x1024, .f32⟩
  | 108 => ⟨S_, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i32⟩
  | 117 => ⟨S8x1024x1024, .i32⟩
  | 118 => ⟨S_, .i32⟩
  | 119 => ⟨S8x1024x1024, .i32⟩
  | 120 => ⟨S8x1024x1024, .i32⟩
  | 121 => ⟨S_, .i32⟩
  | 122 => ⟨S8x1024x1024, .i32⟩
  | 123 => ⟨S8x1024x1024, .i32⟩
  | 124 => ⟨S8x1024x1024, .i32⟩
  | 125 => ⟨S1x33x33x33, .f32⟩
  | 126 => ⟨S33x33x33, .f32⟩
  | 127 => ⟨S35937, .f32⟩
  | _ => ⟨S3x33x33x33, .f32⟩

abbrev hbmTy0_3 (i : Nat) : BufTy := match i % 128 with
  | 0 => ⟨S_, .i32⟩
  | 1 => ⟨S8x1024x1024, .i32⟩
  | 2 => ⟨S8x1024x1024, .i1⟩
  | 3 => ⟨S_, .i32⟩
  | 4 => ⟨S8x1024x1024, .i32⟩
  | 5 => ⟨S8x1024x1024, .i32⟩
  | 6 => ⟨S8x1024x1024, .i32⟩
  | 7 => ⟨S8x1024x1024x1, .i32⟩
  | 8 => ⟨S8x1024x1024, .f32⟩
  | 9 => ⟨S1x33x33x33, .f32⟩
  | 10 => ⟨S33x33x33, .f32⟩
  | 11 => ⟨S35937, .f32⟩
  | 12 => ⟨S_, .i32⟩
  | 13 => ⟨S8x1024x1024, .i32⟩
  | 14 => ⟨S8x1024x1024, .i1⟩
  | 15 => ⟨S_, .i32⟩
  | 16 => ⟨S8x1024x1024, .i32⟩
  | 17 => ⟨S8x1024x1024, .i32⟩
  | 18 => ⟨S8x1024x1024, .i32⟩
  | 19 => ⟨S8x1024x1024x1, .i32⟩
  | 20 => ⟨S8x1024x1024, .f32⟩
  | 21 => ⟨S1x33x33x33, .f32⟩
  | 22 => ⟨S33x33x33, .f32⟩
  | 23 => ⟨S35937, .f32⟩
  | 24 => ⟨S_, .i32⟩
  | 25 => ⟨S8x1024x1024, .i32⟩
  | 26 => ⟨S8x1024x1024, .i1⟩
  | 27 => ⟨S_, .i32⟩
  | 28 => ⟨S8x1024x1024, .i32⟩
  | 29 => ⟨S8x1024x1024, .i32⟩
  | 30 => ⟨S8x1024x1024, .i32⟩
  | 31 => ⟨S8x1024x1024x1, .i32⟩
  | 32 => ⟨S8x1024x1024, .f32⟩
  | 33 => ⟨S8x1x1024x1024, .f32⟩
  | 34 => ⟨S8x1x1024x1024, .f32⟩
  | 35 => ⟨S8x1x1024x1024, .f32⟩
  | 36 => ⟨S8x3x1024x1024, .f32⟩
  | 37 => ⟨S_, .i32⟩
  | 38 => ⟨S8x1024x1024, .i32⟩
  | 39 => ⟨S8x1024x1024, .i32⟩
  | 40 => ⟨S_, .i32⟩
  | 41 => ⟨S8x1024x1024, .i32⟩
  | 42 => ⟨S8x1024x1024, .i32⟩
  | 43 => ⟨S_, .i32⟩
  | 44 => ⟨S8x1024x1024, .i32⟩
  | 45 => ⟨S8x1024x1024, .i32⟩
  | 46 => ⟨S8x1024x1024, .i32⟩
  | 47 => ⟨S_, .i32⟩
  | 48 => ⟨S8x1024x1024, .i32⟩
  | 49 => ⟨S8x1024x1024, .i32⟩
  | 50 => ⟨S_, .i32⟩
  | 51 => ⟨S8x1024x1024, .i32⟩
  | 52 => ⟨S8x1024x1024, .i32⟩
  | 53 => ⟨S8x1024x1024, .i32⟩
  | 54 => ⟨S1x33x33x33, .f32⟩
  | 55 => ⟨S33x33x33, .f32⟩
  | 56 => ⟨S35937, .f32⟩
  | 57 => ⟨S_, .i32⟩
  | 58 => ⟨S8x1024x1024, .i32⟩
  | 59 => ⟨S8x1024x1024, .i1⟩
  | 60 => ⟨S_, .i32⟩
  | 61 => ⟨S8x1024x1024, .i32⟩
  | 62 => ⟨S8x1024x1024, .i32⟩
  | 63 => ⟨S8x1024x1024, .i32⟩
  | 64 => ⟨S8x1024x1024x1, .i32⟩
  | 65 => ⟨S8x1024x1024, .f32⟩
  | 66 => ⟨S1x33x33x33, .f32⟩
  | 67 => ⟨S33x33x33, .f32⟩
  | 68 => ⟨S35937, .f32⟩
  | 69 => ⟨S_, .i32⟩
  | 70 => ⟨S8x1024x1024, .i32⟩
  | 71 => ⟨S8x1024x1024, .i1⟩
  | 72 => ⟨S_, .i32⟩
  | 73 => ⟨S8x1024x1024, .i32⟩
  | 74 => ⟨S8x1024x1024, .i32⟩
  | 75 => ⟨S8x1024x1024, .i32⟩
  | 76 => ⟨S8x1024x1024x1, .i32⟩
  | 77 => ⟨S8x1024x1024, .f32⟩
  | 78 => ⟨S1x33x33x33, .f32⟩
  | 79 => ⟨S33x33x33, .f32⟩
  | 80 => ⟨S35937, .f32⟩
  | 81 => ⟨S_, .i32⟩
  | 82 => ⟨S8x1024x1024, .i32⟩
  | 83 => ⟨S8x1024x1024, .i1⟩
  | 84 => ⟨S_, .i32⟩
  | 85 => ⟨S8x1024x1024, .i32⟩
  | 86 => ⟨S8x1024x1024, .i32⟩
  | 87 => ⟨S8x1024x1024, .i32⟩
  | 88 => ⟨S8x1024x1024x1, .i32⟩
  | 89 => ⟨S8x1024x1024, .f32⟩
  | 90 => ⟨S8x1x1024x1024, .f32⟩
  | 91 => ⟨S8x1x1024x1024, .f32⟩
  | 92 => ⟨S8x1x1024x1024, .f32⟩
  | 93 => ⟨S8x3x1024x1024, .f32⟩
  | 94 => ⟨S_, .i32⟩
  | 95 => ⟨S8x1024x1024, .i32⟩
  | 96 => ⟨S8x1024x1024, .i32⟩
  | 97 => ⟨S_, .i32⟩
  | 98 => ⟨S8x1024x1024, .i32⟩
  | 99 => ⟨S8x1024x1024, .i32⟩
  | 100 => ⟨S_, .i32⟩
  | 101 => ⟨S8x1024x1024, .i32⟩
  | 102 => ⟨S8x1024x1024, .i32⟩
  | 103 => ⟨S8x1024x1024, .i32⟩
  | 104 => ⟨S_, .i32⟩
  | 105 => ⟨S8x1024x1024, .i32⟩
  | 106 => ⟨S8x1024x1024, .i32⟩
  | 107 => ⟨S_, .i32⟩
  | 108 => ⟨S8x1024x1024, .i32⟩
  | 109 => ⟨S8x1024x1024, .i32⟩
  | 110 => ⟨S8x1024x1024, .i32⟩
  | 111 => ⟨S1x33x33x33, .f32⟩
  | 112 => ⟨S33x33x33, .f32⟩
  | 113 => ⟨S35937, .f32⟩
  | 114 => ⟨S_, .i32⟩
  | 115 => ⟨S8x1024x1024, .i32⟩
  | 116 => ⟨S8x1024x1024, .i1⟩
  | 117 => ⟨S_, .i32⟩
  | 118 => ⟨S8x1024x1024, .i32⟩
  | 119 => ⟨S8x1024x1024, .i32⟩
  | 120 => ⟨S8x1024x1024, .i32⟩
  | 121 => ⟨S8x1024x1024x1, .i32⟩
  | 122 => ⟨S8x1024x1024, .f32⟩
  | 123 => ⟨S1x33x33x33, .f32⟩
  | 124 => ⟨S33x33x33, .f32⟩
  | 125 => ⟨S35937, .f32⟩
  | 126 => ⟨S_, .i32⟩
  | 127 => ⟨S8x1024x1024, .i32⟩
  | _ => ⟨S3x33x33x33, .f32⟩

abbrev hbmTy0_4 (i : Nat) : BufTy := match i % 128 with
  | 0 => ⟨S8x1024x1024, .i1⟩
  | 1 => ⟨S_, .i32⟩
  | 2 => ⟨S8x1024x1024, .i32⟩
  | 3 => ⟨S8x1024x1024, .i32⟩
  | 4 => ⟨S8x1024x1024, .i32⟩
  | 5 => ⟨S8x1024x1024x1, .i32⟩
  | 6 => ⟨S8x1024x1024, .f32⟩
  | 7 => ⟨S1x33x33x33, .f32⟩
  | 8 => ⟨S33x33x33, .f32⟩
  | 9 => ⟨S35937, .f32⟩
  | 10 => ⟨S_, .i32⟩
  | 11 => ⟨S8x1024x1024, .i32⟩
  | 12 => ⟨S8x1024x1024, .i1⟩
  | 13 => ⟨S_, .i32⟩
  | 14 => ⟨S8x1024x1024, .i32⟩
  | 15 => ⟨S8x1024x1024, .i32⟩
  | 16 => ⟨S8x1024x1024, .i32⟩
  | 17 => ⟨S8x1024x1024x1, .i32⟩
  | 18 => ⟨S8x1024x1024, .f32⟩
  | 19 => ⟨S8x1x1024x1024, .f32⟩
  | 20 => ⟨S8x1x1024x1024, .f32⟩
  | 21 => ⟨S8x1x1024x1024, .f32⟩
  | 22 => ⟨S8x3x1024x1024, .f32⟩
  | 23 => ⟨S8x1x1024x1024, .f32⟩
  | 24 => ⟨S8x1x1024x1024, .f32⟩
  | 25 => ⟨S_, .f32⟩
  | 26 => ⟨S8x1x1024x1024, .f32⟩
  | 27 => ⟨S8x1x1024x1024, .f32⟩
  | 28 => ⟨S8x3x1024x1024, .f32⟩
  | 29 => ⟨S8x3x1024x1024, .f32⟩
  | 30 => ⟨S8x3x1024x1024, .f32⟩
  | 31 => ⟨S8x3x1024x1024, .f32⟩
  | 32 => ⟨S8x3x1024x1024, .f32⟩
  | 33 => ⟨S_, .f32⟩
  | 34 => ⟨S8x1x1024x1024, .f32⟩
  | 35 => ⟨S8x1x1024x1024, .f32⟩
  | 36 => ⟨S8x3x1024x1024, .f32⟩
  | 37 => ⟨S8x3x1024x1024, .f32⟩
  | 38 => ⟨S8x3x1024x1024, .f32⟩
  | 39 => ⟨S8x3x1024x1024, .f32⟩
  | 40 => ⟨S8x3x1024x1024, .f32⟩
  | 41 => ⟨S_, .f32⟩
  | 42 => ⟨S8x1x1024x1024, .f32⟩
  | 43 => ⟨S8x1x1024x1024, .f32⟩
  | 44 => ⟨S8x3x1024x1024, .f32⟩
  | 45 => ⟨S8x3x1024x1024, .f32⟩
  | 46 => ⟨S8x3x1024x1024, .f32⟩
  | 47 => ⟨S8x3x1024x1024, .f32⟩
  | 48 => ⟨S8x3x1024x1024, .f32⟩
  | 49 => ⟨S1x8x3x1024x1024, .f32⟩
  | 50 => ⟨S1x8x3x1024x1024, .f32⟩
  | 51 => ⟨S2x8x3x1024x1024, .f32⟩
  | 52 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x33x33x33, .f32⟩

abbrev bufTy : (tb : Table) → Fin (tcTables nBuf tb) → BufTy
  | .hbm, ⟨i, _⟩ => hbmTy i
  | .local _ .vmem, ⟨0, _⟩ => ⟨S2x1x3x128x1024, .f32⟩
  | .local _ .vmem, ⟨1, _⟩ => ⟨S2x1x3x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x3x128x1024, .f32⟩
  | .local _ .vmem, ⟨5, _⟩ => ⟨S1x3x128x1024, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_c_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_10 : Ref sig .tc := ⟨.hbm, 63, rfl⟩
abbrev main_v34 : Ref sig .tc := ⟨.hbm, 64, rfl⟩
abbrev main_v35 : Ref sig .tc := ⟨.hbm, 65, rfl⟩
abbrev main_c_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_12 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_16 : Ref sig .tc := ⟨.hbm, 97, rfl⟩
abbrev main_v62 : Ref sig .tc := ⟨.hbm, 98, rfl⟩
abbrev main_v63 : Ref sig .tc := ⟨.hbm, 99, rfl⟩
abbrev main_c_17 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_18 : Ref sig .tc := ⟨.hbm, 110, rfl⟩
abbrev main_v73 : Ref sig .tc := ⟨.hbm, 111, rfl⟩
abbrev main_v74 : Ref sig .tc := ⟨.hbm, 112, rfl⟩
abbrev main_c_19 : Ref sig .tc := ⟨.hbm, 113, rfl⟩
abbrev main_v75 : Ref sig .tc := ⟨.hbm, 114, rfl⟩
abbrev main_v76 : Ref sig .tc := ⟨.hbm, 115, rfl⟩
abbrev main_c_20 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_21 : Ref sig .tc := ⟨.hbm, 120, rfl⟩
abbrev main_v80 : Ref sig .tc := ⟨.hbm, 121, rfl⟩
abbrev main_v81 : Ref sig .tc := ⟨.hbm, 122, rfl⟩
abbrev main_c_22 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_23 : Ref sig .tc := ⟨.hbm, 130, rfl⟩
abbrev main_v88 : Ref sig .tc := ⟨.hbm, 131, rfl⟩
abbrev main_v89 : Ref sig .tc := ⟨.hbm, 132, rfl⟩
abbrev main_c_24 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_25 : Ref sig .tc := ⟨.hbm, 142, rfl⟩
abbrev main_v98 : Ref sig .tc := ⟨.hbm, 143, rfl⟩
abbrev main_v99 : Ref sig .tc := ⟨.hbm, 144, rfl⟩
abbrev main_c_26 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_27 : Ref sig .tc := ⟨.hbm, 154, rfl⟩
abbrev main_v108 : Ref sig .tc := ⟨.hbm, 155, rfl⟩
abbrev main_v109 : Ref sig .tc := ⟨.hbm, 156, rfl⟩
abbrev main_c_28 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_29 : Ref sig .tc := ⟨.hbm, 167, rfl⟩
abbrev main_v119 : Ref sig .tc := ⟨.hbm, 168, rfl⟩
abbrev main_v120 : Ref sig .tc := ⟨.hbm, 169, rfl⟩
abbrev main_c_30 : Ref sig .tc := ⟨.hbm, 170, rfl⟩
abbrev main_v121 : Ref sig .tc := ⟨.hbm, 171, rfl⟩
abbrev main_v122 : Ref sig .tc := ⟨.hbm, 172, rfl⟩
abbrev main_c_31 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_32 : Ref sig .tc := ⟨.hbm, 177, rfl⟩
abbrev main_v126 : Ref sig .tc := ⟨.hbm, 178, rfl⟩
abbrev main_v127 : Ref sig .tc := ⟨.hbm, 179, rfl⟩
abbrev main_c_33 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_34 : Ref sig .tc := ⟨.hbm, 187, rfl⟩
abbrev main_v134 : Ref sig .tc := ⟨.hbm, 188, rfl⟩
abbrev main_v135 : Ref sig .tc := ⟨.hbm, 189, rfl⟩
abbrev main_c_35 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_36 : Ref sig .tc := ⟨.hbm, 199, rfl⟩
abbrev main_v144 : Ref sig .tc := ⟨.hbm, 200, rfl⟩
abbrev main_v145 : Ref sig .tc := ⟨.hbm, 201, rfl⟩
abbrev main_c_37 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_c_38 : Ref sig .tc := ⟨.hbm, 211, rfl⟩
abbrev main_v154 : Ref sig .tc := ⟨.hbm, 212, rfl⟩
abbrev main_v155 : Ref sig .tc := ⟨.hbm, 213, rfl⟩
abbrev main_c_39 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_c_40 : Ref sig .tc := ⟨.hbm, 224, rfl⟩
abbrev main_v165 : Ref sig .tc := ⟨.hbm, 225, rfl⟩
abbrev main_v166 : Ref sig .tc := ⟨.hbm, 226, rfl⟩
abbrev main_c_41 : Ref sig .tc := ⟨.hbm, 227, rfl⟩
abbrev main_v167 : Ref sig .tc := ⟨.hbm, 228, rfl⟩
abbrev main_v168 : Ref sig .tc := ⟨.hbm, 229, rfl⟩
abbrev main_c_42 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_c_43 : Ref sig .tc := ⟨.hbm, 234, rfl⟩
abbrev main_v172 : Ref sig .tc := ⟨.hbm, 235, rfl⟩
abbrev main_v173 : Ref sig .tc := ⟨.hbm, 236, rfl⟩
abbrev main_c_44 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_c_45 : Ref sig .tc := ⟨.hbm, 244, rfl⟩
abbrev main_v180 : Ref sig .tc := ⟨.hbm, 245, rfl⟩
abbrev main_v181 : Ref sig .tc := ⟨.hbm, 246, rfl⟩
abbrev main_c_46 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_c_47 : Ref sig .tc := ⟨.hbm, 256, rfl⟩
abbrev main_v190 : Ref sig .tc := ⟨.hbm, 257, rfl⟩
abbrev main_v191 : Ref sig .tc := ⟨.hbm, 258, rfl⟩
abbrev main_c_48 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_c_49 : Ref sig .tc := ⟨.hbm, 268, rfl⟩
abbrev main_v200 : Ref sig .tc := ⟨.hbm, 269, rfl⟩
abbrev main_v201 : Ref sig .tc := ⟨.hbm, 270, rfl⟩
abbrev main_c_50 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_51 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_cst_52 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_cst_53 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_c_54 : Ref sig .tc := ⟨.hbm, 307, rfl⟩
abbrev main_v234 : Ref sig .tc := ⟨.hbm, 308, rfl⟩
abbrev main_v235 : Ref sig .tc := ⟨.hbm, 309, rfl⟩
abbrev main_c_55 : Ref sig .tc := ⟨.hbm, 310, rfl⟩
abbrev main_v236 : Ref sig .tc := ⟨.hbm, 311, rfl⟩
abbrev main_v237 : Ref sig .tc := ⟨.hbm, 312, rfl⟩
abbrev main_c_56 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_c_57 : Ref sig .tc := ⟨.hbm, 317, rfl⟩
abbrev main_v241 : Ref sig .tc := ⟨.hbm, 318, rfl⟩
abbrev main_v242 : Ref sig .tc := ⟨.hbm, 319, rfl⟩
abbrev main_c_58 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_c_59 : Ref sig .tc := ⟨.hbm, 327, rfl⟩
abbrev main_v249 : Ref sig .tc := ⟨.hbm, 328, rfl⟩
abbrev main_v250 : Ref sig .tc := ⟨.hbm, 329, rfl⟩
abbrev main_c_60 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_c_61 : Ref sig .tc := ⟨.hbm, 339, rfl⟩
abbrev main_v259 : Ref sig .tc := ⟨.hbm, 340, rfl⟩
abbrev main_v260 : Ref sig .tc := ⟨.hbm, 341, rfl⟩
abbrev main_c_62 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_c_63 : Ref sig .tc := ⟨.hbm, 351, rfl⟩
abbrev main_v269 : Ref sig .tc := ⟨.hbm, 352, rfl⟩
abbrev main_v270 : Ref sig .tc := ⟨.hbm, 353, rfl⟩
abbrev main_c_64 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_c_65 : Ref sig .tc := ⟨.hbm, 364, rfl⟩
abbrev main_v280 : Ref sig .tc := ⟨.hbm, 365, rfl⟩
abbrev main_v281 : Ref sig .tc := ⟨.hbm, 366, rfl⟩
abbrev main_c_66 : Ref sig .tc := ⟨.hbm, 367, rfl⟩
abbrev main_v282 : Ref sig .tc := ⟨.hbm, 368, rfl⟩
abbrev main_v283 : Ref sig .tc := ⟨.hbm, 369, rfl⟩
abbrev main_c_67 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_c_68 : Ref sig .tc := ⟨.hbm, 374, rfl⟩
abbrev main_v287 : Ref sig .tc := ⟨.hbm, 375, rfl⟩
abbrev main_v288 : Ref sig .tc := ⟨.hbm, 376, rfl⟩
abbrev main_c_69 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_c_70 : Ref sig .tc := ⟨.hbm, 384, rfl⟩
abbrev main_v295 : Ref sig .tc := ⟨.hbm, 385, rfl⟩
abbrev main_v296 : Ref sig .tc := ⟨.hbm, 386, rfl⟩
abbrev main_c_71 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_c_72 : Ref sig .tc := ⟨.hbm, 396, rfl⟩
abbrev main_v305 : Ref sig .tc := ⟨.hbm, 397, rfl⟩
abbrev main_v306 : Ref sig .tc := ⟨.hbm, 398, rfl⟩
abbrev main_c_73 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_c_74 : Ref sig .tc := ⟨.hbm, 408, rfl⟩
abbrev main_v315 : Ref sig .tc := ⟨.hbm, 409, rfl⟩
abbrev main_v316 : Ref sig .tc := ⟨.hbm, 410, rfl⟩
abbrev main_c_75 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_c_76 : Ref sig .tc := ⟨.hbm, 421, rfl⟩
abbrev main_v326 : Ref sig .tc := ⟨.hbm, 422, rfl⟩
abbrev main_v327 : Ref sig .tc := ⟨.hbm, 423, rfl⟩
abbrev main_c_77 : Ref sig .tc := ⟨.hbm, 424, rfl⟩
abbrev main_v328 : Ref sig .tc := ⟨.hbm, 425, rfl⟩
abbrev main_v329 : Ref sig .tc := ⟨.hbm, 426, rfl⟩
abbrev main_c_78 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_c_79 : Ref sig .tc := ⟨.hbm, 431, rfl⟩
abbrev main_v333 : Ref sig .tc := ⟨.hbm, 432, rfl⟩
abbrev main_v334 : Ref sig .tc := ⟨.hbm, 433, rfl⟩
abbrev main_c_80 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_v339 : Ref sig .tc := ⟨.hbm, 439, rfl⟩
abbrev main_v340 : Ref sig .tc := ⟨.hbm, 440, rfl⟩
abbrev main_c_81 : Ref sig .tc := ⟨.hbm, 441, rfl⟩
abbrev main_v341 : Ref sig .tc := ⟨.hbm, 442, rfl⟩
abbrev main_v342 : Ref sig .tc := ⟨.hbm, 443, rfl⟩
abbrev main_c_82 : Ref sig .tc := ⟨.hbm, 444, rfl⟩
abbrev main_v343 : Ref sig .tc := ⟨.hbm, 445, rfl⟩
abbrev main_v344 : Ref sig .tc := ⟨.hbm, 446, rfl⟩
abbrev main_v345 : Ref sig .tc := ⟨.hbm, 447, rfl⟩
abbrev main_v346 : Ref sig .tc := ⟨.hbm, 448, rfl⟩
abbrev main_v347 : Ref sig .tc := ⟨.hbm, 449, rfl⟩
abbrev main_v348 : Ref sig .tc := ⟨.hbm, 450, rfl⟩
abbrev main_v349 : Ref sig .tc := ⟨.hbm, 451, rfl⟩
abbrev main_v350 : Ref sig .tc := ⟨.hbm, 452, rfl⟩
abbrev main_c_83 : Ref sig .tc := ⟨.hbm, 453, rfl⟩
abbrev main_v351 : Ref sig .tc := ⟨.hbm, 454, rfl⟩
abbrev main_v352 : Ref sig .tc := ⟨.hbm, 455, rfl⟩
abbrev main_c_84 : Ref sig .tc := ⟨.hbm, 456, rfl⟩
abbrev main_v353 : Ref sig .tc := ⟨.hbm, 457, rfl⟩
abbrev main_v354 : Ref sig .tc := ⟨.hbm, 458, rfl⟩
abbrev main_v355 : Ref sig .tc := ⟨.hbm, 459, rfl⟩
abbrev main_v356 : Ref sig .tc := ⟨.hbm, 460, rfl⟩
abbrev main_v357 : Ref sig .tc := ⟨.hbm, 461, rfl⟩
abbrev main_v358 : Ref sig .tc := ⟨.hbm, 462, rfl⟩
abbrev main_v359 : Ref sig .tc := ⟨.hbm, 463, rfl⟩
abbrev main_v360 : Ref sig .tc := ⟨.hbm, 464, rfl⟩
abbrev main_c_85 : Ref sig .tc := ⟨.hbm, 465, rfl⟩
abbrev main_v361 : Ref sig .tc := ⟨.hbm, 466, rfl⟩
abbrev main_v362 : Ref sig .tc := ⟨.hbm, 467, rfl⟩
abbrev main_c_86 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_v366 : Ref sig .tc := ⟨.hbm, 472, rfl⟩
abbrev main_v367 : Ref sig .tc := ⟨.hbm, 473, rfl⟩
abbrev main_v368 : Ref sig .tc := ⟨.hbm, 474, rfl⟩
abbrev main_v369 : Ref sig .tc := ⟨.hbm, 475, rfl⟩
abbrev main_v370 : Ref sig .tc := ⟨.hbm, 476, rfl⟩
abbrev main_v371 : Ref sig .tc := ⟨.hbm, 477, rfl⟩
abbrev main_c_87 : Ref sig .tc := ⟨.hbm, 478, rfl⟩
abbrev main_v372 : Ref sig .tc := ⟨.hbm, 479, rfl⟩
abbrev main_v373 : Ref sig .tc := ⟨.hbm, 480, rfl⟩
abbrev main_c_88 : Ref sig .tc := ⟨.hbm, 481, rfl⟩
abbrev main_v374 : Ref sig .tc := ⟨.hbm, 482, rfl⟩
abbrev main_v375 : Ref sig .tc := ⟨.hbm, 483, rfl⟩
abbrev main_c_89 : Ref sig .tc := ⟨.hbm, 484, rfl⟩
abbrev main_v376 : Ref sig .tc := ⟨.hbm, 485, rfl⟩
abbrev main_v377 : Ref sig .tc := ⟨.hbm, 486, rfl⟩
abbrev main_v378 : Ref sig .tc := ⟨.hbm, 487, rfl⟩
abbrev main_c_90 : Ref sig .tc := ⟨.hbm, 488, rfl⟩
abbrev main_v379 : Ref sig .tc := ⟨.hbm, 489, rfl⟩
abbrev main_v380 : Ref sig .tc := ⟨.hbm, 490, rfl⟩
abbrev main_c_91 : Ref sig .tc := ⟨.hbm, 491, rfl⟩
abbrev main_v381 : Ref sig .tc := ⟨.hbm, 492, rfl⟩
abbrev main_v382 : Ref sig .tc := ⟨.hbm, 493, rfl⟩
abbrev main_v383 : Ref sig .tc := ⟨.hbm, 494, rfl⟩
abbrev main_v384 : Ref sig .tc := ⟨.hbm, 495, rfl⟩
abbrev main_v385 : Ref sig .tc := ⟨.hbm, 496, rfl⟩
abbrev main_v386 : Ref sig .tc := ⟨.hbm, 497, rfl⟩
abbrev main_c_92 : Ref sig .tc := ⟨.hbm, 498, rfl⟩
abbrev main_v387 : Ref sig .tc := ⟨.hbm, 499, rfl⟩
abbrev main_v388 : Ref sig .tc := ⟨.hbm, 500, rfl⟩
abbrev main_c_93 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_c_94 : Ref sig .tc := ⟨.hbm, 510, rfl⟩
abbrev main_v397 : Ref sig .tc := ⟨.hbm, 511, rfl⟩
abbrev main_v398 : Ref sig .tc := ⟨.hbm, 512, rfl⟩
abbrev main_c_95 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_v404 : Ref sig .tc := ⟨.hbm, 519, rfl⟩
abbrev main_v405 : Ref sig .tc := ⟨.hbm, 520, rfl⟩
abbrev main_v406 : Ref sig .tc := ⟨.hbm, 521, rfl⟩
abbrev main_c_96 : Ref sig .tc := ⟨.hbm, 522, rfl⟩
abbrev main_v407 : Ref sig .tc := ⟨.hbm, 523, rfl⟩
abbrev main_v408 : Ref sig .tc := ⟨.hbm, 524, rfl⟩
abbrev main_c_97 : Ref sig .tc := ⟨.hbm, 525, rfl⟩
abbrev main_v409 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_cst_98 : Ref sig .tc := ⟨.hbm, 537, rfl⟩
abbrev main_v420 : Ref sig .tc := ⟨.hbm, 538, rfl⟩
abbrev main_v421 : Ref sig .tc := ⟨.hbm, 539, rfl⟩
abbrev main_v422 : Ref sig .tc := ⟨.hbm, 540, rfl⟩
abbrev main_v423 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_cst_99 : Ref sig .tc := ⟨.hbm, 545, rfl⟩
abbrev main_v427 : Ref sig .tc := ⟨.hbm, 546, rfl⟩
abbrev main_v428 : Ref sig .tc := ⟨.hbm, 547, rfl⟩
abbrev main_v429 : Ref sig .tc := ⟨.hbm, 548, rfl⟩
abbrev main_v430 : Ref sig .tc := ⟨.hbm, 549, rfl⟩
abbrev main_v431 : Ref sig .tc := ⟨.hbm, 550, rfl⟩
abbrev main_v432 : Ref sig .tc := ⟨.hbm, 551, rfl⟩
abbrev main_v433 : Ref sig .tc := ⟨.hbm, 552, rfl⟩
abbrev main_cst_100 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_v437 : Ref sig .tc := ⟨.hbm, 557, rfl⟩
abbrev main_v438 : Ref sig .tc := ⟨.hbm, 558, rfl⟩
abbrev main_v439 : Ref sig .tc := ⟨.hbm, 559, rfl⟩
abbrev main_v440 : Ref sig .tc := ⟨.hbm, 560, rfl⟩
abbrev main_v441 : Ref sig .tc := ⟨.hbm, 561, rfl⟩
abbrev main_v442 : Ref sig .tc := ⟨.hbm, 562, rfl⟩
abbrev main_v443 : Ref sig .tc := ⟨.hbm, 563, rfl⟩
abbrev main_v444 : Ref sig .tc := ⟨.hbm, 564, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S2x1x3x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  slices_S3x33x33x33_S1x33x33x33_0_0_0_0 : S3x33x33x33.Slices ![0, 0, 0, 0] S1x33x33x33
  shapeCasts_S1x33x33x33_S33x33x33 : S1x33x33x33.ShapeCasts S33x33x33
  shapeCasts_S33x33x33_S35937 : S33x33x33.ShapeCasts S35937
  bcast_S8x1024x1024_S8x1024x1024x1_0_1_2 : S8x1024x1024.BroadcastsInDim S8x1024x1024x1 (![0, 1, 2] : Fin 3 → Fin S8x1024x1024x1.rank)
  slices_S3x33x33x33_S1x33x33x33_1_0_0_0 : S3x33x33x33.Slices ![1, 0, 0, 0] S1x33x33x33
  slices_S3x33x33x33_S1x33x33x33_2_0_0_0 : S3x33x33x33.Slices ![2, 0, 0, 0] S1x33x33x33
  bcast_S8x1024x1024_S8x1x1024x1024_0_2_3 : S8x1024x1024.BroadcastsInDim S8x1x1024x1024 (![0, 2, 3] : Fin 3 → Fin S8x1x1024x1024.rank)
  concatenates_S8x1x1024x1024_S8x1x1024x1024_S8x1x1024x1024_S8x3x1024x1024_d1 : Shape.Concatenates [S8x1x1024x1024, S8x1x1024x1024, S8x1x1024x1024] S8x3x1024x1024 1
  bcast_S_S8x1x1024x1024 : S_.BroadcastsInDim S8x1x1024x1024 (![] : Fin 0 → Fin S8x1x1024x1024.rank)
  bcast_S8x1x1024x1024_S8x3x1024x1024_0_1_2_3 : S8x1x1024x1024.BroadcastsInDim S8x3x1024x1024 (![0, 1, 2, 3] : Fin 4 → Fin S8x3x1024x1024.rank)
  bcast_S8x3x1024x1024_S1x8x3x1024x1024_1_2_3_4 : S8x3x1024x1024.BroadcastsInDim S1x8x3x1024x1024 (![1, 2, 3, 4] : Fin 4 → Fin S1x8x3x1024x1024.rank)
  concatenates_S1x8x3x1024x1024_S1x8x3x1024x1024_S2x8x3x1024x1024_d0 : Shape.Concatenates [S1x8x3x1024x1024, S1x8x3x1024x1024] S2x8x3x1024x1024 0
  inb_S2x1x3x128x1024_S1x1x3x128x1024_0_0_0_0_0 : ∀ a, (![0, 0, 0, 0, 0] : Fin 5 → Nat) a + S1x1x3x128x1024.size a ≤ S2x1x3x128x1024.size a
  h_S1x1x3x128x1024 : 0 < S1x1x3x128x1024.numel
  shapeCasts_S1x1x3x128x1024_S1x3x128x1024 : S1x1x3x128x1024.ShapeCasts S1x3x128x1024
  inb_S2x1x3x128x1024_S1x1x3x128x1024_1_0_0_0_0 : ∀ a, (![1, 0, 0, 0, 0] : Fin 5 → Nat) a + S1x1x3x128x1024.size a ≤ S2x1x3x128x1024.size a
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S1x128x1024 : S1x128x1024.ShapeCasts S1x128x1024
  shapeCasts_S1x128x1024_S1x1x128x1024 : S1x128x1024.ShapeCasts S1x1x128x1024
  shapeCasts_S1x1x128x1024_S1x1x128x1024 : S1x1x128x1024.ShapeCasts S1x1x128x1024
  broadcasts_S1x1x128x1024_S1x3x128x1024 : S1x1x128x1024.Broadcasts S1x3x128x1024
  inb_S1x3x128x1024_S1x3x128x1024_0_0_0_0 : ∀ a, (![0, 0, 0, 0] : Fin 4 → Nat) a + S1x3x128x1024.size a ≤ S1x3x128x1024.size a
  h_S1x3x128x1024 : 0 < S1x3x128x1024.numel
  gather_S35937_S8x1024x1024x1_S8x1024x1024_n_0_n_n_0_3_1_wf : GatherDims.WF S35937 S8x1024x1024x1 S8x1024x1024 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x3x128x1024.size a ≤ S2x8x3x1024x1024.size a
  hwx0_0 : ∀ i : grid0.Coords, EltTy.bits .f32 = 32 ∨ (Rect.block (s := S2x8x3x1024x1024) S2x1x3x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x1024x1024.size a
  hwx0_1 : ∀ i : grid0.Coords, EltTy.bits .f32 = 32 ∨ (Rect.block (s := S8x1024x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128x1024.size a ≤ S8x3x1024x1024.size a
  hwx0_2 : ∀ i : grid0.Coords, EltTy.bits .f32 = 32 ∨ (Rect.block (s := S8x3x1024x1024) S1x3x128x1024.size (cc0_transform_2 i) (hinb0_2 i)).WholeWords (EltTy.packing .f32)

variable [Facts₀]

def gather_S35937_S8x1024x1024x1_S8x1024x1024_n_0_n_n_0_3_1 : GatherDims S35937 S8x1024x1024x1 S8x1024x1024 where
  offsetDims := []
  collapsedSliceDims := [0]
  operandBatchingDims := []
  startIndicesBatchingDims := []
  startIndexMap := [0]
  indexVectorDim := 3
  sliceSizes := ![1]
  wf := gather_S35937_S8x1024x1024x1_S8x1024x1024_n_0_n_n_0_3_1_wf

abbrev win0_0 : Pipeline.Window sig grid0 :=
  Pipeline.Window.ofSpec (Memref.whole main_v443) S2x1x3x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v444) S1x3x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x35937 : Shape := ⟨2, ![3, 35937]⟩
abbrev S3x8x1024x1024 : Shape := ⟨4, ![3, 8, 1024, 1024]⟩
abbrev S1x8x1024x1024 : Shape := ⟨4, ![1, 8, 1024, 1024]⟩
abbrev S8x1024x1024x1 : Shape := ⟨4, ![8, 1024, 1024, 1]⟩

abbrev nBuf : Space → Nat
  | .hbm => 349
  | .vmem => 0
  | .smem => 0
  | _ => 0

abbrev hbmTy0_0 (i : Nat) : BufTy := match i % 128 with
  | 0 => ⟨S3x33x33x33, .f32⟩
  | 1 => ⟨S8x3x1024x1024, .f32⟩
  | 2 => ⟨S8x1x1024x1024, .f32⟩
  | 3 => ⟨S8x1024x1024, .f32⟩
  | 4 => ⟨S8x1x1024x1024, .f32⟩
  | 5 => ⟨S8x1024x1024, .f32⟩
  | 6 => ⟨S8x1x1024x1024, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .i32⟩
  | 20 => ⟨S_, .i32⟩
  | 21 => ⟨S_, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i32⟩
  | 27 => ⟨S8x1024x1024, .f32⟩
  | 28 => ⟨S8x1024x1024, .i32⟩
  | 29 => ⟨S_, .i32⟩
  | 30 => ⟨S_, .i32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S8x1024x1024, .f32⟩
  | 38 => ⟨S8x1024x1024, .i32⟩
  | 39 => ⟨S_, .i32⟩
  | 40 => ⟨S_, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S3x35937, .f32⟩
  | 54 => ⟨S_, .f32⟩
  | 55 => ⟨S3x8x1024x1024, .f32⟩
  | 56 => ⟨S_, .f32⟩
  | 57 => ⟨S8x1024x1024, .f32⟩
  | 58 => ⟨S8x1024x1024, .f32⟩
  | 59 => ⟨S_, .f32⟩
  | 60 => ⟨S8x1024x1024, .f32⟩
  | 61 => ⟨S8x1024x1024, .f32⟩
  | 62 => ⟨S8x1024x1024, .f32⟩
  | 63 => ⟨S_, .f32⟩
  | 64 => ⟨S8x1024x1024, .f32⟩
  | 65 => ⟨S8x1024x1024, .f32⟩
  | 66 => ⟨S8x1024x1024, .f32⟩
  | 67 => ⟨S1x8x1024x1024, .f32⟩
  | 68 => ⟨S_, .i32⟩
  | 69 => ⟨S8x1024x1024, .i32⟩
  | 70 => ⟨S8x1024x1024, .i32⟩
  | 71 => ⟨S_, .i32⟩
  | 72 => ⟨S8x1024x1024, .i32⟩
  | 73 => ⟨S8x1024x1024, .i32⟩
  | 74 => ⟨S_, .i32⟩
  | 75 => ⟨S8x1024x1024, .i32⟩
  | 76 => ⟨S8x1024x1024, .i32⟩
  | 77 => ⟨S8x1024x1024, .i32⟩
  | 78 => ⟨S_, .i32⟩
  | 79 => ⟨S8x1024x1024, .i32⟩
  | 80 => ⟨S8x1024x1024, .i32⟩
  | 81 => ⟨S_, .i32⟩
  | 82 => ⟨S8x1024x1024, .i32⟩
  | 83 => ⟨S8x1024x1024, .i32⟩
  | 84 => ⟨S8x1024x1024, .i32⟩
  | 85 => ⟨S_, .i32⟩
  | 86 => ⟨S8x1024x1024, .i32⟩
  | 87 => ⟨S8x1024x1024, .i1⟩
  | 88 => ⟨S_, .i32⟩
  | 89 => ⟨S8x1024x1024, .i32⟩
  | 90 => ⟨S8x1024x1024, .i32⟩
  | 91 => ⟨S8x1024x1024, .i32⟩
  | 92 => ⟨S8x1024x1024x1, .i32⟩
  | 93 => ⟨S3x8x1024x1024, .f32⟩
  | 94 => ⟨S3x8x1024x1024, .f32⟩
  | 95 => ⟨S3x8x1024x1024, .f32⟩
  | 96 => ⟨S3x8x1024x1024, .f32⟩
  | 97 => ⟨S_, .f32⟩
  | 98 => ⟨S8x1024x1024, .f32⟩
  | 99 => ⟨S8x1024x1024, .f32⟩
  | 100 => ⟨S_, .f32⟩
  | 101 => ⟨S8x1024x1024, .f32⟩
  | 102 => ⟨S8x1024x1024, .f32⟩
  | 103 => ⟨S8x1024x1024, .f32⟩
  | 104 => ⟨S8x1024x1024, .f32⟩
  | 105 => ⟨S1x8x1024x1024, .f32⟩
  | 106 => ⟨S_, .i32⟩
  | 107 => ⟨S8x1024x1024, .i32⟩
  | 108 => ⟨S8x1024x1024, .i32⟩
  | 109 => ⟨S_, .i32⟩
  | 110 => ⟨S8x1024x1024, .i32⟩
  | 111 => ⟨S8x1024x1024, .i32⟩
  | 112 => ⟨S_, .i32⟩
  | 113 => ⟨S8x1024x1024, .i32⟩
  | 114 => ⟨S8x1024x1024, .i32⟩
  | 115 => ⟨S8x1024x1024, .i32⟩
  | 116 => ⟨S_, .i32⟩
  | 117 => ⟨S8x1024x1024, .i32⟩
  | 118 => ⟨S8x1024x1024, .i32⟩
  | 119 => ⟨S_, .i32⟩
  | 120 => ⟨S8x1024x1024, .i32⟩
  | 121 => ⟨S8x1024x1024, .i32⟩
  | 122 => ⟨S8x1024x1024, .i32⟩
  | 123 => ⟨S_, .i32⟩
  | 124 => ⟨S8x1024x1024, .i32⟩
  | 125 => ⟨S8x1024x1024, .i1⟩
  | 126 => ⟨S_, .i32⟩
  | 127 => ⟨S8x1024x1024, .i32⟩
  | _ => ⟨S3x33x33x33, .f32⟩

abbrev hbmTy0_1 (i : Nat) : BufTy := match i % 128 with
  | 0 => ⟨S8x1024x1024, .i32⟩
  | 1 => ⟨S8x1024x1024, .i32⟩
  | 2 => ⟨S8x1024x1024x1, .i32⟩
  | 3 => ⟨S3x8x1024x1024, .f32⟩
  | 4 => ⟨S3x8x1024x1024, .f32⟩
  | 5 => ⟨S3x8x1024x1024, .f32⟩
  | 6 => ⟨S3x8x1024x1024, .f32⟩
  | 7 => ⟨S_, .f32⟩
  | 8 => ⟨S8x1024x1024, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S8x1024x1024, .f32⟩
  | 15 => ⟨S1x8x1024x1024, .f32⟩
  | 16 => ⟨S_, .i32⟩
  | 17 => ⟨S8x1024x1024, .i32⟩
  | 18 => ⟨S8x1024x1024, .i32⟩
  | 19 => ⟨S_, .i32⟩
  | 20 => ⟨S8x1024x1024, .i32⟩
  | 21 => ⟨S8x1024x1024, .i32⟩
  | 22 => ⟨S_, .i32⟩
  | 23 => ⟨S8x1024x1024, .i32⟩
  | 24 => ⟨S8x1024x1024, .i32⟩
  | 25 => ⟨S8x1024x1024, .i32⟩
  | 26 => ⟨S_, .i32⟩
  | 27 => ⟨S8x1024x1024, .i32⟩
  | 28 => ⟨S8x1024x1024, .i32⟩
  | 29 => ⟨S_, .i32⟩
  | 30 => ⟨S8x1024x1024, .i32⟩
  | 31 => ⟨S8x1024x1024, .i32⟩
  | 32 => ⟨S8x1024x1024, .i32⟩
  | 33 => ⟨S_, .i32⟩
  | 34 => ⟨S8x1024x1024, .i32⟩
  | 35 => ⟨S8x1024x1024, .i1⟩
  | 36 => ⟨S_, .i32⟩
  | 37 => ⟨S8x1024x1024, .i32⟩
  | 38 => ⟨S8x1024x1024, .i32⟩
  | 39 => ⟨S8x1024x1024, .i32⟩
  | 40 => ⟨S8x1024x1024x1, .i32⟩
  | 41 => ⟨S3x8x1024x1024, .f32⟩
  | 42 => ⟨S3x8x1024x1024, .f32⟩
  | 43 => ⟨S3x8x1024x1024, .f32⟩
  | 44 => ⟨S3x8x1024x1024, .f32⟩
  | 45 => ⟨S_, .f32⟩
  | 46 => ⟨S8x1024x1024, .f32⟩
  | 47 => ⟨S8x1024x1024, .f32⟩
  | 48 => ⟨S8x1024x1024, .f32⟩
  | 49 => ⟨S8x1024x1024, .f32⟩
  | 50 => ⟨S1x8x1024x1024, .f32⟩
  | 51 => ⟨S_, .i32⟩
  | 52 => ⟨S8x1024x1024, .i32⟩
  | 53 => ⟨S8x1024x1024, .i32⟩
  | 54 => ⟨S_, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i32⟩
  | 60 => ⟨S8x1024x1024, .i32⟩
  | 61 => ⟨S_, .i32⟩
  | 62 => ⟨S8x1024x1024, .i32⟩
  | 63 => ⟨S8x1024x1024, .i32⟩
  | 64 => ⟨S_, .i32⟩
  | 65 => ⟨S8x1024x1024, .i32⟩
  | 66 => ⟨S8x1024x1024, .i32⟩
  | 67 => ⟨S8x1024x1024, .i32⟩
  | 68 => ⟨S_, .i32⟩
  | 69 => ⟨S8x1024x1024, .i32⟩
  | 70 => ⟨S8x1024x1024, .i1⟩
  | 71 => ⟨S_, .i32⟩
  | 72 => ⟨S8x1024x1024, .i32⟩
  | 73 => ⟨S8x1024x1024, .i32⟩
  | 74 => ⟨S8x1024x1024, .i32⟩
  | 75 => ⟨S8x1024x1024x1, .i32⟩
  | 76 => ⟨S3x8x1024x1024, .f32⟩
  | 77 => ⟨S3x8x1024x1024, .f32⟩
  | 78 => ⟨S3x8x1024x1024, .f32⟩
  | 79 => ⟨S3x8x1024x1024, .f32⟩
  | 80 => ⟨S_, .f32⟩
  | 81 => ⟨S8x1024x1024, .f32⟩
  | 82 => ⟨S8x1024x1024, .f32⟩
  | 83 => ⟨S8x1024x1024, .f32⟩
  | 84 => ⟨S_, .f32⟩
  | 85 => ⟨S8x1024x1024, .f32⟩
  | 86 => ⟨S8x1024x1024, .f32⟩
  | 87 => ⟨S8x1024x1024, .f32⟩
  | 88 => ⟨S1x8x1024x1024, .f32⟩
  | 89 => ⟨S_, .i32⟩
  | 90 => ⟨S8x1024x1024, .i32⟩
  | 91 => ⟨S8x1024x1024, .i32⟩
  | 92 => ⟨S_, .i32⟩
  | 93 => ⟨S8x1024x1024, .i32⟩
  | 94 => ⟨S8x1024x1024, .i32⟩
  | 95 => ⟨S_, .i32⟩
  | 96 => ⟨S8x1024x1024, .i32⟩
  | 97 => ⟨S8x1024x1024, .i32⟩
  | 98 => ⟨S8x1024x1024, .i32⟩
  | 99 => ⟨S_, .i32⟩
  | 100 => ⟨S8x1024x1024, .i32⟩
  | 101 => ⟨S8x1024x1024, .i32⟩
  | 102 => ⟨S_, .i32⟩
  | 103 => ⟨S8x1024x1024, .i32⟩
  | 104 => ⟨S8x1024x1024, .i32⟩
  | 105 => ⟨S8x1024x1024, .i32⟩
  | 106 => ⟨S_, .i32⟩
  | 107 => ⟨S8x1024x1024, .i32⟩
  | 108 => ⟨S8x1024x1024, .i1⟩
  | 109 => ⟨S_, .i32⟩
  | 110 => ⟨S8x1024x1024, .i32⟩
  | 111 => ⟨S8x1024x1024, .i32⟩
  | 112 => ⟨S8x1024x1024, .i32⟩
  | 113 => ⟨S8x1024x1024x1, .i32⟩
  | 114 => ⟨S3x8x1024x1024, .f32⟩
  | 115 => ⟨S3x8x1024x1024, .f32⟩
  | 116 => ⟨S3x8x1024x1024, .f32⟩
  | 117 => ⟨S3x8x1024x1024, .f32⟩
  | 118 => ⟨S_, .f32⟩
  | 119 => ⟨S8x1024x1024, .f32⟩
  | 120 => ⟨S8x1024x1024, .f32⟩
  | 121 => ⟨S8x1024x1024, .f32⟩
  | 122 => ⟨S8x1024x1024, .f32⟩
  | 123 => ⟨S1x8x1024x1024, .f32⟩
  | 124 => ⟨S_, .i32⟩
  | 125 => ⟨S8x1024x1024, .i32⟩
  | 126 => ⟨S8x1024x1024, .i32⟩
  | 127 => ⟨S_, .i32⟩
  | _ => ⟨S3x33x33x33, .f32⟩

abbrev hbmTy0_2 (i : Nat) : BufTy := match i % 128 with
  | 0 => ⟨S8x1024x1024, .i32⟩
  | 1 => ⟨S8x1024x1024, .i32⟩
  | 2 => ⟨S_, .i32⟩
  | 3 => ⟨S8x1024x1024, .i32⟩
  | 4 => ⟨S8x1024x1024, .i32⟩
  | 5 => ⟨S8x1024x1024, .i32⟩
  | 6 => ⟨S_, .i32⟩
  | 7 => ⟨S8x1024x1024, .i32⟩
  | 8 => ⟨S8x1024x1024, .i32⟩
  | 9 => ⟨S_, .i32⟩
  | 10 => ⟨S8x1024x1024, .i32⟩
  | 11 => ⟨S8x1024x1024, .i32⟩
  | 12 => ⟨S8x1024x1024, .i32⟩
  | 13 => ⟨S_, .i32⟩
  | 14 => ⟨S8x1024x1024, .i32⟩
  | 15 => ⟨S8x1024x1024, .i1⟩
  | 16 => ⟨S_, .i32⟩
  | 17 => ⟨S8x1024x1024, .i32⟩
  | 18 => ⟨S8x1024x1024, .i32⟩
  | 19 => ⟨S8x1024x1024, .i32⟩
  | 20 => ⟨S8x1024x1024x1, .i32⟩
  | 21 => ⟨S3x8x1024x1024, .f32⟩
  | 22 => ⟨S3x8x1024x1024, .f32⟩
  | 23 => ⟨S3x8x1024x1024, .f32⟩
  | 24 => ⟨S3x8x1024x1024, .f32⟩
  | 25 => ⟨S8x1024x1024, .f32⟩
  | 26 => ⟨S_, .f32⟩
  | 27 => ⟨S8x1024x1024, .f32⟩
  | 28 => ⟨S8x1024x1024, .f32⟩
  | 29 => ⟨S8x1024x1024, .f32⟩
  | 30 => ⟨S1x8x1024x1024, .f32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S_, .i32⟩
  | 38 => ⟨S8x1024x1024, .i32⟩
  | 39 => ⟨S8x1024x1024, .i32⟩
  | 40 => ⟨S8x1024x1024, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .i32⟩
  | 48 => ⟨S_, .i32⟩
  | 49 => ⟨S8x1024x1024, .i32⟩
  | 50 => ⟨S8x1024x1024, .i1⟩
  | 51 => ⟨S_, .i32⟩
  | 52 => ⟨S8x1024x1024, .i32⟩
  | 53 => ⟨S8x1024x1024, .i32⟩
  | 54 => ⟨S8x1024x1024, .i32⟩
  | 55 => ⟨S8x1024x1024x1, .i32⟩
  | 56 => ⟨S3x8x1024x1024, .f32⟩
  | 57 => ⟨S3x8x1024x1024, .f32⟩
  | 58 => ⟨S3x8x1024x1024, .f32⟩
  | 59 => ⟨S3x8x1024x1024, .f32⟩
  | 60 => ⟨S8x1024x1024, .f32⟩
  | 61 => ⟨S8x1024x1024, .f32⟩
  | 62 => ⟨S1x8x1024x1024, .f32⟩
  | 63 => ⟨S_, .i32⟩
  | 64 => ⟨S8x1024x1024, .i32⟩
  | 65 => ⟨S8x1024x1024, .i32⟩
  | 66 => ⟨S_, .i32⟩
  | 67 => ⟨S8x1024x1024, .i32⟩
  | 68 => ⟨S8x1024x1024, .i32⟩
  | 69 => ⟨S_, .i32⟩
  | 70 => ⟨S8x1024x1024, .i32⟩
  | 71 => ⟨S8x1024x1024, .i32⟩
  | 72 => ⟨S8x1024x1024, .i32⟩
  | 73 => ⟨S_, .i32⟩
  | 74 => ⟨S8x1024x1024, .i32⟩
  | 75 => ⟨S8x1024x1024, .i32⟩
  | 76 => ⟨S_, .i32⟩
  | 77 => ⟨S8x1024x1024, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i1⟩
  | 83 => ⟨S_, .i32⟩
  | 84 => ⟨S8x1024x1024, .i32⟩
  | 85 => ⟨S8x1024x1024, .i32⟩
  | 86 => ⟨S8x1024x1024, .i32⟩
  | 87 => ⟨S8x1024x1024x1, .i32⟩
  | 88 => ⟨S3x8x1024x1024, .f32⟩
  | 89 => ⟨S3x8x1024x1024, .f32⟩
  | 90 => ⟨S3x8x1024x1024, .f32⟩
  | 91 => ⟨S3x8x1024x1024, .f32⟩
  | 92 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_10 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_11 : Ref sig .tc := ⟨.hbm, 68, rfl⟩
abbrev main_v38 : Ref sig .tc := ⟨.hbm, 69, rfl⟩
abbrev main_v39 : Ref sig .tc := ⟨.hbm, 70, rfl⟩
abbrev main_c_12 : Ref sig .tc := ⟨.hbm, 71, rfl⟩
abbrev main_v40 : Ref sig .tc := ⟨.hbm, 72, rfl⟩
abbrev main_v41 : Ref sig .tc := ⟨.hbm, 73, rfl⟩
abbrev main_c_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_14 : Ref sig .tc := ⟨.hbm, 78, rfl⟩
abbrev main_v45 : Ref sig .tc := ⟨.hbm, 79, rfl⟩
abbrev main_v46 : Ref sig .tc := ⟨.hbm, 80, rfl⟩
abbrev main_c_15 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_16 : Ref sig .tc := ⟨.hbm, 85, rfl⟩
abbrev main_v50 : Ref sig .tc := ⟨.hbm, 86, rfl⟩
abbrev main_v51 : Ref sig .tc := ⟨.hbm, 87, rfl⟩
abbrev main_c_17 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_18 : Ref sig .tc := ⟨.hbm, 97, rfl⟩
abbrev main_v60 : Ref sig .tc := ⟨.hbm, 98, rfl⟩
abbrev main_v61 : Ref sig .tc := ⟨.hbm, 99, rfl⟩
abbrev main_cst_19 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_20 : Ref sig .tc := ⟨.hbm, 106, rfl⟩
abbrev main_v67 : Ref sig .tc := ⟨.hbm, 107, rfl⟩
abbrev main_v68 : Ref sig .tc := ⟨.hbm, 108, rfl⟩
abbrev main_c_21 : Ref sig .tc := ⟨.hbm, 109, rfl⟩
abbrev main_v69 : Ref sig .tc := ⟨.hbm, 110, rfl⟩
abbrev main_v70 : Ref sig .tc := ⟨.hbm, 111, rfl⟩
abbrev main_c_22 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_23 : Ref sig .tc := ⟨.hbm, 116, rfl⟩
abbrev main_v74 : Ref sig .tc := ⟨.hbm, 117, rfl⟩
abbrev main_v75 : Ref sig .tc := ⟨.hbm, 118, rfl⟩
abbrev main_c_24 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_25 : Ref sig .tc := ⟨.hbm, 123, rfl⟩
abbrev main_v79 : Ref sig .tc := ⟨.hbm, 124, rfl⟩
abbrev main_v80 : Ref sig .tc := ⟨.hbm, 125, rfl⟩
abbrev main_c_26 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_27 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_28 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_c_29 : Ref sig .tc := ⟨.hbm, 144, rfl⟩
abbrev main_v96 : Ref sig .tc := ⟨.hbm, 145, rfl⟩
abbrev main_v97 : Ref sig .tc := ⟨.hbm, 146, rfl⟩
abbrev main_c_30 : Ref sig .tc := ⟨.hbm, 147, rfl⟩
abbrev main_v98 : Ref sig .tc := ⟨.hbm, 148, rfl⟩
abbrev main_v99 : Ref sig .tc := ⟨.hbm, 149, rfl⟩
abbrev main_c_31 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_c_32 : Ref sig .tc := ⟨.hbm, 154, rfl⟩
abbrev main_v103 : Ref sig .tc := ⟨.hbm, 155, rfl⟩
abbrev main_v104 : Ref sig .tc := ⟨.hbm, 156, rfl⟩
abbrev main_c_33 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_c_34 : Ref sig .tc := ⟨.hbm, 161, rfl⟩
abbrev main_v108 : Ref sig .tc := ⟨.hbm, 162, rfl⟩
abbrev main_v109 : Ref sig .tc := ⟨.hbm, 163, rfl⟩
abbrev main_c_35 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_36 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_c_37 : Ref sig .tc := ⟨.hbm, 179, rfl⟩
abbrev main_v123 : Ref sig .tc := ⟨.hbm, 180, rfl⟩
abbrev main_v124 : Ref sig .tc := ⟨.hbm, 181, rfl⟩
abbrev main_c_38 : Ref sig .tc := ⟨.hbm, 182, rfl⟩
abbrev main_v125 : Ref sig .tc := ⟨.hbm, 183, rfl⟩
abbrev main_v126 : Ref sig .tc := ⟨.hbm, 184, rfl⟩
abbrev main_c_39 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_c_40 : Ref sig .tc := ⟨.hbm, 189, rfl⟩
abbrev main_v130 : Ref sig .tc := ⟨.hbm, 190, rfl⟩
abbrev main_v131 : Ref sig .tc := ⟨.hbm, 191, rfl⟩
abbrev main_c_41 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_42 : Ref sig .tc := ⟨.hbm, 196, rfl⟩
abbrev main_v135 : Ref sig .tc := ⟨.hbm, 197, rfl⟩
abbrev main_v136 : Ref sig .tc := ⟨.hbm, 198, rfl⟩
abbrev main_c_43 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_44 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_45 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_c_46 : Ref sig .tc := ⟨.hbm, 217, rfl⟩
abbrev main_v152 : Ref sig .tc := ⟨.hbm, 218, rfl⟩
abbrev main_v153 : Ref sig .tc := ⟨.hbm, 219, rfl⟩
abbrev main_c_47 : Ref sig .tc := ⟨.hbm, 220, rfl⟩
abbrev main_v154 : Ref sig .tc := ⟨.hbm, 221, rfl⟩
abbrev main_v155 : Ref sig .tc := ⟨.hbm, 222, rfl⟩
abbrev main_c_48 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_c_49 : Ref sig .tc := ⟨.hbm, 227, rfl⟩
abbrev main_v159 : Ref sig .tc := ⟨.hbm, 228, rfl⟩
abbrev main_v160 : Ref sig .tc := ⟨.hbm, 229, rfl⟩
abbrev main_c_50 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_c_51 : Ref sig .tc := ⟨.hbm, 234, rfl⟩
abbrev main_v164 : Ref sig .tc := ⟨.hbm, 235, rfl⟩
abbrev main_v165 : Ref sig .tc := ⟨.hbm, 236, rfl⟩
abbrev main_c_52 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_cst_53 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_c_54 : Ref sig .tc := ⟨.hbm, 252, rfl⟩
abbrev main_v179 : Ref sig .tc := ⟨.hbm, 253, rfl⟩
abbrev main_v180 : Ref sig .tc := ⟨.hbm, 254, rfl⟩
abbrev main_c_55 : Ref sig .tc := ⟨.hbm, 255, rfl⟩
abbrev main_v181 : Ref sig .tc := ⟨.hbm, 256, rfl⟩
abbrev main_v182 : Ref sig .tc := ⟨.hbm, 257, rfl⟩
abbrev main_c_56 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_c_57 : Ref sig .tc := ⟨.hbm, 262, rfl⟩
abbrev main_v186 : Ref sig .tc := ⟨.hbm, 263, rfl⟩
abbrev main_v187 : Ref sig .tc := ⟨.hbm, 264, rfl⟩
abbrev main_c_58 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_59 : Ref sig .tc := ⟨.hbm, 269, rfl⟩
abbrev main_v191 : Ref sig .tc := ⟨.hbm, 270, rfl⟩
abbrev main_v192 : Ref sig .tc := ⟨.hbm, 271, rfl⟩
abbrev main_c_60 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_61 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_c_62 : Ref sig .tc := ⟨.hbm, 287, rfl⟩
abbrev main_v206 : Ref sig .tc := ⟨.hbm, 288, rfl⟩
abbrev main_v207 : Ref sig .tc := ⟨.hbm, 289, rfl⟩
abbrev main_c_63 : Ref sig .tc := ⟨.hbm, 290, rfl⟩
abbrev main_v208 : Ref sig .tc := ⟨.hbm, 291, rfl⟩
abbrev main_v209 : Ref sig .tc := ⟨.hbm, 292, rfl⟩
abbrev main_c_64 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_c_65 : Ref sig .tc := ⟨.hbm, 297, rfl⟩
abbrev main_v213 : Ref sig .tc := ⟨.hbm, 298, rfl⟩
abbrev main_v214 : Ref sig .tc := ⟨.hbm, 299, rfl⟩
abbrev main_c_66 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_c_67 : Ref sig .tc := ⟨.hbm, 304, rfl⟩
abbrev main_v218 : Ref sig .tc := ⟨.hbm, 305, rfl⟩
abbrev main_v219 : Ref sig .tc := ⟨.hbm, 306, rfl⟩
abbrev main_c_68 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_c_69 : Ref sig .tc := ⟨.hbm, 319, rfl⟩
abbrev main_v231 : Ref sig .tc := ⟨.hbm, 320, rfl⟩
abbrev main_v232 : Ref sig .tc := ⟨.hbm, 321, rfl⟩
abbrev main_c_70 : Ref sig .tc := ⟨.hbm, 322, rfl⟩
abbrev main_v233 : Ref sig .tc := ⟨.hbm, 323, rfl⟩
abbrev main_v234 : Ref sig .tc := ⟨.hbm, 324, rfl⟩
abbrev main_c_71 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_c_72 : Ref sig .tc := ⟨.hbm, 329, rfl⟩
abbrev main_v238 : Ref sig .tc := ⟨.hbm, 330, rfl⟩
abbrev main_v239 : Ref sig .tc := ⟨.hbm, 331, rfl⟩
abbrev main_c_73 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_c_74 : Ref sig .tc := ⟨.hbm, 336, rfl⟩
abbrev main_v243 : Ref sig .tc := ⟨.hbm, 337, rfl⟩
abbrev main_v244 : Ref sig .tc := ⟨.hbm, 338, rfl⟩
abbrev main_c_75 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩

abbrev nD : Nat := 1
abbrev τ : Topo := Topo.v7x

variable {F : FTy → Type} [FloatOps F]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S_S3x8x1024x1024 : S_.BroadcastsInDim S3x8x1024x1024 (![] : Fin 0 → Fin S3x8x1024x1024.rank)
  bcast_S8x1024x1024_S1x8x1024x1024_1_2_3 : S8x1024x1024.BroadcastsInDim S1x8x1024x1024 (![1, 2, 3] : Fin 3 → Fin S1x8x1024x1024.rank)
  bcast_S8x1024x1024_S8x1024x1024x1_0_1_2 : S8x1024x1024.BroadcastsInDim S8x1024x1024x1 (![0, 1, 2] : Fin 3 → Fin S8x1024x1024x1.rank)
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.KData.lean ====
/-
  The blend kernel's pipeline on one core, as data: what the arrays hold when the kernel is launched, each window's
  block at a grid point, and what a point leaves behind.

  The grid is 8 × 8.  Point (b, i) reads rows 128·i … 128·i + 127 of image b of BOTH stacked corner images (one block
  [2, 1, 3, 128, 1024]) and the same rows of the blue fraction's plane b (a block [1, 128, 1024]); it stores one block
  [1, 3, 128, 1024] of the result: the kernel's one store, which covers the whole block.  The inputs' buffers are left
  as they were fetched.
-/
import proofs.«129150_j43130061586455_2_alg».proof.Proof.Gen.Kernel.Launch
import proofs.«129150_j43130061586455_2_alg».proof.Proof.Gen.Kernel.Skeleton
import proofs.«129150_j43130061586455_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers when the kernel is launched: the launch memory after every host operation before the launch. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's four accesses: the two halves of the corner block, the whole fraction block, the whole result block. -/
abbrev rC0 : Rect S2x1x3x128x1024 := Rect.unit (s := S2x1x3x128x1024) ![0, 0, 0, 0, 0] S1x1x3x128x1024.size inb_S2x1x3x128x1024_S1x1x3x128x1024_0_0_0_0_0
abbrev rC1 : Rect S2x1x3x128x1024 := Rect.unit (s := S2x1x3x128x1024) ![1, 0, 0, 0, 0] S1x1x3x128x1024.size inb_S2x1x3x128x1024_S1x1x3x128x1024_1_0_0_0_0
abbrev rB : Rect S1x128x1024 := Rect.unit (s := S1x128x1024) ![0, 0, 0] S1x128x1024.size inb_S1x128x1024_S1x128x1024_0_0_0
abbrev rO : Rect S1x3x128x1024 := Rect.unit (s := S1x3x128x1024) ![0, 0, 0, 0] S1x3x128x1024.size inb_S1x3x128x1024_S1x3x128x1024_0_0_0_0

/-- The result window's buffer after the body, from the two input blocks: its one store, of the blend of the loads. -/
def out0_2 (x0 : Vec F S2x1x3x128x1024 .f32) (x1 : Vec F S1x128x1024 .f32) : Vec F S1x3x128x1024 .f32 :=
  View.canon [⟨rO, k0_pay1 (View.ld x0 rC0) (View.ld x0 rC1) (View.ld x1 rB)⟩]

/-- The pipeline's proof data on core c: the arrays as launched; after point t each input's buffer at its block and
    the result's at the blend of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Hand

end
-- ==== Proof.KFrame.lean ====
/-
  The frame of the blend program: from any launch memory, every fair execution terminates and leaves both argument
  arrays as they were.

  The program is seven stretches of host operations and then one launch on an 8 × 8 grid.  The stretches are gone
  through operation by operation for two facts (none allocates, none writes an argument array); the body at a grid
  point is run on its three windows' buffers (two loaded whole, one stored whole); the library's launch theorem
  then gives the final memory, in which the argument arrays — arrays of no window — are as launched.
-/
import proofs.«129150_j43130061586455_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch

Each of the seven stretches, operation by operation: none allocates a buffer of its own, and none writes either
argument array (every operation writes exactly one buffer, its result, a reference other than the arguments). -/

/-- An operation whose one written buffer is the reference y does not write a reference r other than y. -/
theorem not_written {r y : Ref sig .tc} {op : HloOp τ sig (Elt F)} (hw : op.writes = {Proc.devRef .tc y}) (h : r ≠ y) :
    Proc.devRef (τ := τ) .tc r ∉ op.writes := by
  rw [hw, Finset.mem_singleton]; exact StableHlo.devRef_ne_of_ne h

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
set_option maxHeartbeats 4000000 in
theorem fresh0_6 : (hostOps0_6 : List (HloOp τ sig (Elt F))).Forall fun op => op.fresh = ∅ := by
  simp only [List.Forall]; repeat' constructor

/-- The program up to the launch is the seven stretches in order, then the launch; the launch finds the arrays at
    what the stretches leave of the launch memory. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    ⟨hostOps0_sub, hostOps0_1_sub, hostOps0_2_sub, hostOps0_3_sub, hostOps0_4_sub, hostOps0_5_sub, hostOps0_6_sub⟩
    ⟨fresh0, fresh0_1, fresh0_2, fresh0_3, fresh0_4, fresh0_5, fresh0_6⟩ main_chain

theorem arg0_kept0 : (hostOps0 : List (HloOp τ sig (Elt F))).Forall fun op => Proc.devRef (τ := τ) .tc main_arg0 ∉ op.writes := by
  simp only [List.Forall]; repeat' apply And.intro
  all_goals exact not_written rfl (by decide)
theorem arg0_kept0_1 : (hostOps0_1 : List (HloOp τ sig (Elt F))).Forall fun op => Proc.devRef (τ := τ) .tc main_arg0 ∉ op.writes := by
  simp only [List.Forall]; repeat' apply And.intro
  all_goals exact not_written rfl (by decide)
theorem arg0_kept0_2 : (hostOps0_2 : List (HloOp τ sig (Elt F))).Forall fun op => Proc.devRef (τ := τ) .tc main_arg0 ∉ op.writes := by
  simp only [List.Forall]; repeat' apply And.intro
  all_goals exact not_written rfl (by decide)
theorem arg0_kept0_3 : (hostOps0_3 : List (HloOp τ sig (Elt F))).Forall fun op => Proc.devRef (τ := τ) .tc main_arg0 ∉ op.writes := by
  simp only [List.Forall]; repeat' apply And.intro
  all_goals exact not_written rfl (by decide)
theorem arg0_kept0_4 : (hostOps0_4 : List (HloOp τ sig (Elt F))).Forall fun op => Proc.devRef (τ := τ) .tc main_arg0 ∉ op.writes := by
  simp only [List.Forall]; repeat' apply And.intro
  all_goals exact not_written rfl (by decide)
theorem arg0_kept0_5 : (hostOps0_5 : List (HloOp τ sig (Elt F))).Forall fun op => Proc.devRef (τ := τ) .tc main_arg0 ∉ op.writes := by
  simp only [List.Forall]; repeat' apply And.intro
  all_goals exact not_written rfl (by decide)
set_option maxHeartbeats 4000000 in
theorem arg0_kept0_6 : (hostOps0_6 : List (HloOp τ sig (Elt F))).Forall fun op => Proc.devRef (τ := τ) .tc main_arg0 ∉ op.writes := by
  simp only [List.Forall]; repeat' apply And.intro
  all_goals exact not_written rfl (by decide)

/-- No operation before the launch writes argument 0: the launch finds it as the launch memory has it. -/
theorem V_main_arg0 (c : Dev nD) : V m c main_arg0 = m ((c : Thread nD τ).loc main_arg0) :=
  StableHlo.after_of_forall_not_mem (b := Proc.devRef .tc main_arg0) _ _ fun op hop => by
    obtain ⟨l, hl, hop⟩ := List.mem_flatten.mp hop
    simp only [List.mem_cons, List.not_mem_nil, or_false] at hl
    rcases hl with rfl | rfl | rfl | rfl | rfl | rfl | rfl
    · exact List.forall_iff_forall_mem.mp arg0_kept0 op hop
    · exact List.forall_iff_forall_mem.mp arg0_kept0_1 op hop
    · exact List.forall_iff_forall_mem.mp arg0_kept0_2 op hop
    · exact List.forall_iff_forall_mem.mp arg0_kept0_3 op hop
    · exact List.forall_iff_forall_mem.mp arg0_kept0_4 op hop
    · exact List.forall_iff_forall_mem.mp arg0_kept0_5 op hop
    · exact List.forall_iff_forall_mem.mp arg0_kept0_6 op hop

theorem arg1_kept0 : (hostOps0 : List (HloOp τ sig (Elt F))).Forall fun op => Proc.devRef (τ := τ) .tc main_arg1 ∉ op.writes := by
  simp only [List.Forall]; repeat' apply And.intro
  all_goals exact not_written rfl (by decide)
theorem arg1_kept0_1 : (hostOps0_1 : List (HloOp τ sig (Elt F))).Forall fun op => Proc.devRef (τ := τ) .tc main_arg1 ∉ op.writes := by
  simp only [List.Forall]; repeat' apply And.intro
  all_goals exact not_written rfl (by decide)
theorem arg1_kept0_2 : (hostOps0_2 : List (HloOp τ sig (Elt F))).Forall fun op => Proc.devRef (τ := τ) .tc main_arg1 ∉ op.writes := by
  simp only [List.Forall]; repeat' apply And.intro
  all_goals exact not_written rfl (by decide)
theorem arg1_kept0_3 : (hostOps0_3 : List (HloOp τ sig (Elt F))).Forall fun op => Proc.devRef (τ := τ) .tc main_arg1 ∉ op.writes := by
  simp only [List.Forall]; repeat' apply And.intro
  all_goals exact not_written rfl (by decide)
theorem arg1_kept0_4 : (hostOps0_4 : List (HloOp τ sig (Elt F))).Forall fun op => Proc.devRef (τ := τ) .tc main_arg1 ∉ op.writes := by
  simp only [List.Forall]; repeat' apply And.intro
  all_goals exact not_written rfl (by decide)
theorem arg1_kept0_5 : (hostOps0_5 : List (HloOp τ sig (Elt F))).Forall fun op => Proc.devRef (τ := τ) .tc main_arg1 ∉ op.writes := by
  simp only [List.Forall]; repeat' apply And.intro
  all_goals exact not_written rfl (by decide)
set_option maxHeartbeats 4000000 in
theorem arg1_kept0_6 : (hostOps0_6 : List (HloOp τ sig (Elt F))).Forall fun op => Proc.devRef (τ := τ) .tc main_arg1 ∉ op.writes := by
  simp only [List.Forall]; repeat' apply And.intro
  all_goals exact not_written rfl (by decide)

/-- No operation before the launch writes argument 1: the launch finds it as the launch memory has it. -/
theorem V_main_arg1 (c : Dev nD) : V m c main_arg1 = m ((c : Thread nD τ).loc main_arg1) :=
  StableHlo.after_of_forall_not_mem (b := Proc.devRef .tc main_arg1) _ _ fun op hop => by
    obtain ⟨l, hl, hop⟩ := List.mem_flatten.mp hop
    simp only [List.mem_cons, List.not_mem_nil, or_false] at hl
    rcases hl with rfl | rfl | rfl | rfl | rfl | rfl | rfl
    · exact List.forall_iff_forall_mem.mp arg1_kept0 op hop
    · exact List.forall_iff_forall_mem.mp arg1_kept0_1 op hop
    · exact List.forall_iff_forall_mem.mp arg1_kept0_2 op hop
    · exact List.forall_iff_forall_mem.mp arg1_kept0_3 op hop
    · exact List.forall_iff_forall_mem.mp arg1_kept0_4 op hop
    · exact List.forall_iff_forall_mem.mp arg1_kept0_5 op hop
    · exact List.forall_iff_forall_mem.mp arg1_kept0_6 op hop

/-! ## The input windows' buffers at a point -/

/-- The corner block's buffer holds the block at every point: an input, never idle, never clipped, left in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- The fraction block's buffer likewise. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body -/

/-- The one store is the whole result block, so it covers it. -/
theorem cover0_2 (p0 : Vec F S1x3x128x1024 .f32) (y : S1x3x128x1024.Idx) :
    ∃ pc ∈ ([⟨rO, p0⟩] : List (View.Piece (Elt F) S1x3x128x1024 .f32)), y ∈ pc.1.set :=
  View.cover_of_tiled [⟨rO, p0⟩] S1x3x128x1024.size (by rfl) y

set_option maxHeartbeats 1000000 in
/-- The body on whole buffers, the inputs' holding x0 and x1 and the result's anything: it loads the two corner
    images and the fraction, loads the result buffer (a value it does not use), stores the blend over the whole
    result buffer, and returns with the inputs' buffers as they were and the result's at the blend. -/
theorem sound_kernel (c : Dev nD) (E : Set ℕ) (i : grid0.Coords)
    (arg2 : Memref sig .tc .vmem S2x1x3x128x1024 .f32) (harg2 : arg2.IsWhole)
    (arg3 : Memref sig .tc .vmem S1x128x1024 .f32) (harg3 : arg3.IsWhole)
    (arg4 : Memref sig .tc .vmem S1x3x128x1024 .f32) (harg4 : arg4.IsWhole)
    (x0 : Vec F S2x1x3x128x1024 .f32) (x1 : Vec F S1x128x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__blend_kernel i arg2 harg2 arg3 harg3 arg4 harg4) K := by
  simp only [cc0__blend_kernel_eq_skeleton]; unfold cc0__blend_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point t: the invariant, nothing owed, each window's current buffer at what the
    pipeline put there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    the owed signals pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the cores terminates,
    and every final state has each array of the pipeline at what the proof data's write-backs make of it and every
    other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: neither argument array is an array of the pipeline (its arrays are intermediate results), so each is
    among the other unscoped buffers, which end as the launch found them — and no host operation wrote it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Cert.Kernel.Hand

end
-- ==== Proof.KIData.lean ====
/-
  The blend kernel's pipeline on one core, as data: what the arrays hold when the kernel is launched, each window's
  block at a grid point, and what a point leaves behind.

  The grid is 8 × 8.  Point (b, i) reads rows 128·i … 128·i + 127 of image b of BOTH stacked corner images (one block
  [2, 1, 3, 128, 1024]) and the same rows of the blue fraction's plane b (a block [1, 128, 1024]); it stores one block
  [1, 3, 128, 1024] of the result: the kernel's one store, which covers the whole block.  The inputs' buffers are left
  as they were fetched.
-/
import proofs.«129150_j43130061586455_2_alg».proof.Proof.Gen.KernelIdeal.Launch
import proofs.«129150_j43130061586455_2_alg».proof.Proof.Gen.KernelIdeal.Skeleton
import proofs.«129150_j43130061586455_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers when the kernel is launched: the launch memory after every host operation before the launch. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's four accesses: the two halves of the corner block, the whole fraction block, the whole result block. -/
abbrev rC0 : Rect S2x1x3x128x1024 := Rect.unit (s := S2x1x3x128x1024) ![0, 0, 0, 0, 0] S1x1x3x128x1024.size inb_S2x1x3x128x1024_S1x1x3x128x1024_0_0_0_0_0
abbrev rC1 : Rect S2x1x3x128x1024 := Rect.unit (s := S2x1x3x128x1024) ![1, 0, 0, 0, 0] S1x1x3x128x1024.size inb_S2x1x3x128x1024_S1x1x3x128x1024_1_0_0_0_0
abbrev rB : Rect S1x128x1024 := Rect.unit (s := S1x128x1024) ![0, 0, 0] S1x128x1024.size inb_S1x128x1024_S1x128x1024_0_0_0
abbrev rO : Rect S1x3x128x1024 := Rect.unit (s := S1x3x128x1024) ![0, 0, 0, 0] S1x3x128x1024.size inb_S1x3x128x1024_S1x3x128x1024_0_0_0_0

/-- The result window's buffer after the body, from the two input blocks: its one store, of the blend of the loads. -/
def out0_2 (x0 : Vec F S2x1x3x128x1024 .f32) (x1 : Vec F S1x128x1024 .f32) : Vec F S1x3x128x1024 .f32 :=
  View.canon [⟨rO, k0_pay1 (View.ld x0 rC0) (View.ld x0 rC1) (View.ld x1 rB)⟩]

/-- The pipeline's proof data on core c: the arrays as launched; after point t each input's buffer at its block and
    the result's at the blend of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Hand

end
-- ==== Proof.KIFrame.lean ====
/-
  The frame of the blend program: from any launch memory, every fair execution terminates and leaves both argument
  arrays as they were.

  The program is seven stretches of host operations and then one launch on an 8 × 8 grid.  The stretches are gone
  through operation by operation for two facts (none allocates, none writes an argument array); the body at a grid
  point is run on its three windows' buffers (two loaded whole, one stored whole); the library's launch theorem
  then gives the final memory, in which the argument arrays — arrays of no window — are as launched.
-/
import proofs.«129150_j43130061586455_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch

Each of the seven stretches, operation by operation: none allocates a buffer of its own, and none writes either
argument array (every operation writes exactly one buffer, its result, a reference other than the arguments). -/

/-- An operation whose one written buffer is the reference y does not write a reference r other than y. -/
theorem not_written {r y : Ref sig .tc} {op : HloOp τ sig (Elt F)} (hw : op.writes = {Proc.devRef .tc y}) (h : r ≠ y) :
    Proc.devRef (τ := τ) .tc r ∉ op.writes := by
  rw [hw, Finset.mem_singleton]; exact StableHlo.devRef_ne_of_ne h

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
set_option maxHeartbeats 4000000 in
theorem fresh0_6 : (hostOps0_6 : List (HloOp τ sig (Elt F))).Forall fun op => op.fresh = ∅ := by
  simp only [List.Forall]; repeat' constructor

/-- The program up to the launch is the seven stretches in order, then the launch; the launch finds the arrays at
    what the stretches leave of the launch memory. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    ⟨hostOps0_sub, hostOps0_1_sub, hostOps0_2_sub, hostOps0_3_sub, hostOps0_4_sub, hostOps0_5_sub, hostOps0_6_sub⟩
    ⟨fresh0, fresh0_1, fresh0_2, fresh0_3, fresh0_4, fresh0_5, fresh0_6⟩ main_chain

theorem arg0_kept0 : (hostOps0 : List (HloOp τ sig (Elt F))).Forall fun op => Proc.devRef (τ := τ) .tc main_arg0 ∉ op.writes := by
  simp only [List.Forall]; repeat' apply And.intro
  all_goals exact not_written rfl (by decide)
theorem arg0_kept0_1 : (hostOps0_1 : List (HloOp τ sig (Elt F))).Forall fun op => Proc.devRef (τ := τ) .tc main_arg0 ∉ op.writes := by
  simp only [List.Forall]; repeat' apply And.intro
  all_goals exact not_written rfl (by decide)
theorem arg0_kept0_2 : (hostOps0_2 : List (HloOp τ sig (Elt F))).Forall fun op => Proc.devRef (τ := τ) .tc main_arg0 ∉ op.writes := by
  simp only [List.Forall]; repeat' apply And.intro
  all_goals exact not_written rfl (by decide)
theorem arg0_kept0_3 : (hostOps0_3 : List (HloOp τ sig (Elt F))).Forall fun op => Proc.devRef (τ := τ) .tc main_arg0 ∉ op.writes := by
  simp only [List.Forall]; repeat' apply And.intro
  all_goals exact not_written rfl (by decide)
theorem arg0_kept0_4 : (hostOps0_4 : List (HloOp τ sig (Elt F))).Forall fun op => Proc.devRef (τ := τ) .tc main_arg0 ∉ op.writes := by
  simp only [List.Forall]; repeat' apply And.intro
  all_goals exact not_written rfl (by decide)
theorem arg0_kept0_5 : (hostOps0_5 : List (HloOp τ sig (Elt F))).Forall fun op => Proc.devRef (τ := τ) .tc main_arg0 ∉ op.writes := by
  simp only [List.Forall]; repeat' apply And.intro
  all_goals exact not_written rfl (by decide)
set_option maxHeartbeats 4000000 in
theorem arg0_kept0_6 : (hostOps0_6 : List (HloOp τ sig (Elt F))).Forall fun op => Proc.devRef (τ := τ) .tc main_arg0 ∉ op.writes := by
  simp only [List.Forall]; repeat' apply And.intro
  all_goals exact not_written rfl (by decide)

/-- No operation before the launch writes argument 0: the launch finds it as the launch memory has it. -/
theorem V_main_arg0 (c : Dev nD) : V m c main_arg0 = m ((c : Thread nD τ).loc main_arg0) :=
  StableHlo.after_of_forall_not_mem (b := Proc.devRef .tc main_arg0) _ _ fun op hop => by
    obtain ⟨l, hl, hop⟩ := List.mem_flatten.mp hop
    simp only [List.mem_cons, List.not_mem_nil, or_false] at hl
    rcases hl with rfl | rfl | rfl | rfl | rfl | rfl | rfl
    · exact List.forall_iff_forall_mem.mp arg0_kept0 op hop
    · exact List.forall_iff_forall_mem.mp arg0_kept0_1 op hop
    · exact List.forall_iff_forall_mem.mp arg0_kept0_2 op hop
    · exact List.forall_iff_forall_mem.mp arg0_kept0_3 op hop
    · exact List.forall_iff_forall_mem.mp arg0_kept0_4 op hop
    · exact List.forall_iff_forall_mem.mp arg0_kept0_5 op hop
    · exact List.forall_iff_forall_mem.mp arg0_kept0_6 op hop

theorem arg1_kept0 : (hostOps0 : List (HloOp τ sig (Elt F))).Forall fun op => Proc.devRef (τ := τ) .tc main_arg1 ∉ op.writes := by
  simp only [List.Forall]; repeat' apply And.intro
  all_goals exact not_written rfl (by decide)
theorem arg1_kept0_1 : (hostOps0_1 : List (HloOp τ sig (Elt F))).Forall fun op => Proc.devRef (τ := τ) .tc main_arg1 ∉ op.writes := by
  simp only [List.Forall]; repeat' apply And.intro
  all_goals exact not_written rfl (by decide)
theorem arg1_kept0_2 : (hostOps0_2 : List (HloOp τ sig (Elt F))).Forall fun op => Proc.devRef (τ := τ) .tc main_arg1 ∉ op.writes := by
  simp only [List.Forall]; repeat' apply And.intro
  all_goals exact not_written rfl (by decide)
theorem arg1_kept0_3 : (hostOps0_3 : List (HloOp τ sig (Elt F))).Forall fun op => Proc.devRef (τ := τ) .tc main_arg1 ∉ op.writes := by
  simp only [List.Forall]; repeat' apply And.intro
  all_goals exact not_written rfl (by decide)
theorem arg1_kept0_4 : (hostOps0_4 : List (HloOp τ sig (Elt F))).Forall fun op => Proc.devRef (τ := τ) .tc main_arg1 ∉ op.writes := by
  simp only [List.Forall]; repeat' apply And.intro
  all_goals exact not_written rfl (by decide)
theorem arg1_kept0_5 : (hostOps0_5 : List (HloOp τ sig (Elt F))).Forall fun op => Proc.devRef (τ := τ) .tc main_arg1 ∉ op.writes := by
  simp only [List.Forall]; repeat' apply And.intro
  all_goals exact not_written rfl (by decide)
set_option maxHeartbeats 4000000 in
theorem arg1_kept0_6 : (hostOps0_6 : List (HloOp τ sig (Elt F))).Forall fun op => Proc.devRef (τ := τ) .tc main_arg1 ∉ op.writes := by
  simp only [List.Forall]; repeat' apply And.intro
  all_goals exact not_written rfl (by decide)

/-- No operation before the launch writes argument 1: the launch finds it as the launch memory has it. -/
theorem V_main_arg1 (c : Dev nD) : V m c main_arg1 = m ((c : Thread nD τ).loc main_arg1) :=
  StableHlo.after_of_forall_not_mem (b := Proc.devRef .tc main_arg1) _ _ fun op hop => by
    obtain ⟨l, hl, hop⟩ := List.mem_flatten.mp hop
    simp only [List.mem_cons, List.not_mem_nil, or_false] at hl
    rcases hl with rfl | rfl | rfl | rfl | rfl | rfl | rfl
    · exact List.forall_iff_forall_mem.mp arg1_kept0 op hop
    · exact List.forall_iff_forall_mem.mp arg1_kept0_1 op hop
    · exact List.forall_iff_forall_mem.mp arg1_kept0_2 op hop
    · exact List.forall_iff_forall_mem.mp arg1_kept0_3 op hop
    · exact List.forall_iff_forall_mem.mp arg1_kept0_4 op hop
    · exact List.forall_iff_forall_mem.mp arg1_kept0_5 op hop
    · exact List.forall_iff_forall_mem.mp arg1_kept0_6 op hop

/-! ## The input windows' buffers at a point -/

/-- The corner block's buffer holds the block at every point: an input, never idle, never clipped, left in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- The fraction block's buffer likewise. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body -/

/-- The one store is the whole result block, so it covers it. -/
theorem cover0_2 (p0 : Vec F S1x3x128x1024 .f32) (y : S1x3x128x1024.Idx) :
    ∃ pc ∈ ([⟨rO, p0⟩] : List (View.Piece (Elt F) S1x3x128x1024 .f32)), y ∈ pc.1.set :=
  View.cover_of_tiled [⟨rO, p0⟩] S1x3x128x1024.size (by rfl) y

set_option maxHeartbeats 1000000 in
/-- The body on whole buffers, the inputs' holding x0 and x1 and the result's anything: it loads the two corner
    images and the fraction, loads the result buffer (a value it does not use), stores the blend over the whole
    result buffer, and returns with the inputs' buffers as they were and the result's at the blend. -/
theorem sound_kernel (c : Dev nD) (E : Set ℕ) (i : grid0.Coords)
    (arg2 : Memref sig .tc .vmem S2x1x3x128x1024 .f32) (harg2 : arg2.IsWhole)
    (arg3 : Memref sig .tc .vmem S1x128x1024 .f32) (harg3 : arg3.IsWhole)
    (arg4 : Memref sig .tc .vmem S1x3x128x1024 .f32) (harg4 : arg4.IsWhole)
    (x0 : Vec F S2x1x3x128x1024 .f32) (x1 : Vec F S1x128x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__blend_kernel i arg2 harg2 arg3 harg3 arg4 harg4) K := by
  simp only [cc0__blend_kernel_eq_skeleton]; unfold cc0__blend_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point t: the invariant, nothing owed, each window's current buffer at what the
    pipeline put there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    the owed signals pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the cores terminates,
    and every final state has each array of the pipeline at what the proof data's write-backs make of it and every
    other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: neither argument array is an array of the pipeline (its arrays are intermediate results), so each is
    among the other unscoped buffers, which end as the launch found them — and no host operation wrote it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Cert.KernelIdeal.Hand

end
-- ==== Proof.Spec.lean ====
/-
  Trilinear interpolation in a 3D lookup table, written twice over whole arrays.

  A pixel (b, h, w) of an image x : [8, 3, 1024, 1024] has three colour values; each is divided by the bin size,
  floored and clipped into 0 … 31 (its bin) and leaves a fractional part (value / bin size − bin).  The eight
  neighbouring table entries of channel c sit at the flat positions
      (r + dr) + (g + dg) · 33 + (b + db) · 33²   (dr, dg, db ∈ {0, 1}),
  a negative position wrapped by + 33³, in the 33³ entries of lut[c].

  cornersK / blendK interpolate axis by axis: first along red, then along green (both for db = 0 and db = 1), and
  last along blue as  c₀ + fb · (c₁ − c₀).   refR adds the eight entries, each times the product of its three
  weights (f or 1 − f per axis), starting from zero.  Both are stated here for any float instance; the theorems
  about them are in the modules that import this one.
-/
import Idealize.ShloMosaic.PureOps

noncomputable section

namespace Cert.Lut3D

open Idealize.ShloMosaic

/-! ## Shapes -/

abbrev SLut : Shape := ⟨4, ![3, 33, 33, 33]⟩
abbrev SImg : Shape := ⟨4, ![8, 3, 1024, 1024]⟩
abbrev SCh1 : Shape := ⟨4, ![8, 1, 1024, 1024]⟩
abbrev SPix : Shape := ⟨3, ![8, 1024, 1024]⟩
abbrev S0 : Shape := ⟨0, ![]⟩
abbrev SLut1 : Shape := ⟨4, ![1, 33, 33, 33]⟩
abbrev SLut3 : Shape := ⟨3, ![33, 33, 33]⟩
abbrev SFlat : Shape := ⟨1, ![35937]⟩
abbrev SPix1 : Shape := ⟨4, ![8, 1024, 1024, 1]⟩
abbrev SImg1 : Shape := ⟨5, ![1, 8, 3, 1024, 1024]⟩
abbrev SImg2 : Shape := ⟨5, ![2, 8, 3, 1024, 1024]⟩
abbrev SLut2 : Shape := ⟨2, ![3, 35937]⟩
abbrev SCImg : Shape := ⟨4, ![3, 8, 1024, 1024]⟩
abbrev SC1 : Shape := ⟨4, ![1, 8, 1024, 1024]⟩

/-! ## The shape relations the operations take -/

theorem slices_ch : ∀ k : Fin 3, SImg.Slices ![0, k.val, 0, 0] SCh1 := by decide
theorem cast_ch : SCh1.ShapeCasts SPix := by decide
theorem bc0_pix : S0.BroadcastsInDim SPix (![] : Fin 0 → Fin SPix.rank) := by decide
theorem slices_lut : ∀ k : Fin 3, SLut.Slices ![k.val, 0, 0, 0] SLut1 := by decide
theorem cast_lut1_3 : SLut1.ShapeCasts SLut3 := by decide
theorem cast_lut3_flat : SLut3.ShapeCasts SFlat := by decide
theorem bc_pix_pix1 : SPix.BroadcastsInDim SPix1 (![0, 1, 2] : Fin 3 → Fin SPix1.rank) := by decide
theorem bc_pix_ch1 : SPix.BroadcastsInDim SCh1 (![0, 2, 3] : Fin 3 → Fin SCh1.rank) := by decide
theorem concat_ch : Shape.Concatenates [SCh1, SCh1, SCh1] SImg 1 := by decide
theorem bc0_ch1 : S0.BroadcastsInDim SCh1 (![] : Fin 0 → Fin SCh1.rank) := by decide
theorem bc_ch1_img : SCh1.BroadcastsInDim SImg (![0, 1, 2, 3] : Fin 4 → Fin SImg.rank) := by decide
theorem bc_img_img1 : SImg.BroadcastsInDim SImg1 (![1, 2, 3, 4] : Fin 4 → Fin SImg1.rank) := by decide
theorem concat_img : Shape.Concatenates [SImg1, SImg1] SImg2 0 := by decide
theorem gK_wf : GatherDims.WF SFlat SPix1 SPix [] [0] [] [0] [] 3 ![1] := by decide
theorem cast_lut_lut2 : SLut.ShapeCasts SLut2 := by decide
theorem bc0_cimg : S0.BroadcastsInDim SCImg (![] : Fin 0 → Fin SCImg.rank) := by decide
theorem bc_pix_c1 : SPix.BroadcastsInDim SC1 (![1, 2, 3] : Fin 3 → Fin SC1.rank) := by decide
theorem bc_c1_cimg : SC1.BroadcastsInDim SCImg (![0, 1, 2, 3] : Fin 4 → Fin SCImg.rank) := by decide
theorem gR_wf : GatherDims.WF SLut2 SPix1 SCImg [0] [1] [] [1] [] 3 ![3, 1] := by decide
theorem transp : SCImg.Transposes [1, 0, 2, 3] SImg := by decide

/-- A gather of single entries of a flat table at one start index per pixel. -/
def gK : GatherDims SFlat SPix1 SPix where
  offsetDims := []
  collapsedSliceDims := [0]
  operandBatchingDims := []
  startIndicesBatchingDims := []
  startIndexMap := [0]
  indexVectorDim := 3
  sliceSizes := ![1]
  wf := gK_wf

/-- A gather of whole columns (all three channels) of a [3, 33³] table at one start index per pixel. -/
def gR : GatherDims SLut2 SPix1 SCImg where
  offsetDims := [0]
  collapsedSliceDims := [1]
  operandBatchingDims := []
  startIndicesBatchingDims := []
  startIndexMap := [1]
  indexVectorDim := 3
  sliceSizes := ![3, 1]
  wf := gR_wf

variable {F : FTy → Type} [FloatOps F]

/-! ## Bins and fractional parts (shared by both programs) -/

/-- Colour plane k of the image. -/
def chan (k : Fin 3) (x : FVec F SImg .f32) : FVec F SPix .f32 :=
  shapeCast SPix (extractStridedSlice SCh1 ![0, k.val, 0, 0] x (slices_ch k)) cast_ch

/-- The plane divided by the bin size. -/
def scaled (k : Fin 3) (x : FVec F SImg .f32) : FVec F SPix .f32 :=
  Host.divf (chan k x) (broadcastInDim SPix ![] bc0_pix (constant S0 .f32 0x3D000008#32))

/-- An integer constant at every pixel. -/
def cI (n : BitVec 32) : IVec SPix 32 := broadcastInDim SPix ![] bc0_pix (constantI S0 32 n)

/-- The bin: floor, to an integer, clipped into 0 … 31. -/
def binIx (k : Fin 3) (x : FVec F SImg .f32) : IVec SPix 32 :=
  minsi (cI 31#32) (maxsi (cI 0#32) (fptosi 32 (Host.floor (scaled k x))))

/-- The fractional part. -/
def frac (k : Fin 3) (x : FVec F SImg .f32) : FVec F SPix .f32 :=
  subf (scaled k x) (sitofp .f32 (binIx k x))

/-- The flat table position of the neighbour (dr, dg, db). -/
def flat (dr dg db : BitVec 32) (x : FVec F SImg .f32) : IVec SPix 32 :=
  addi (addi (addi (binIx 0 x) (cI dr)) (muli (addi (binIx 1 x) (cI dg)) (cI 33#32)))
    (muli (addi (binIx 2 x) (cI db)) (cI 1089#32))

/-- A negative position wrapped by the table length, as a column of start indices. -/
def wrapIx (f : IVec SPix 32) : IVec SPix1 32 :=
  broadcastInDim SPix1 ![0, 1, 2] bc_pix_pix1 (select (cmpi .slt f (cI 0#32)) (addi f (cI 35937#32)) f)

/-! ## Axis by axis -/

/-- Channel k of the table as a flat vector. -/
def lutFlat (k : Fin 3) (lut : FVec F SLut .f32) : FVec F SFlat .f32 :=
  shapeCast SFlat (shapeCast SLut3 (extractStridedSlice SLut1 ![k.val, 0, 0, 0] lut (slices_lut k)) cast_lut1_3) cast_lut3_flat

/-- A per-pixel plane as a one-channel image. -/
def ch1 (v : FVec F SPix .f32) : FVec F SCh1 .f32 := broadcastInDim SCh1 ![0, 2, 3] bc_pix_ch1 v

/-- The neighbour (dr, dg, db) of every pixel, all three channels. -/
def cornerK (dr dg db : BitVec 32) (lut : FVec F SLut .f32) (x : FVec F SImg .f32) : FVec F SImg .f32 :=
  concatenate SImg 1
    [⟨SCh1, ch1 (Host.gather gK (lutFlat 0 lut) (wrapIx (flat dr dg db x)))⟩,
     ⟨SCh1, ch1 (Host.gather gK (lutFlat 1 lut) (wrapIx (flat dr dg db x)))⟩,
     ⟨SCh1, ch1 (Host.gather gK (lutFlat 2 lut) (wrapIx (flat dr dg db x)))⟩] concat_ch

/-- One at every pixel of a one-channel image. -/
def one1 : FVec F SCh1 .f32 := broadcastInDim SCh1 ![] bc0_ch1 (constant S0 .f32 0x3F800000#32)

/-- A one-channel image repeated over the three channels. -/
def img (v : FVec F SCh1 .f32) : FVec F SImg .f32 := broadcastInDim SImg ![0, 1, 2, 3] bc_ch1_img v

/-- Interpolated along red, then along green, at blue offset db. -/
def lerpRG (db : BitVec 32) (lut : FVec F SLut .f32) (x : FVec F SImg .f32) : FVec F SImg .f32 :=
  addf
    (mulf (addf (mulf (cornerK 0#32 0#32 db lut x) (img (subf one1 (ch1 (frac 0 x)))))
                (mulf (cornerK 1#32 0#32 db lut x) (img (ch1 (frac 0 x)))))
          (img (subf one1 (ch1 (frac 1 x)))))
    (mulf (addf (mulf (cornerK 0#32 1#32 db lut x) (img (subf one1 (ch1 (frac 0 x)))))
                (mulf (cornerK 1#32 1#32 db lut x) (img (ch1 (frac 0 x)))))
          (img (ch1 (frac 1 x))))

/-- The two blue offsets stacked: what the blend reads. -/
def cornersK (lut : FVec F SLut .f32) (x : FVec F SImg .f32) : FVec F SImg2 .f32 :=
  concatenate SImg2 0
    [⟨SImg1, broadcastInDim SImg1 ![1, 2, 3, 4] bc_img_img1 (lerpRG 0#32 lut x)⟩,
     ⟨SImg1, broadcastInDim SImg1 ![1, 2, 3, 4] bc_img_img1 (lerpRG 1#32 lut x)⟩] concat_img

/-- Entry (u, j) of the stack for an image entry j. -/
def stackIx (u : Fin 2) (j : SImg.Idx) : SImg2.Idx := fun a =>
  match a with | ⟨0, _⟩ => u | ⟨1, _⟩ => j 0 | ⟨2, _⟩ => j 1 | ⟨3, _⟩ => j 2 | ⟨4, _⟩ => j 3

/-- The pixel of an image entry. -/
def pixIx (j : SImg.Idx) : SPix.Idx := fun a =>
  match a with | ⟨0, _⟩ => j 0 | ⟨1, _⟩ => j 2 | ⟨2, _⟩ => j 3

/-- The blend along blue, entry by entry: c₀ + f · (c₁ − c₀), with c₀, c₁ the two stacked images at the entry and
    f the plane at its pixel. -/
def blendK (C : FVec F SImg2 .f32) (B : FVec F SPix .f32) : FVec F SImg .f32 := fun j =>
  FloatOps.addf (C (stackIx 0 j)) (FloatOps.mulf (B (pixIx j)) (FloatOps.subf (C (stackIx 1 j)) (C (stackIx 0 j))))

/-! ## Eight weighted neighbours -/

/-- One at every pixel. -/
def onePix : FVec F SPix .f32 := broadcastInDim SPix ![] bc0_pix (constant S0 .f32 0x3F800000#32)

/-- A per-pixel weight repeated over the channels of a channel-major image. -/
def wBc (W : FVec F SPix .f32) : FVec F SCImg .f32 :=
  broadcastInDim SCImg ![0, 1, 2, 3] bc_c1_cimg (broadcastInDim SC1 ![1, 2, 3] bc_pix_c1 W)

/-- The neighbour (dr, dg, db), all channels, times its weight. -/
def termR (W : FVec F SPix .f32) (dr dg db : BitVec 32) (lut : FVec F SLut .f32) (x : FVec F SImg .f32) : FVec F SCImg .f32 :=
  mulf (wBc W) (Host.gather gR (shapeCast SLut2 lut cast_lut_lut2) (wrapIx (flat dr dg db x)))

/-- The sum of the eight weighted neighbours, from zero, in the order (dr, dg, db) = 000, 001, 010, …, 111, then
    brought to image layout. -/
def refR (lut : FVec F SLut .f32) (x : FVec F SImg .f32) : FVec F SImg .f32 :=
  transpose SImg [1, 0, 2, 3]
    (addf (addf (addf (addf (addf (addf (addf (addf
      (broadcastInDim SCImg ![] bc0_cimg (constant S0 .f32 0x00000000#32))
      (termR (mulf (mulf (subf onePix (frac 0 x)) (subf onePix (frac 1 x))) (subf onePix (frac 2 x))) 0#32 0#32 0#32 lut x))
      (termR (mulf (mulf (subf onePix (frac 0 x)) (subf onePix (frac 1 x))) (frac 2 x)) 0#32 0#32 1#32 lut x))
      (termR (mulf (mulf (subf onePix (frac 0 x)) (frac 1 x)) (subf onePix (frac 2 x))) 0#32 1#32 0#32 lut x))
      (termR (mulf (mulf (subf onePix (frac 0 x)) (frac 1 x)) (frac 2 x)) 0#32 1#32 1#32 lut x))
      (termR (mulf (mulf (frac 0 x) (subf onePix (frac 1 x))) (subf onePix (frac 2 x))) 1#32 0#32 0#32 lut x))
      (termR (mulf (mulf (frac 0 x) (subf onePix (frac 1 x))) (frac 2 x)) 1#32 0#32 1#32 lut x))
      (termR (mulf (mulf (frac 0 x) (frac 1 x)) (subf onePix (frac 2 x))) 1#32 1#32 0#32 lut x))
      (termR (mulf (mulf (frac 0 x) (frac 1 x)) (frac 2 x)) 1#32 1#32 1#32 lut x))
    transp

end Cert.Lut3D

end
-- ==== Proof.KIFinal.lean ====
/-
  From the blocks to the whole result of the blend along blue.

  The grid is 8 × 8.  Point (b, i) stores one block [1, 3, 128, 1024] of the result [8, 3, 1024, 1024]: image b, all
  three channels, rows 128·i … 128·i + 127, all columns.  Entry (u, k, r, l) of that block is computed from entries
  (0, u, k, r, l) and (1, u, k, r, l) of the staged corner block [2, 1, 3, 128, 1024] — the two stacked corner images
  at image b, channel k, row 128·i + r, column l — and from entry (0, r, l) of the staged fraction block
  [1, 128, 1024] — the blue fraction of pixel (b, 128·i + r, l) — as  c₀ + f · (c₁ − c₀).

  So what a point writes back is its block of ONE function of the two whole input arrays, the blend entry by entry;
  every entry (b, k, h, l) of the result lies in the block of the point at image b and band h / 128; hence the result
  array ends holding that function.
-/
import proofs.«129150_j43130061586455_2_alg».proof.Proof.KIData
import proofs.«129150_j43130061586455_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Lut3D (blendK stackIx pixIx)

variable (m : (ℓ : Loc nD τ sig) → Buf (Elt Ideal) ℓ)

/-! ## The body's arithmetic at one entry of the result block -/

/-- The leading unit axis of a [1, 1, 3, 128, 1024] block dropped: entry (u, k, r, l) is entry (0, u, k, r, l). -/
theorem drop_apply {α : Type} (v : S1x1x3x128x1024.Idx → α) (h : S1x1x3x128x1024.ShapeCasts S1x3x128x1024)
    (u : Fin 1) (k : Fin 3) (r : Fin 128) (l : Fin 1024) :
    shapeCast S1x3x128x1024 v h (ix4 u k r l) = v (ix5 (0 : Fin 1) u k r l) :=
  shapeCast_apply v h _ _ (by
    rw [Shape.rowMajor_val_five, Shape.rowMajor_val_four]
    show ((((0 * 1 + u.val) * 3 + k.val) * 128 + r.val) * 1024 + l.val) = ((u.val * 3 + k.val) * 128 + r.val) * 1024 + l.val
    omega)

/-- A [1, 128, 1024] plane given a second unit axis and repeated over the three channels: entry (u, k, r, l) is the
    plane's entry (0, r, l). -/
theorem plane_apply {α : Type} (v : S1x128x1024.Idx → α) (h0 : S1x128x1024.ShapeCasts S1x128x1024)
    (h1 : S1x128x1024.ShapeCasts S1x1x128x1024) (h2 : S1x1x128x1024.ShapeCasts S1x1x128x1024)
    (h3 : S1x1x128x1024.Broadcasts S1x3x128x1024)
    (u : Fin 1) (k : Fin 3) (r : Fin 128) (l : Fin 1024) :
    broadcastTo S1x3x128x1024 (shapeCast S1x1x128x1024 (shapeCast S1x1x128x1024 (shapeCast S1x128x1024 v h0) h1) h2) h3 (ix4 u k r l)
      = v (ix3 (0 : Fin 1) r l) := by
  rw [shapeCast_self, shapeCast_self]
  refine (broadcastTo_apply _ h3 (ix4 u k r l) (ix4 (0 : Fin 1) (0 : Fin 1) r l) fun a => ?_).trans ?_
  · match a with
    | ⟨0, _⟩ => rfl
    | ⟨1, _⟩ => rfl
    | ⟨2, _⟩ => rfl
    | ⟨3, _⟩ => rfl
  · exact shapeCast_abc_1abc_apply v h1 (0 : Fin 1) (0 : Fin 1) r l

/-- The body's arithmetic at one entry: the first corner plus the fraction times the difference of the corners. -/
theorem pay_apply (v0 v2 : Vec Ideal S1x1x3x128x1024 .f32) (v4 : Vec Ideal S1x128x1024 .f32)
    (u : Fin 1) (k : Fin 3) (r : Fin 128) (l : Fin 1024) :
    k0_pay1 v0 v2 v4 (ix4 u k r l)
      = v0 (ix5 (0 : Fin 1) u k r l) + v4 (ix3 (0 : Fin 1) r l) * (v2 (ix5 (0 : Fin 1) u k r l) - v0 (ix5 (0 : Fin 1) u k r l)) := by
  unfold k0_pay1
  show shapeCast S1x3x128x1024 v0 _ (ix4 u k r l) + broadcastTo S1x3x128x1024 _ _ (ix4 u k r l) * (shapeCast S1x3x128x1024 v2 _ (ix4 u k r l) - shapeCast S1x3x128x1024 v0 _ (ix4 u k r l)) = _
  rw [drop_apply, drop_apply, plane_apply]

/-- The same over the two staged blocks: the loads take the two halves of the corner block and the whole fraction
    block. -/
theorem body_apply (x0 : Vec Ideal S2x1x3x128x1024 .f32) (x1 : Vec Ideal S1x128x1024 .f32)
    (u : Fin 1) (k : Fin 3) (r : Fin 128) (l : Fin 1024) :
    k0_pay1 (View.ld x0 rC0) (View.ld x0 rC1) (View.ld x1 rB) (ix4 u k r l)
      = x0 (ix5 (0 : Fin 2) u k r l) + x1 (ix3 (0 : Fin 1) r l) * (x0 (ix5 (1 : Fin 2) u k r l) - x0 (ix5 (0 : Fin 2) u k r l)) := by
  have e0 : rC0.idx (ix5 (0 : Fin 1) u k r l) = ix5 (0 : Fin 2) u k r l := by
    funext a; apply Fin.ext
    match a with
    | ⟨0, _⟩ => rfl
    | ⟨1, _⟩ => show 0 + 1 * u.val = u.val; omega
    | ⟨2, _⟩ => show 0 + 1 * k.val = k.val; omega
    | ⟨3, _⟩ => show 0 + 1 * r.val = r.val; omega
    | ⟨4, _⟩ => show 0 + 1 * l.val = l.val; omega
  have e1 : rC1.idx (ix5 (0 : Fin 1) u k r l) = ix5 (1 : Fin 2) u k r l := by
    funext a; apply Fin.ext
    match a with
    | ⟨0, _⟩ => rfl
    | ⟨1, _⟩ => show 0 + 1 * u.val = u.val; omega
    | ⟨2, _⟩ => show 0 + 1 * k.val = k.val; omega
    | ⟨3, _⟩ => show 0 + 1 * r.val = r.val; omega
    | ⟨4, _⟩ => show 0 + 1 * l.val = l.val; omega
  have eB : rB.idx (ix3 (0 : Fin 1) r l) = ix3 (0 : Fin 1) r l := by
    funext a; apply Fin.ext
    match a with
    | ⟨0, _⟩ => rfl
    | ⟨1, _⟩ => show 0 + 1 * r.val = r.val; omega
    | ⟨2, _⟩ => show 0 + 1 * l.val = l.val; omega
  rw [pay_apply]
  show x0 (rC0.idx (ix5 (0 : Fin 1) u k r l)) + x1 (rB.idx (ix3 (0 : Fin 1) r l)) * (x0 (rC1.idx (ix5 (0 : Fin 1) u k r l)) - x0 (rC0.idx (ix5 (0 : Fin 1) u k r l))) = _
  rw [e0, e1, eB]

/-! ## Where the three windows' blocks sit -/

theorem hz4 : (![0, 0, 0, 0] : Fin 4 → Nat) = fun _ => 0 := funext fun a => by fin_cases a <;> rfl

/-- The printed index maps, decided over the 64 grid points: the corner block and the fraction block move with the
    result block (image and row band), and the result's block index is (image, 0, row band, 0). -/
theorem idx_facts : ∀ t : Fin cfg0.N,
    win0_0.index t (0 : Fin 5) = 0 ∧ win0_0.index t (1 : Fin 5) = win0_2.index t (0 : Fin 4)
    ∧ win0_0.index t (2 : Fin 5) = 0 ∧ win0_0.index t (3 : Fin 5) = win0_2.index t (2 : Fin 4)
    ∧ win0_0.index t (4 : Fin 5) = 0
    ∧ win0_1.index t (0 : Fin 3) = win0_2.index t (0 : Fin 4) ∧ win0_1.index t (1 : Fin 3) = win0_2.index t (2 : Fin 4)
    ∧ win0_1.index t (2 : Fin 3) = 0
    ∧ win0_2.index t (1 : Fin 4) = 0 ∧ win0_2.index t (3 : Fin 4) = 0 :=
  (by decide +kernel : ∀ t : Fin grid0.N, _)

/-- Every (image, row band) is some point's. -/
theorem idx_onto : ∀ (q0 : Fin 8) (q2 : Fin 8), ∃ t : Fin cfg0.N,
    win0_2.index t (0 : Fin 4) = q0.val ∧ win0_2.index t (2 : Fin 4) = q2.val :=
  (by decide +kernel : ∀ (q0 : Fin 8) (q2 : Fin 8), ∃ t : Fin grid0.N, win0_2.index t (0 : Fin 4) = q0.val ∧ win0_2.index t (2 : Fin 4) = q2.val)

/-- An entry of the corner block at point t is the stacked corners' entry at block index times block size plus the
    entry's own coordinates. -/
theorem corner_read (c : Dev nD) (t : Fin cfg0.N) (y : S2x1x3x128x1024.Idx) (i : S2x8x3x1024x1024.Idx)
    (h : ∀ a : Fin 5, (i a).val = win0_0.index t a * S2x1x3x128x1024.size a + (y a).val) :
    iblk m c 0 t y = V m c main_v443 i := by
  unfold iblk
  rw [View.read_apply]
  show V m c main_v443 (((cfg0.win 0).blk t).view.emb y) = V m c main_v443 i
  refine congrArg (V m c main_v443) ?_
  funext a; apply Fin.ext
  show win0_0.index t a * S2x1x3x128x1024.size a + 1 * (y a).val = (i a).val
  rw [h a]; omega

/-- The same for the fraction block. -/
theorem frac_read (c : Dev nD) (t : Fin cfg0.N) (y : S1x128x1024.Idx) (i : S8x1024x1024.Idx)
    (h : ∀ a : Fin 3, (i a).val = win0_1.index t a * S1x128x1024.size a + (y a).val) :
    iblk m c 1 t y = V m c main_v26 i := by
  unfold iblk
  rw [View.read_apply]
  show V m c main_v26 (((cfg0.win 1).blk t).view.emb y) = V m c main_v26 i
  refine congrArg (V m c main_v26) ?_
  funext a; apply Fin.ext
  show win0_1.index t a * S1x128x1024.size a + 1 * (y a).val = (i a).val
  rw [h a]; omega

/-! ## What a point writes back, and the whole result -/

/-- What point t writes back is its block of the blend of the stacked corners and the fraction plane as the launch
    finds them: entry (u, k, r, l) of the block is entry (image + u, k, 128 · band + r, l) of the result, and the two
    input blocks sit at the same image and band. -/
theorem flushed_eq (c : Dev nD) (t : Fin cfg0.N) :
    (dats m 0 c).flushed 2 t
      = ((cfg0.win 2).blk t).view.read (Elt Ideal) (blendK (F := Ideal) (V m c main_v443) (V m c main_v26)) := by
  show (cfg0.win 2).cut (grid0.coords t) ((dats m 0 c).after 2 t) = _
  rw [after0_2]
  unfold out0_2
  rw [View.canon_unit_zero hz4]
  obtain ⟨e00, e01, e02, e03, e04, e10, e11, e12, o1, o3⟩ := idx_facts t
  funext j
  obtain ⟨u, k, r, l, rfl⟩ : ∃ (u : Fin 1) (k : Fin 3) (r : Fin 128) (l : Fin 1024), j = ix4 u k r l :=
    ⟨j 0, j 1, j 2, j 3, eq_ix4 j⟩
  rw [View.read_apply]
  show k0_pay1 (View.ld (iblk m c 0 t) rC0) (View.ld (iblk m c 0 t) rC1) (View.ld (iblk m c 1 t) rB) (ix4 u k r l)
    = blendK (F := Ideal) (V m c main_v443) (V m c main_v26) (((cfg0.win 2).blk t).view.emb (ix4 u k r l))
  refine (body_apply (iblk m c 0 t) (iblk m c 1 t) u k r l).trans ?_
  have hC : ∀ s : Fin 2, iblk m c 0 t (ix5 s u k r l)
      = V m c main_v443 (stackIx s (((cfg0.win 2).blk t).view.emb (ix4 u k r l))) := fun s =>
    corner_read m c t (ix5 s u k r l) (stackIx s (((cfg0.win 2).blk t).view.emb (ix4 u k r l))) fun a => by
      match a with
      | ⟨0, _⟩ => show s.val = win0_0.index t (0 : Fin 5) * 2 + s.val; omega
      | ⟨1, _⟩ => show win0_2.index t (0 : Fin 4) * 1 + 1 * u.val = win0_0.index t (1 : Fin 5) * 1 + u.val; omega
      | ⟨2, _⟩ => show win0_2.index t (1 : Fin 4) * 3 + 1 * k.val = win0_0.index t (2 : Fin 5) * 3 + k.val; omega
      | ⟨3, _⟩ => show win0_2.index t (2 : Fin 4) * 128 + 1 * r.val = win0_0.index t (3 : Fin 5) * 128 + r.val; omega
      | ⟨4, _⟩ => show win0_2.index t (3 : Fin 4) * 1024 + 1 * l.val = win0_0.index t (4 : Fin 5) * 1024 + l.val; omega
  have hB : iblk m c 1 t (ix3 (0 : Fin 1) r l)
      = V m c main_v26 (pixIx (((cfg0.win 2).blk t).view.emb (ix4 u k r l))) :=
    frac_read m c t (ix3 (0 : Fin 1) r l) (pixIx (((cfg0.win 2).blk t).view.emb (ix4 u k r l))) fun a => by
      have hu : u.val = 0 := by omega
      match a with
      | ⟨0, _⟩ => show win0_2.index t (0 : Fin 4) * 1 + 1 * u.val = win0_1.index t (0 : Fin 3) * 1 + 0; omega
      | ⟨1, _⟩ => show win0_2.index t (2 : Fin 4) * 128 + 1 * r.val = win0_1.index t (1 : Fin 3) * 128 + r.val; omega
      | ⟨2, _⟩ => show win0_2.index t (3 : Fin 4) * 1024 + 1 * l.val = win0_1.index t (2 : Fin 3) * 1024 + l.val; omega
  rw [hC 0, hC 1, hB]
  rfl

/-- An entry of the result is in point t's block iff each coordinate is in the block's range on its axis. -/
theorem mem_blk (t : Fin cfg0.N) (i : S8x3x1024x1024.Idx) :
    i ∈ ((cfg0.win 2).blk t).view.set ↔ ∀ a : Fin 4, win0_2.index t a * S1x3x128x1024.size a ≤ (i a).val
      ∧ (i a).val < win0_2.index t a * S1x3x128x1024.size a + S1x3x128x1024.size a := by
  show i ∈ ((View.whole main_v444).slice (win0_2.rect t)).set ↔ _
  rw [View.set_slice_whole, Rect.mem_set_unit]
  exact Iff.rfl

/-- The 64 blocks cover the result: entry (b, k, h, l) is in the block of the point at image b and band h / 128. -/
theorem cover (i : S8x3x1024x1024.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1024 := (i 2).isLt
  have h3 : (i 3).val < 1024 := (i 3).isLt
  obtain ⟨t, q0, q2⟩ := idx_onto ⟨(i 0).val, h0⟩ ⟨(i 2).val / 128, by omega⟩
  have q0' : win0_2.index t (0 : Fin 4) = (i 0).val := q0
  have q2' : win0_2.index t (2 : Fin 4) = (i 2).val / 128 := q2
  obtain ⟨-, -, -, -, -, -, -, -, o1, o3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 128 ≤ (i 2).val ∧ (i 2).val < win0_2.index t (2 : Fin 4) * 128 + 128; omega
  | ⟨3, _⟩ => show win0_2.index t (3 : Fin 4) * 1024 ≤ (i 3).val ∧ (i 3).val < win0_2.index t (3 : Fin 4) * 1024 + 1024; omega

/-- The result array after the run is the blend, entry by entry, of the stacked corners and the fraction plane as the
    launch finds them. -/
theorem final (c : Dev nD) :
    (dats m 0 c).arrAt 2 cfg0.N = Cert.Lut3D.blendK (F := Ideal) (V m c main_v443) (V m c main_v26) :=
  (dats m 0 c).arrAt_eq_of_cover 2 (blendK (F := Ideal) (V m c main_v443) (V m c main_v26)) (fun t _ => flushed_eq m c t) cover

end Cert.KernelIdeal.Hand

end
-- ==== Proof.KIStageDefs.lean ====
/-
  The host lines before the launch, cut into stretches, and what each stretch computes.

  The 549 lines fall into: the bins and fractional parts of the three colours (the first 51 lines); eight stretches of
  57 lines, one per neighbour (dr, dg, db), each gathering the neighbour's table entries of the three channels at the
  wrapped flat position and joining them as one image; after the fourth and after the eighth neighbour a stretch of 26
  lines interpolating the four neighbour images along red and then green; and three lines stacking the two results.
  Running all the lines is running the stretches one after the other (after_append); each stretch is read on its own,
  from ANY contents, as a function of the few buffers it reads, and it leaves every buffer it does not write alone.
-/
import proofs.«129150_j43130061586455_2_alg».proof.Proof.KIData
import proofs.«129150_j43130061586455_2_alg».proof.Proof.Spec
import Idealize.ShloMosaic.Lib.StableHlo.Run

noncomputable section

namespace Cert.KernelIdeal.Hand

open Cert.KernelIdeal Cert.KernelIdeal.Gen Cert.Lut3D
open Idealize.ShloMosaic Idealize.ShloMosaic.TcCoe Idealize.SL.Sem Idealize.ShloMosaic.StableHlo

variable {F : FTy → Type} [FloatOps F]

section
variable {Val : EltTy → Type}

/-- Running one list of lines after another is running their concatenation. -/
theorem after_append (A B : List (HloOp τ sig Val)) (W : Valuation τ sig Val) :
    after (A ++ B) W = after B (after A W) := by
  induction A generalizing W with
  | nil => rfl
  | cons op A ih => simp only [List.cons_append, after_cons, ih]

/-- The lines from position a on are the next n of them followed by the lines from position a + n on. -/
theorem after_drop_step (L : List (HloOp τ sig Val)) (a n : Nat) (W : Valuation τ sig Val) :
    after (L.drop a) W = after (L.drop (a + n)) (after ((L.drop a).take n) W) := by
  have h : L.drop (a + n) = (L.drop a).drop n := by simp [List.drop_drop, Nat.add_comm]
  rw [h, ← after_append, List.take_append_drop]

variable {x a b y : Ref sig .tc}

/-- An operation of three operands given as a literal family leaves, at its result, its function of the three
    operands' contents, each read at its own reference. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

end

/-- A reference as a buffer of the device. -/
abbrev dv (r : Ref sig .tc) : DevRef τ sig := Proc.devRef .tc r

/-! ## The stretches -/

def stB : List (HloOp τ sig (Elt F)) :=
  hostOps0 ++ (hostOps0_1 ++ (hostOps0_2 ++ (hostOps0_3 ++ (hostOps0_4 ++ (hostOps0_5 ++ (hostOps0_6 (F := F)).take 6)))))
def stC1 : List (HloOp τ sig (Elt F)) := ((hostOps0_6 (F := F)).drop 6).take 57
def stC2 : List (HloOp τ sig (Elt F)) := ((hostOps0_6 (F := F)).drop 63).take 57
def stC3 : List (HloOp τ sig (Elt F)) := ((hostOps0_6 (F := F)).drop 120).take 57
def stC4 : List (HloOp τ sig (Elt F)) := ((hostOps0_6 (F := F)).drop 177).take 57
def stL0 : List (HloOp τ sig (Elt F)) := ((hostOps0_6 (F := F)).drop 234).take 26
def stC5 : List (HloOp τ sig (Elt F)) := ((hostOps0_6 (F := F)).drop 260).take 57
def stC6 : List (HloOp τ sig (Elt F)) := ((hostOps0_6 (F := F)).drop 317).take 57
def stC7 : List (HloOp τ sig (Elt F)) := ((hostOps0_6 (F := F)).drop 374).take 57
def stC8 : List (HloOp τ sig (Elt F)) := ((hostOps0_6 (F := F)).drop 431).take 57
def stL1 : List (HloOp τ sig (Elt F)) := ((hostOps0_6 (F := F)).drop 488).take 26
def stS : List (HloOp τ sig (Elt F)) := ((hostOps0_6 (F := F)).drop 514).take 3

/-- Unfolds a stretch to its literal lines. -/
macro "stretch_unfold" : tactic =>
  `(tactic| simp only [stB, stC1, stC2, stC3, stC4, stL0, stC5, stC6, stC7, stC8, stL1, stS,
      hostOps0, hostOps0_1, hostOps0_2, hostOps0_3, hostOps0_4, hostOps0_5, hostOps0_6,
      List.cons_append, List.nil_append, List.drop_succ_cons, List.drop_zero, List.take_succ_cons, List.take_zero])

/-- Reads each line's result where it is asked for: a line's own result buffer takes its function's value, any other
    buffer what it held. -/
macro "stretch_read" : tactic =>
  `(tactic| simp (disch := decide) only [dv, after_cons, after_nil,
      nullary_result', unary_result', binary_result', ternary_result', quaternary_result', reshape_result', nary3_result', nary_result',
      nullary_result_ne', unary_result_ne', binary_result_ne', ternary_result_ne', quaternary_result_ne', reshape_result_ne',
      nary_result_ne'])

/-! ## What a stretch computes, as functions of the buffers it reads -/

/-- The flat position of neighbour (dr, dg, db) from the three bins. -/
def flatB (dr dg db : BitVec 32) (r g b : IVec SPix 32) : IVec SPix 32 :=
  addi (addi (addi r (cI dr)) (muli (addi g (cI dg)) (cI 33#32))) (muli (addi b (cI db)) (cI 1089#32))

/-- The neighbour image from the table and the three bins. -/
def cornerB (dr dg db : BitVec 32) (lut : FVec F SLut .f32) (r g b : IVec SPix 32) : FVec F SImg .f32 :=
  concatenate SImg 1
    [⟨SCh1, ch1 (Host.gather gK (lutFlat 0 lut) (wrapIx (flatB dr dg db r g b)))⟩,
     ⟨SCh1, ch1 (Host.gather gK (lutFlat 1 lut) (wrapIx (flatB dr dg db r g b)))⟩,
     ⟨SCh1, ch1 (Host.gather gK (lutFlat 2 lut) (wrapIx (flatB dr dg db r g b)))⟩] concat_ch

theorem cornerB_eq (dr dg db : BitVec 32) (lut : FVec F SLut .f32) (x : FVec F SImg .f32) :
    cornerB dr dg db lut (binIx 0 x) (binIx 1 x) (binIx 2 x) = cornerK dr dg db lut x := rfl

/-- Four neighbour images interpolated along red, then green, from the two fractions. -/
def lerpB (c00 c10 c01 c11 : FVec F SImg .f32) (fr fg : FVec F SPix .f32) : FVec F SImg .f32 :=
  addf
    (mulf (addf (mulf c00 (img (subf one1 (ch1 fr)))) (mulf c10 (img (ch1 fr)))) (img (subf one1 (ch1 fg))))
    (mulf (addf (mulf c01 (img (subf one1 (ch1 fr)))) (mulf c11 (img (ch1 fr)))) (img (ch1 fg)))

theorem lerpB_eq (db : BitVec 32) (lut : FVec F SLut .f32) (x : FVec F SImg .f32) :
    lerpB (cornerK 0#32 0#32 db lut x) (cornerK 1#32 0#32 db lut x) (cornerK 0#32 1#32 db lut x) (cornerK 1#32 1#32 db lut x)
      (frac 0 x) (frac 1 x) = lerpRG db lut x := rfl

/-- Two images stacked. -/
def stackB (u v : FVec F SImg .f32) : FVec F SImg2 .f32 :=
  concatenate SImg2 0
    [⟨SImg1, broadcastInDim SImg1 ![1, 2, 3, 4] bc_img_img1 u⟩,
     ⟨SImg1, broadcastInDim SImg1 ![1, 2, 3, 4] bc_img_img1 v⟩] concat_img

theorem stackB_eq (lut : FVec F SLut .f32) (x : FVec F SImg .f32) :
    stackB (lerpRG 0#32 lut x) (lerpRG 1#32 lut x) = cornersK lut x := rfl

end Cert.KernelIdeal.Hand

end
-- ==== Proof.KIStageA.lean ====
/-
  The first stretches read on their own: the bins and fractional parts, the four neighbours at blue offset 0, and
  their interpolation along red and green.
-/
import proofs.«129150_j43130061586455_2_alg».proof.Proof.KIStageDefs

set_option maxRecDepth 65536
set_option maxHeartbeats 4000000

noncomputable section

namespace Cert.KernelIdeal.Hand

open Cert.KernelIdeal Cert.KernelIdeal.Gen Cert.Lut3D
open Idealize.ShloMosaic Idealize.ShloMosaic.TcCoe Idealize.SL.Sem Idealize.ShloMosaic.StableHlo

variable {F : FTy → Type} [FloatOps F]

/-! ## Bins and fractional parts -/

theorem out_B14 (G : Valuation τ sig (Elt F)) : after (stB (F := F)) G (dv main_v14) = binIx 0 (G (dv main_arg1)) := by
  stretch_unfold
  stretch_read <;> rfl
theorem out_B17 (G : Valuation τ sig (Elt F)) : after (stB (F := F)) G (dv main_v17) = binIx 1 (G (dv main_arg1)) := by
  stretch_unfold
  stretch_read <;> rfl
theorem out_B20 (G : Valuation τ sig (Elt F)) : after (stB (F := F)) G (dv main_v20) = binIx 2 (G (dv main_arg1)) := by
  stretch_unfold
  stretch_read <;> rfl
theorem out_B22 (G : Valuation τ sig (Elt F)) : after (stB (F := F)) G (dv main_v22) = frac 0 (G (dv main_arg1)) := by
  stretch_unfold
  stretch_read <;> rfl
theorem out_B24 (G : Valuation τ sig (Elt F)) : after (stB (F := F)) G (dv main_v24) = frac 1 (G (dv main_arg1)) := by
  stretch_unfold
  stretch_read <;> rfl
theorem out_B26 (G : Valuation τ sig (Elt F)) : after (stB (F := F)) G (dv main_v26) = frac 2 (G (dv main_arg1)) := by
  stretch_unfold
  stretch_read <;> rfl
/-- The table is not written. -/
theorem keep_B (G : Valuation τ sig (Elt F)) : after (stB (F := F)) G (dv main_arg0) = G (dv main_arg0) := by
  stretch_unfold
  stretch_read

/-! ## The neighbours at blue offset 0 -/

/-- Neighbour (0, 0, 0): the three gathers at its wrapped position, joined. -/
theorem out_C1 (G : Valuation τ sig (Elt F)) :
    after (stC1 (F := F)) G (dv main_v72)
      = cornerB 0#32 0#32 0#32 (G (dv main_arg0)) (G (dv main_v14)) (G (dv main_v17)) (G (dv main_v20)) := by
  stretch_unfold
  stretch_read <;> rfl

/-- It writes none of the buffers read later. -/
theorem keep_C1 (G : Valuation τ sig (Elt F)) (r : Ref sig .tc)
    (hr : r ∈ ([main_arg0, main_v14, main_v17, main_v20, main_v22, main_v24, main_v26] : List (Ref sig .tc))) :
    after (stC1 (F := F)) G (dv r) = G (dv r) := by
  simp only [List.mem_cons, List.not_mem_nil, or_false] at hr
  stretch_unfold
  rcases hr with rfl | rfl | rfl | rfl | rfl | rfl | rfl <;> stretch_read

/-- Neighbour (1, 0, 0): the three gathers at its wrapped position, joined. -/
theorem out_C2 (G : Valuation τ sig (Elt F)) :
    after (stC2 (F := F)) G (dv main_v118)
      = cornerB 1#32 0#32 0#32 (G (dv main_arg0)) (G (dv main_v14)) (G (dv main_v17)) (G (dv main_v20)) := by
  stretch_unfold
  stretch_read <;> rfl

/-- It writes none of the buffers read later. -/
theorem keep_C2 (G : Valuation τ sig (Elt F)) (r : Ref sig .tc)
    (hr : r ∈ ([main_arg0, main_v14, main_v17, main_v20, main_v22, main_v24, main_v26, main_v72] : List (Ref sig .tc))) :
    after (stC2 (F := F)) G (dv r) = G (dv r) := by
  simp only [List.mem_cons, List.not_mem_nil, or_false] at hr
  stretch_unfold
  rcases hr with rfl | rfl | rfl | rfl | rfl | rfl | rfl | rfl <;> stretch_read

/-- Neighbour (0, 1, 0): the three gathers at its wrapped position, joined. -/
theorem out_C3 (G : Valuation τ sig (Elt F)) :
    after (stC3 (F := F)) G (dv main_v164)
      = cornerB 0#32 1#32 0#32 (G (dv main_arg0)) (G (dv main_v14)) (G (dv main_v17)) (G (dv main_v20)) := by
  stretch_unfold
  stretch_read <;> rfl

/-- It writes none of the buffers read later. -/
theorem keep_C3 (G : Valuation τ sig (Elt F)) (r : Ref sig .tc)
    (hr : r ∈ ([main_arg0, main_v14, main_v17, main_v20, main_v22, main_v24, main_v26, main_v72, main_v118] : List (Ref sig .tc))) :
    after (stC3 (F := F)) G (dv r) = G (dv r) := by
  simp only [List.mem_cons, List.not_mem_nil, or_false] at hr
  stretch_unfold
  rcases hr with rfl | rfl | rfl | rfl | rfl | rfl | rfl | rfl | rfl <;> stretch_read

/-- Neighbour (1, 1, 0): the three gathers at its wrapped position, joined. -/
theorem out_C4 (G : Valuation τ sig (Elt F)) :
    after (stC4 (F := F)) G (dv main_v210)
      = cornerB 1#32 1#32 0#32 (G (dv main_arg0)) (G (dv main_v14)) (G (dv main_v17)) (G (dv main_v20)) := by
  stretch_unfold
  stretch_read <;> rfl

/-- It writes none of the buffers read later. -/
theorem keep_C4 (G : Valuation τ sig (Elt F)) (r : Ref sig .tc)
    (hr : r ∈ ([main_arg0, main_v14, main_v17, main_v20, main_v22, main_v24, main_v26, main_v72, main_v118, main_v164] : List (Ref sig .tc))) :
    after (stC4 (F := F)) G (dv r) = G (dv r) := by
  simp only [List.mem_cons, List.not_mem_nil, or_false] at hr
  stretch_unfold
  rcases hr with rfl | rfl | rfl | rfl | rfl | rfl | rfl | rfl | rfl | rfl <;> stretch_read

/-- The four neighbour images interpolated along red, then green. -/
theorem out_L0 (G : Valuation τ sig (Elt F)) :
    after (stL0 (F := F)) G (dv main_v233)
      = lerpB (G (dv main_v72)) (G (dv main_v118)) (G (dv main_v164)) (G (dv main_v210)) (G (dv main_v22)) (G (dv main_v24)) := by
  stretch_unfold
  stretch_read <;> rfl

/-- It writes none of the buffers read later. -/
theorem keep_L0 (G : Valuation τ sig (Elt F)) (r : Ref sig .tc)
    (hr : r ∈ ([main_arg0, main_v14, main_v17, main_v20, main_v22, main_v24, main_v26] : List (Ref sig .tc))) :
    after (stL0 (F := F)) G (dv r) = G (dv r) := by
  simp only [List.mem_cons, List.not_mem_nil, or_false] at hr
  stretch_unfold
  rcases hr with rfl | rfl | rfl | rfl | rfl | rfl | rfl <;> stretch_read

end Cert.KernelIdeal.Hand

end
-- ==== Proof.KIStageB.lean ====
/-
  The later stretches read on their own: the four neighbours at blue offset 1, their interpolation along red and
  green, and the stacking of the two interpolated images.
-/
import proofs.«129150_j43130061586455_2_alg».proof.Proof.KIStageDefs

set_option maxRecDepth 65536
set_option maxHeartbeats 4000000

noncomputable section

namespace Cert.KernelIdeal.Hand

open Cert.KernelIdeal Cert.KernelIdeal.Gen Cert.Lut3D
open Idealize.ShloMosaic Idealize.ShloMosaic.TcCoe Idealize.SL.Sem Idealize.ShloMosaic.StableHlo

variable {F : FTy → Type} [FloatOps F]

/-! ## The neighbours at blue offset 1 -/

/-- Neighbour (0, 0, 1): the three gathers at its wrapped position, joined. -/
theorem out_C5 (G : Valuation τ sig (Elt F)) :
    after (stC5 (F := F)) G (dv main_v279)
      = cornerB 0#32 0#32 1#32 (G (dv main_arg0)) (G (dv main_v14)) (G (dv main_v17)) (G (dv main_v20)) := by
  stretch_unfold
  stretch_read <;> rfl

/-- It writes none of the buffers read later. -/
theorem keep_C5 (G : Valuation τ sig (Elt F)) (r : Ref sig .tc)
    (hr : r ∈ ([main_arg0, main_v14, main_v17, main_v20, main_v22, main_v24, main_v26, main_v233] : List (Ref sig .tc))) :
    after (stC5 (F := F)) G (dv r) = G (dv r) := by
  simp only [List.mem_cons, List.not_mem_nil, or_false] at hr
  stretch_unfold
  rcases hr with rfl | rfl | rfl | rfl | rfl | rfl | rfl | rfl <;> stretch_read

/-- Neighbour (1, 0, 1): the three gathers at its wrapped position, joined. -/
theorem out_C6 (G : Valuation τ sig (Elt F)) :
    after (stC6 (F := F)) G (dv main_v325)
      = cornerB 1#32 0#32 1#32 (G (dv main_arg0)) (G (dv main_v14)) (G (dv main_v17)) (G (dv main_v20)) := by
  stretch_unfold
  stretch_read <;> rfl

/-- It writes none of the buffers read later. -/
theorem keep_C6 (G : Valuation τ sig (Elt F)) (r : Ref sig .tc)
    (hr : r ∈ ([main_arg0, main_v14, main_v17, main_v20, main_v22, main_v24, main_v26, main_v233, main_v279] : List (Ref sig .tc))) :
    after (stC6 (F := F)) G (dv r) = G (dv r) := by
  simp only [List.mem_cons, List.not_mem_nil, or_false] at hr
  stretch_unfold
  rcases hr with rfl | rfl | rfl | rfl | rfl | rfl | rfl | rfl | rfl <;> stretch_read

/-- Neighbour (0, 1, 1): the three gathers at its wrapped position, joined. -/
theorem out_C7 (G : Valuation τ sig (Elt F)) :
    after (stC7 (F := F)) G (dv main_v371)
      = cornerB 0#32 1#32 1#32 (G (dv main_arg0)) (G (dv main_v14)) (G (dv main_v17)) (G (dv main_v20)) := by
  stretch_unfold
  stretch_read <;> rfl

/-- It writes none of the buffers read later. -/
theorem keep_C7 (G : Valuation τ sig (Elt F)) (r : Ref sig .tc)
    (hr : r ∈ ([main_arg0, main_v14, main_v17, main_v20, main_v22, main_v24, main_v26, main_v233, main_v279, main_v325] : List (Ref sig .tc))) :
    after (stC7 (F := F)) G (dv r) = G (dv r) := by
  simp only [List.mem_cons, List.not_mem_nil, or_false] at hr
  stretch_unfold
  rcases hr with rfl | rfl | rfl | rfl | rfl | rfl | rfl | rfl | rfl | rfl <;> stretch_read

/-- Neighbour (1, 1, 1): the three gathers at its wrapped position, joined. -/
theorem out_C8 (G : Valuation τ sig (Elt F)) :
    after (stC8 (F := F)) G (dv main_v417)
      = cornerB 1#32 1#32 1#32 (G (dv main_arg0)) (G (dv main_v14)) (G (dv main_v17)) (G (dv main_v20)) := by
  stretch_unfold
  stretch_read <;> rfl

/-- It writes none of the buffers read later. -/
theorem keep_C8 (G : Valuation τ sig (Elt F)) (r : Ref sig .tc)
    (hr : r ∈ ([main_arg0, main_v14, main_v17, main_v20, main_v22, main_v24, main_v26, main_v233, main_v279, main_v325, main_v371] : List (Ref sig .tc))) :
    after (stC8 (F := F)) G (dv r) = G (dv r) := by
  simp only [List.mem_cons, List.not_mem_nil, or_false] at hr
  stretch_unfold
  rcases hr with rfl | rfl | rfl | rfl | rfl | rfl | rfl | rfl | rfl | rfl | rfl <;> stretch_read

/-- The four neighbour images interpolated along red, then green. -/
theorem out_L1 (G : Valuation τ sig (Elt F)) :
    after (stL1 (F := F)) G (dv main_v440)
      = lerpB (G (dv main_v279)) (G (dv main_v325)) (G (dv main_v371)) (G (dv main_v417)) (G (dv main_v22)) (G (dv main_v24)) := by
  stretch_unfold
  stretch_read <;> rfl

/-- It writes none of the buffers read later. -/
theorem keep_L1 (G : Valuation τ sig (Elt F)) (r : Ref sig .tc)
    (hr : r ∈ ([main_v26, main_v233] : List (Ref sig .tc))) :
    after (stL1 (F := F)) G (dv r) = G (dv r) := by
  simp only [List.mem_cons, List.not_mem_nil, or_false] at hr
  stretch_unfold
  rcases hr with rfl | rfl <;> stretch_read

/-! ## The stack -/

theorem out_S (G : Valuation τ sig (Elt F)) :
    after (stS (F := F)) G (dv main_v443) = stackB (G (dv main_v233)) (G (dv main_v440)) := by
  stretch_unfold
  stretch_read <;> rfl

theorem keep_S (G : Valuation τ sig (Elt F)) : after (stS (F := F)) G (dv main_v26) = G (dv main_v26) := by
  stretch_unfold
  stretch_read

end Cert.KernelIdeal.Hand

end
-- ==== Proof.KIHost.lean ====
/-
  What the two arrays the blend reads hold when the kernel is launched, as functions of the argument arrays.

  The contents at the launch are the launch memory run through the stretches of host lines in order.  Traced back
  through them — each stretch read as in the two modules before this one, each buffer followed to the stretch that
  writes it — the blue fraction's plane is frac 2 of the image, and the stack the blend reads is cornersK of table and
  image: the eight neighbour images from the bins, interpolated along red and green at blue offset 0 and 1.
-/
import proofs.«129150_j43130061586455_2_alg».proof.Proof.KIStageA
import proofs.«129150_j43130061586455_2_alg».proof.Proof.KIStageB

set_option maxRecDepth 65536
set_option maxHeartbeats 4000000

noncomputable section

namespace Cert.KernelIdeal.Hand

open Cert.KernelIdeal Cert.KernelIdeal.Gen Cert.Lut3D
open Idealize.ShloMosaic Idealize.ShloMosaic.TcCoe Idealize.SL.Sem Idealize.ShloMosaic.StableHlo

variable {F : FTy → Type} [FloatOps F]

/-- A cut of the lines from position a at position k = a + n. -/
theorem after_cut {Val : EltTy → Type} (L : List (HloOp τ sig Val)) (a n k : Nat) (hk : a + n = k) (W : Valuation τ sig Val) :
    after (L.drop a) W = after (L.drop k) (after ((L.drop a).take n) W) := by
  subst hk; exact after_drop_step L a n W

/-- The contents at the launch: the stretches, one after the other, from the launch memory. -/
theorem V_tower (m : (ℓ : Loc nD τ sig) → Buf (Elt F) ℓ) (c : Dev nD) (r : Ref sig .tc) :
    V m c r = after stS (after stL1 (after stC8 (after stC7 (after stC6 (after stC5 (after stL0 (after stC4 (after stC3
      (after stC2 (after stC1 (after (stB (F := F)) (fun b => m (c, b))))))))))))) (dv r) := by
  show after (List.flatten [hostOps0, hostOps0_1, hostOps0_2, hostOps0_3, hostOps0_4, hostOps0_5, hostOps0_6 (F := F)])
    (fun b => m (c, b)) (dv r) = _
  have hlist : List.flatten [hostOps0, hostOps0_1, hostOps0_2, hostOps0_3, hostOps0_4, hostOps0_5, hostOps0_6 (F := F)]
      = stB ++ (hostOps0_6 (F := F)).drop 6 := by
    simp only [stB, List.flatten_cons, List.flatten_nil, List.append_nil, List.append_assoc, List.take_append_drop]
  have hnil : (hostOps0_6 (F := F)).drop 517 = [] := rfl
  rw [hlist, after_append, after_cut _ 6 57 63 rfl, after_cut _ 63 57 120 rfl, after_cut _ 120 57 177 rfl,
    after_cut _ 177 57 234 rfl, after_cut _ 234 26 260 rfl, after_cut _ 260 57 317 rfl, after_cut _ 317 57 374 rfl,
    after_cut _ 374 57 431 rfl, after_cut _ 431 57 488 rfl, after_cut _ 488 26 514 rfl, after_cut _ 514 3 517 rfl,
    hnil, after_nil]
  rfl

-- from here on a stretch is a name: two stretches are told apart without looking at their lines
attribute [local irreducible] stB stC1 stC2 stC3 stC4 stL0 stC5 stC6 stC7 stC8 stL1 stS

/-- The blue fraction's plane at the launch. -/
theorem V_frac (m : (ℓ : Loc nD τ sig) → Buf (Elt F) ℓ) (c : Dev nD) :
    V m c main_v26 = frac 2 (m ((c : Thread nD τ).loc main_arg1)) := by
  rw [V_tower, keep_S, keep_L1 _ _ (by decide), keep_C8 _ _ (by decide), keep_C7 _ _ (by decide), keep_C6 _ _ (by decide),
    keep_C5 _ _ (by decide), keep_L0 _ _ (by decide), keep_C4 _ _ (by decide), keep_C3 _ _ (by decide), keep_C2 _ _ (by decide),
    keep_C1 _ _ (by decide), out_B26]

/-- The stacked corner images at the launch: followed back stretch by stretch. -/
theorem V_corners (m : (ℓ : Loc nD τ sig) → Buf (Elt F) ℓ) (c : Dev nD) :
    V m c main_v443 = cornersK (m ((c : Thread nD τ).loc main_arg0)) (m ((c : Thread nD τ).loc main_arg1)) := by
  rw [V_tower, out_S]
  -- the second interpolation, and the first image carried past it
  rw [keep_L1 _ main_v233 (by decide), out_L1]
  -- the four neighbours at blue offset 1, last first
  rw [keep_C8 _ main_v233 (by decide), keep_C8 _ main_v279 (by decide), keep_C8 _ main_v325 (by decide), keep_C8 _ main_v371 (by decide), keep_C8 _ main_v22 (by decide), keep_C8 _ main_v24 (by decide), out_C8]
  rw [keep_C7 _ main_v233 (by decide), keep_C7 _ main_v279 (by decide), keep_C7 _ main_v325 (by decide), keep_C7 _ main_v22 (by decide), keep_C7 _ main_v24 (by decide), keep_C7 _ main_arg0 (by decide), keep_C7 _ main_v14 (by decide), keep_C7 _ main_v17 (by decide), keep_C7 _ main_v20 (by decide), out_C7]
  rw [keep_C6 _ main_v233 (by decide), keep_C6 _ main_v279 (by decide), keep_C6 _ main_v22 (by decide), keep_C6 _ main_v24 (by decide), keep_C6 _ main_arg0 (by decide), keep_C6 _ main_v14 (by decide), keep_C6 _ main_v17 (by decide), keep_C6 _ main_v20 (by decide), out_C6]
  rw [keep_C5 _ main_v233 (by decide), keep_C5 _ main_v22 (by decide), keep_C5 _ main_v24 (by decide), keep_C5 _ main_arg0 (by decide), keep_C5 _ main_v14 (by decide), keep_C5 _ main_v17 (by decide), keep_C5 _ main_v20 (by decide), out_C5]
  -- the first interpolation
  rw [keep_L0 _ main_v22 (by decide), keep_L0 _ main_v24 (by decide), keep_L0 _ main_arg0 (by decide), keep_L0 _ main_v14 (by decide), keep_L0 _ main_v17 (by decide), keep_L0 _ main_v20 (by decide), out_L0]
  -- the four neighbours at blue offset 0, last first
  rw [keep_C4 _ main_v72 (by decide), keep_C4 _ main_v118 (by decide), keep_C4 _ main_v164 (by decide), keep_C4 _ main_v22 (by decide), keep_C4 _ main_v24 (by decide), keep_C4 _ main_arg0 (by decide), keep_C4 _ main_v14 (by decide), keep_C4 _ main_v17 (by decide), keep_C4 _ main_v20 (by decide), out_C4]
  rw [keep_C3 _ main_v72 (by decide), keep_C3 _ main_v118 (by decide), keep_C3 _ main_v22 (by decide), keep_C3 _ main_v24 (by decide), keep_C3 _ main_arg0 (by decide), keep_C3 _ main_v14 (by decide), keep_C3 _ main_v17 (by decide), keep_C3 _ main_v20 (by decide), out_C3]
  rw [keep_C2 _ main_v72 (by decide), keep_C2 _ main_v22 (by decide), keep_C2 _ main_v24 (by decide), keep_C2 _ main_arg0 (by decide), keep_C2 _ main_v14 (by decide), keep_C2 _ main_v17 (by decide), keep_C2 _ main_v20 (by decide), out_C2]
  rw [keep_C1 _ main_v22 (by decide), keep_C1 _ main_v24 (by decide), keep_C1 _ main_arg0 (by decide), keep_C1 _ main_v14 (by decide), keep_C1 _ main_v17 (by decide), keep_C1 _ main_v20 (by decide), out_C1]
  -- bins and fractions from the image; the table as launched
  rw [keep_B, out_B14, out_B17, out_B20, out_B22, out_B24]
  rfl

end Cert.KernelIdeal.Hand

end
-- ==== Proof.RefTerm.lean ====
/-
  The reference's result, composed from its lines, is the specification's sum of the eight weighted neighbours.
-/
import proofs.«129150_j43130061586455_2_alg».proof.Proof.RefRunP
import proofs.«129150_j43130061586455_2_alg».proof.Proof.Spec

noncomputable section

namespace Cert.ReferenceIdeal.RefValue

open Cert.ReferenceIdeal Cert.ReferenceIdeal.Gen Cert.ReferenceIdeal.ValueP
open Idealize.ShloMosaic Idealize.ShloMosaic.TcCoe Idealize.SL.Sem

variable {F : FTy → Type} [FloatOps F]

set_option maxRecDepth 65536 in
set_option maxHeartbeats 400000000 in
/-- Line by line the run's term is the same operations applied to the same operands as the specification's: bins and
    fractions of the three colours, the eight wrapped positions, the eight gathers of table columns, the eight
    products of weights, the sum from zero, the transposition. -/
theorem res_eq (m : (ℓ : Loc nD τ sig) → Buf (Elt F) ℓ) (c : Dev nD) :
    res_out0 (F := F) m c
      = Cert.Lut3D.refR (m ((c.tc : Thread nD τ).loc main_arg0)) (m ((c.tc : Thread nD τ).loc main_arg1)) := by
  unfold res_out0 res_main_v253
  rfl

end Cert.ReferenceIdeal.RefValue

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«129150_j43130061586455_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.FinPre.lean ====
/-
  The precondition read back: when the printed test "every entry of both arguments is below +∞ in absolute value"
  evaluates to true, every entry of the table and of the image is a real number.
-/
import proofs.«129150_j43130061586455_2_alg».proof.Pre_finite_inputs
import proofs.«129150_j43130061586455_2_alg».proof.Proof.LibFinDecode
import Idealize.ShloMosaic.Lib.Affine

noncomputable section

namespace Cert.Pre_finite_inputs.Decode

open Idealize.ShloMosaic Idealize.ShloMosaic.ValueIdx Cert.LibFinite Cert.Pre_finite_inputs

variable [Cert.Pre_finite_inputs.Facts]

/-- The test is the conjunction of the two arrays' tests; each says every entry is real. -/
theorem fin_of_pre (lut : FVec Ideal S3x33x33x33 .f32) (x : FVec Ideal S8x3x1024x1024 .f32)
    (h : Cert.Pre_finite_inputs.fn (F := Ideal) lut x = fun _ => 1#1) :
    (∀ i, IsFin (lut i)) ∧ (∀ i, IsFin (x i)) := by
  have h0 := congrFun h ix0
  dsimp only [Cert.Pre_finite_inputs.fn, andi] at h0
  have h1 := IntOp.andi_eq_one.mp h0
  exact ⟨fun i => Cert.LibFinDecode.all_fin lut _ _ _ h1.1 i, fun i => Cert.LibFinDecode.all_fin x _ _ _ h1.2 i⟩

end Cert.Pre_finite_inputs.Decode

end
-- ==== Proof.TriGather.lean ====
/-
  The two gathers read the same table entry.

  The axis-by-axis program gathers from channel c of the table laid out flat (33³ entries); the weighted-sum
  program gathers whole columns of the table laid out as [3, 33³] and then looks at channel c.  Both clamp the
  start index of a pixel into 0 … 33³ − 1, giving a position n.  Row-major order makes position n of the 33³ block
  under channel c of the [3, 33, 33, 33] table and entry (c, n) of the [3, 33³] table the same entry, the one at
  row-major position c · 33³ + n; n is never decoded into three coordinates.
-/
import proofs.«129150_j43130061586455_2_alg».proof.Proof.Spec
import Idealize.ShloMosaic.Lib.ValueIdx
import Idealize.ShloMosaic.Lib.Pipeline.Value

noncomputable section

namespace Cert.Lut3D

open Idealize.ShloMosaic Idealize.ShloMosaic.ValueIdx

variable {F : FTy → Type} [FloatOps F]

/-- The entry of a column of start indices that belongs to pixel (b, h, w). -/
abbrev startAt (b : Fin 8) (h w : Fin 1024) : SPix1.Idx := ix4 b h w (0 : Fin 1)

/-- A start index read as a signed integer and clamped into the table's 33³ positions. -/
def clampPos (v : BitVec 32) : Fin 35937 := ⟨min v.toInt.toNat 35936, by omega⟩

/-! ## Where each gather reads -/

/-- The flat gather reads position `clampPos` of the pixel's start index. -/
theorem gK_operandIdx (I : IVec SPix1 32) (b : Fin 8) (h w : Fin 1024) :
    gK.operandIdx (ix3 b h w) I = ix1 (clampPos (I (startAt b h w))) := by
  funext a
  obtain rfl : a = 0 := Subsingleton.elim _ _
  refine Fin.ext ?_
  show gK.start (ix3 b h w) I 0 + gK.batchCoord (ix3 b h w) 0 + gK.offCoord (ix3 b h w) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gK.startIndexMap from List.mem_singleton.mpr rfl)]
  have hsi : gK.siIdx (ix3 b h w) ⟨List.idxOf (0 : Fin 1) gK.startIndexMap,
      List.idxOf_lt_length_iff.2 (List.mem_singleton.mpr rfl)⟩ = startAt b h w := by
    funext e; refine Fin.ext ?_
    match e with
    | ⟨0, _⟩ => rfl
    | ⟨1, _⟩ => rfl
    | ⟨2, _⟩ => rfl
    | ⟨3, _⟩ => rfl
  rw [hsi]
  rfl

/-- The column gather reads, on the channel axis, the channel of the result entry … -/
theorem gR_operandIdx_0 (I : IVec SPix1 32) (c : Fin 3) (b : Fin 8) (h w : Fin 1024) :
    (gR.operandIdx (ix4 c b h w) I (0 : Fin 2)).val = c.val := by
  show gR.start (ix4 c b h w) I (0 : Fin 2) + gR.batchCoord (ix4 c b h w) (0 : Fin 2)
    + gR.offCoord (ix4 c b h w) (0 : Fin 2) = _
  rw [GatherDims.batchCoord_eq_zero _ _ _ List.not_mem_nil]
  unfold GatherDims.start
  rw [dif_neg (show (0 : Fin 2) ∉ gR.startIndexMap by decide)]
  unfold GatherDims.offCoord
  rw [dif_pos (show (0 : Fin 2) ∈ gR.sKept by decide)]
  have e : gR.offsetDims[gR.sKept.idxOf (0 : Fin 2)]'(by decide) = (0 : Fin 4) := by decide
  rw [e]
  show 0 + 0 + c.val = c.val
  omega

/-- … and, on the position axis, position `clampPos` of the pixel's start index. -/
theorem gR_operandIdx_1 (I : IVec SPix1 32) (c : Fin 3) (b : Fin 8) (h w : Fin 1024) :
    (gR.operandIdx (ix4 c b h w) I (1 : Fin 2)).val = (clampPos (I (startAt b h w))).val := by
  show gR.start (ix4 c b h w) I (1 : Fin 2) + gR.batchCoord (ix4 c b h w) (1 : Fin 2)
    + gR.offCoord (ix4 c b h w) (1 : Fin 2) = _
  have h1 : (1 : Fin 2) ∈ gR.startIndexMap := by decide
  rw [GatherDims.batchCoord_eq_zero _ _ _ List.not_mem_nil,
    GatherDims.offCoord_eq_zero _ _ _ (show (1 : Fin 2) ∉ gR.sKept by decide)]
  simp only [Nat.add_zero]
  unfold GatherDims.start
  rw [dif_pos h1]
  have hsi : gR.siIdx (ix4 c b h w) ⟨List.idxOf (1 : Fin 2) gR.startIndexMap,
      List.idxOf_lt_length_iff.2 h1⟩ = startAt b h w := by
    funext e; refine Fin.ext ?_
    match e with
    | ⟨0, _⟩ => rfl
    | ⟨1, _⟩ => rfl
    | ⟨2, _⟩ => rfl
    | ⟨3, _⟩ => rfl
  rw [hsi]
  rfl

/-- The column gather reads entry (c, `clampPos` of the pixel's start index). -/
theorem gR_operandIdx (I : IVec SPix1 32) (c : Fin 3) (b : Fin 8) (h w : Fin 1024) :
    gR.operandIdx (ix4 c b h w) I = ix2 c (clampPos (I (startAt b h w))) := by
  funext a
  refine Fin.ext ?_
  match a with
  | ⟨0, _⟩ => exact gR_operandIdx_0 I c b h w
  | ⟨1, _⟩ => exact gR_operandIdx_1 I c b h w

/-! ## Row-major order -/

/-- Position n of channel c laid out flat is entry (c, n) of the table laid out as [3, 33³]: both are the table
    entry at row-major position c · 33³ + n. -/
theorem lutFlat_apply (c : Fin 3) (lut : FVec F SLut .f32) (n : Fin 35937) :
    lutFlat c lut (ix1 n) = shapeCast SLut2 lut cast_lut_lut2 (ix2 c n) := by
  unfold lutFlat
  -- any entry of the one-channel block [1, 33, 33, 33] at row-major position n
  have key : ∀ k1 : SLut1.Idx, (SLut1.rowMajor k1).val = n.val →
      extractStridedSlice SLut1 ![c.val, 0, 0, 0] lut (slices_lut c) k1
        = shapeCast SLut2 lut cast_lut_lut2 (ix2 c n) := by
    intro k1 hk1
    unfold extractStridedSlice
    refine (shapeCast_apply lut cast_lut_lut2 (ix2 c n) _ ?_).symm
    rw [Shape.rowMajor_val_four, Shape.rowMajor_val_two]
    rw [Shape.rowMajor_val_four] at hk1
    have h0 : (k1 0).val = 0 := by have := (k1 0).isLt; simp at this; omega
    show ((((c.val + (k1 0).val) * 33 + (0 + (k1 1).val)) * 33 + (0 + (k1 2).val)) * 33 + (0 + (k1 3).val))
      = c.val * 35937 + n.val
    have hk1' : ((((k1 0).val * 33 + (k1 1).val) * 33 + (k1 2).val) * 33 + (k1 3).val) = n.val := hk1
    omega
  unfold shapeCast
  refine key _ ?_
  rw [Shape.rowMajor_reshapeEquiv, Shape.rowMajor_reshapeEquiv, Shape.rowMajor_val_one]

/-! ## The two gathers agree, and what they read is a table entry -/

/-- For any start indices, the flat gather from channel c at a pixel is the column gather at channel c of that
    pixel. -/
theorem gatherK_eq_gatherR (lut : FVec F SLut .f32) (I : IVec SPix1 32) (c : Fin 3) (b : Fin 8) (h w : Fin 1024) :
    Host.gather gK (lutFlat c lut) I (ix3 b h w)
      = Host.gather gR (shapeCast SLut2 lut cast_lut_lut2) I (ix4 c b h w) := by
  unfold Host.gather
  rw [gK_operandIdx, gR_operandIdx, lutFlat_apply]

/-- What the column gather reads is an entry of the table. -/
theorem gatherR_entry (lut : FVec F SLut .f32) (I : IVec SPix1 32) (j : SCImg.Idx) :
    ∃ k : SLut.Idx, Host.gather gR (shapeCast SLut2 lut cast_lut_lut2) I j = lut k :=
  ⟨Shape.reshapeEquiv cast_lut_lut2 (gR.operandIdx j I), rfl⟩

end Cert.Lut3D

end
-- ==== Proof.TriFrac.lean ====
/-
  The fractional parts are real numbers.

  A colour value of a finite image is a real number; divided by the bin size — the word 0x3D000008, which is the
  real 8388616 / 2²⁸ and not zero — it stays real, and so does its difference from an integer (its bin).  The
  word 0x3F800000 is the real number one.
-/
import proofs.«129150_j43130061586455_2_alg».proof.Proof.Spec
import proofs.«129150_j43130061586455_2_alg».proof.Proof.LibFinite
import Idealize.ShloMosaic.Lib.ValueIdx

noncomputable section

namespace Cert.Lut3D

open Idealize.ShloMosaic Idealize.ShloMosaic.ValueIdx Cert.LibFinite

/-- A difference of two real numbers is a real number. -/
theorem isFin_sub {x y : EReal} (hx : IsFin x) (hy : IsFin y) : IsFin (x - y) := by
  obtain ⟨a, rfl⟩ := hx; obtain ⟨b, rfl⟩ := hy
  exact ⟨a - b, (EReal.coe_sub a b).symm⟩

/-! ## The two float words -/

/-- The bin size is the real 8388616 / 2²⁸ … -/
theorem binSize_eq : Ideal.ofBits .f32 0x3D000008#32 = (((8388616 : ℝ) * (2 ^ 28)⁻¹ : ℝ) : EReal) := by
  simp [Ideal.ofBits, Ideal.ieee]

theorem binSize_fin : IsFin (Ideal.ofBits .f32 0x3D000008#32) := ⟨_, binSize_eq⟩

/-- … and it is not zero. -/
theorem binSize_ne_zero : Ideal.ofBits .f32 0x3D000008#32 ≠ 0 := by
  rw [binSize_eq]
  have h : ((8388616 : ℝ) * (2 ^ 28)⁻¹) ≠ 0 := by norm_num
  exact_mod_cast h

/-- The word 0x3F800000 is one. -/
theorem oneWord_eq : Ideal.ofBits .f32 0x3F800000#32 = ((1 : ℝ) : EReal) := by
  have h : Ideal.ofBits .f32 0x3F800000#32 = (((8388608 : ℝ) * (2 ^ 23)⁻¹ : ℝ) : EReal) := by
    simp [Ideal.ofBits, Ideal.ieee]
  rw [h]
  exact congrArg _ (by norm_num)

/-! ## Colour planes, scaled planes, fractional parts -/

/-- An entry of a colour plane is an entry of the image. -/
theorem chan_fin (k : Fin 3) (x : FVec Ideal SImg .f32) (hx : ∀ i, IsFin (x i)) (p : SPix.Idx) :
    IsFin (chan k x p) := hx _

/-- A colour value divided by the bin size is real. -/
theorem scaled_fin (k : Fin 3) (x : FVec Ideal SImg .f32) (hx : ∀ i, IsFin (x i)) (p : SPix.Idx) :
    IsFin (scaled k x p) := by
  show IsFin (Ideal.div (chan k x p) (Ideal.ofBits .f32 0x3D000008#32))
  exact IsFin.div (chan_fin k x hx p) binSize_fin binSize_ne_zero

/-- The fractional part — the scaled value less its bin, an integer — is real. -/
theorem frac_fin (k : Fin 3) (x : FVec Ideal SImg .f32) (hx : ∀ i, IsFin (x i)) (p : SPix.Idx) :
    IsFin (frac k x p) := by
  show IsFin (scaled k x p - (((binIx k x p).toInt : ℝ) : EReal))
  exact isFin_sub (scaled_fin k x hx p) (IsFin.coe _)

end Cert.Lut3D

end
-- ==== Proof.TriKernel.lean ====
/-
  The axis-by-axis program read at one image entry.

  At the entry (b, c, h, w) the stack of the two blue offsets holds, at offset u, the red-then-green interpolation
  at that offset; that interpolation is, entry by entry,
      (L₀₀ · (1 − fr) + L₁₀ · fr) · (1 − fg) + (L₀₁ · (1 − fr) + L₁₁ · fr) · fg
  with fr, fg the fractional parts at the pixel (b, h, w) and L the flat gathers from channel c at that pixel; and
  the blend along blue is c₀ + fb · (c₁ − c₀).  Every layout operation here (a concatenation along the channel or
  the stacking axis, a broadcast of a per-pixel plane over a unit axis or over the channels) reads one entry of its
  operand; the arithmetic is entry by entry by definition.
-/
import proofs.«129150_j43130061586455_2_alg».proof.Proof.Spec
import Idealize.ShloMosaic.Lib.ValueIdx
import Idealize.ShloMosaic.Lib.Pipeline.Value

noncomputable section

namespace Cert.Lut3D

open Idealize.ShloMosaic Idealize.ShloMosaic.ValueIdx

/-! ## Indices -/

theorem stackIx_ix4 (u : Fin 2) (b : Fin 8) (c : Fin 3) (h w : Fin 1024) :
    stackIx u (ix4 b c h w) = ix5 u b c h w := by
  funext a
  match a with
  | ⟨0, _⟩ => rfl
  | ⟨1, _⟩ => rfl
  | ⟨2, _⟩ => rfl
  | ⟨3, _⟩ => rfl
  | ⟨4, _⟩ => rfl

theorem pixIx_ix4 (b : Fin 8) (c : Fin 3) (h w : Fin 1024) : pixIx (ix4 b c h w) = ix3 b h w := by
  funext a
  match a with
  | ⟨0, _⟩ => rfl
  | ⟨1, _⟩ => rfl
  | ⟨2, _⟩ => rfl

/-! ## Broadcasts of a per-pixel plane -/

section Layout
variable {F : FTy → Type} [FloatOps F]

/-- A per-pixel plane as a one-channel image reads the pixel. -/
theorem ch1_apply (v : FVec F SPix .f32) (b : Fin 8) (z : Fin 1) (h w : Fin 1024) :
    ch1 v (ix4 b z h w) = v (ix3 b h w) := by
  unfold ch1
  exact broadcastInDim_apply _ bc_pix_ch1 v (ix4 b z h w) (ix3 b h w) (fun a => by
    match a with
    | ⟨0, _⟩ => rfl
    | ⟨1, _⟩ => rfl
    | ⟨2, _⟩ => rfl)

/-- A one-channel image repeated over the channels reads its one channel. -/
theorem img_apply (v : FVec F SCh1 .f32) (b : Fin 8) (c : Fin 3) (h w : Fin 1024) :
    img v (ix4 b c h w) = v (ix4 b (0 : Fin 1) h w) := by
  unfold img
  exact broadcastInDim_apply _ bc_ch1_img v (ix4 b c h w) (ix4 b (0 : Fin 1) h w) (fun a => by
    match a with
    | ⟨0, _⟩ => rfl
    | ⟨1, _⟩ => rfl
    | ⟨2, _⟩ => rfl
    | ⟨3, _⟩ => rfl)

/-! ## Concatenations read at an entry -/

/-- Three one-channel images side by side along the channel axis: channel 0 is the first … -/
theorem concat_ch_apply_0 (v0 v1 v2 : FVec F SCh1 .f32) (b : Fin 8) (h w : Fin 1024) :
    concatenate SImg 1 [⟨SCh1, v0⟩, ⟨SCh1, v1⟩, ⟨SCh1, v2⟩] concat_ch (ix4 b (0 : Fin 3) h w)
      = v0 (ix4 b (0 : Fin 1) h w) := by
  refine concatenate_apply_piece (t := SImg) (1 : Fin 4) [⟨SCh1, v0⟩, ⟨SCh1, v1⟩, ⟨SCh1, v2⟩] concat_ch (ix4 b (0 : Fin 3) h w)
    0 (by show (0 : ℕ) < 3; omega) SCh1 v0 rfl rfl 0 rfl (ix4 b (0 : Fin 1) h w) (fun a ha => ?_) rfl
  match a with
  | ⟨0, _⟩ => rfl
  | ⟨1, _⟩ => exact (ha (Fin.ext rfl)).elim
  | ⟨2, _⟩ => rfl
  | ⟨3, _⟩ => rfl

/-- … channel 1 the second … -/
theorem concat_ch_apply_1 (v0 v1 v2 : FVec F SCh1 .f32) (b : Fin 8) (h w : Fin 1024) :
    concatenate SImg 1 [⟨SCh1, v0⟩, ⟨SCh1, v1⟩, ⟨SCh1, v2⟩] concat_ch (ix4 b (1 : Fin 3) h w)
      = v1 (ix4 b (0 : Fin 1) h w) := by
  refine concatenate_apply_piece (t := SImg) (1 : Fin 4) [⟨SCh1, v0⟩, ⟨SCh1, v1⟩, ⟨SCh1, v2⟩] concat_ch (ix4 b (1 : Fin 3) h w)
    1 (by show (1 : ℕ) < 3; omega) SCh1 v1 rfl rfl 1 rfl (ix4 b (0 : Fin 1) h w) (fun a ha => ?_) rfl
  match a with
  | ⟨0, _⟩ => rfl
  | ⟨1, _⟩ => exact (ha (Fin.ext rfl)).elim
  | ⟨2, _⟩ => rfl
  | ⟨3, _⟩ => rfl

/-- … and channel 2 the third. -/
theorem concat_ch_apply_2 (v0 v1 v2 : FVec F SCh1 .f32) (b : Fin 8) (h w : Fin 1024) :
    concatenate SImg 1 [⟨SCh1, v0⟩, ⟨SCh1, v1⟩, ⟨SCh1, v2⟩] concat_ch (ix4 b (2 : Fin 3) h w)
      = v2 (ix4 b (0 : Fin 1) h w) := by
  refine concatenate_apply_piece (t := SImg) (1 : Fin 4) [⟨SCh1, v0⟩, ⟨SCh1, v1⟩, ⟨SCh1, v2⟩] concat_ch (ix4 b (2 : Fin 3) h w)
    2 (by show (2 : ℕ) < 3; omega) SCh1 v2 rfl rfl 2 rfl (ix4 b (0 : Fin 1) h w) (fun a ha => ?_) rfl
  match a with
  | ⟨0, _⟩ => rfl
  | ⟨1, _⟩ => exact (ha (Fin.ext rfl)).elim
  | ⟨2, _⟩ => rfl
  | ⟨3, _⟩ => rfl

/-- Two images stacked along a new leading axis: entry 0 of the stack is the first … -/
theorem concat_img_apply_0 (v0 v1 : FVec F SImg1 .f32) (b : Fin 8) (c : Fin 3) (h w : Fin 1024) :
    concatenate SImg2 0 [⟨SImg1, v0⟩, ⟨SImg1, v1⟩] concat_img (ix5 (0 : Fin 2) b c h w)
      = v0 (ix5 (0 : Fin 1) b c h w) := by
  refine concatenate_apply_piece (t := SImg2) (0 : Fin 5) [⟨SImg1, v0⟩, ⟨SImg1, v1⟩] concat_img (ix5 (0 : Fin 2) b c h w)
    0 (by show (0 : ℕ) < 2; omega) SImg1 v0 rfl rfl 0 rfl (ix5 (0 : Fin 1) b c h w) (fun a ha => ?_) rfl
  match a with
  | ⟨0, _⟩ => exact (ha (Fin.ext rfl)).elim
  | ⟨1, _⟩ => rfl
  | ⟨2, _⟩ => rfl
  | ⟨3, _⟩ => rfl
  | ⟨4, _⟩ => rfl

/-- … and entry 1 the second. -/
theorem concat_img_apply_1 (v0 v1 : FVec F SImg1 .f32) (b : Fin 8) (c : Fin 3) (h w : Fin 1024) :
    concatenate SImg2 0 [⟨SImg1, v0⟩, ⟨SImg1, v1⟩] concat_img (ix5 (1 : Fin 2) b c h w)
      = v1 (ix5 (0 : Fin 1) b c h w) := by
  refine concatenate_apply_piece (t := SImg2) (0 : Fin 5) [⟨SImg1, v0⟩, ⟨SImg1, v1⟩] concat_img (ix5 (1 : Fin 2) b c h w)
    1 (by show (1 : ℕ) < 2; omega) SImg1 v1 rfl rfl 1 rfl (ix5 (0 : Fin 1) b c h w) (fun a ha => ?_) rfl
  match a with
  | ⟨0, _⟩ => exact (ha (Fin.ext rfl)).elim
  | ⟨1, _⟩ => rfl
  | ⟨2, _⟩ => rfl
  | ⟨3, _⟩ => rfl
  | ⟨4, _⟩ => rfl

/-- An image under a new leading unit axis reads the image. -/
theorem img1_apply (v : FVec F SImg .f32) (b : Fin 8) (c : Fin 3) (h w : Fin 1024) :
    broadcastInDim SImg1 ![1, 2, 3, 4] bc_img_img1 v (ix5 (0 : Fin 1) b c h w) = v (ix4 b c h w) :=
  broadcastInDim_apply _ bc_img_img1 v (ix5 (0 : Fin 1) b c h w) (ix4 b c h w) (fun a => by
    match a with
    | ⟨0, _⟩ => rfl
    | ⟨1, _⟩ => rfl
    | ⟨2, _⟩ => rfl
    | ⟨3, _⟩ => rfl)

/-! ## The neighbour images: channel c is the flat gather from channel c -/

/-- Channel c of a neighbour image at a pixel is the flat gather from channel c at that pixel. -/
theorem cornerK_apply (dr dg db : BitVec 32) (lut : FVec F SLut .f32) (x : FVec F SImg .f32)
    (b : Fin 8) (c : Fin 3) (h w : Fin 1024) :
    cornerK dr dg db lut x (ix4 b c h w)
      = Host.gather gK (lutFlat c lut) (wrapIx (flat dr dg db x)) (ix3 b h w) := by
  unfold cornerK
  match c with
  | ⟨0, _⟩ => exact (concat_ch_apply_0 _ _ _ b h w).trans (ch1_apply _ b 0 h w)
  | ⟨1, _⟩ => exact (concat_ch_apply_1 _ _ _ b h w).trans (ch1_apply _ b 0 h w)
  | ⟨2, _⟩ => exact (concat_ch_apply_2 _ _ _ b h w).trans (ch1_apply _ b 0 h w)

/-! ## The stack of the two blue offsets -/

theorem cornersK_apply_0 (lut : FVec F SLut .f32) (x : FVec F SImg .f32) (b : Fin 8) (c : Fin 3) (h w : Fin 1024) :
    cornersK lut x (ix5 (0 : Fin 2) b c h w) = lerpRG 0#32 lut x (ix4 b c h w) := by
  unfold cornersK
  exact (concat_img_apply_0 _ _ b c h w).trans (img1_apply _ b c h w)

theorem cornersK_apply_1 (lut : FVec F SLut .f32) (x : FVec F SImg .f32) (b : Fin 8) (c : Fin 3) (h w : Fin 1024) :
    cornersK lut x (ix5 (1 : Fin 2) b c h w) = lerpRG 1#32 lut x (ix4 b c h w) := by
  unfold cornersK
  exact (concat_img_apply_1 _ _ b c h w).trans (img1_apply _ b c h w)

end Layout

/-! ## The arithmetic, entry by entry, on the extended reals -/

/-- The red-then-green interpolation at blue offset db, at one entry. -/
theorem lerpRG_apply (db : BitVec 32) (lut : FVec Ideal SLut .f32) (x : FVec Ideal SImg .f32)
    (b : Fin 8) (c : Fin 3) (h w : Fin 1024) :
    lerpRG db lut x (ix4 b c h w)
      = (Host.gather gK (lutFlat c lut) (wrapIx (flat 0#32 0#32 db x)) (ix3 b h w)
            * (Ideal.ofBits .f32 0x3F800000#32 - frac 0 x (ix3 b h w))
          + Host.gather gK (lutFlat c lut) (wrapIx (flat 1#32 0#32 db x)) (ix3 b h w) * frac 0 x (ix3 b h w))
          * (Ideal.ofBits .f32 0x3F800000#32 - frac 1 x (ix3 b h w))
        + (Host.gather gK (lutFlat c lut) (wrapIx (flat 0#32 1#32 db x)) (ix3 b h w)
            * (Ideal.ofBits .f32 0x3F800000#32 - frac 0 x (ix3 b h w))
          + Host.gather gK (lutFlat c lut) (wrapIx (flat 1#32 1#32 db x)) (ix3 b h w) * frac 0 x (ix3 b h w))
          * frac 1 x (ix3 b h w) := by
  unfold lerpRG
  simp only [addf_apply, mulf_apply, subf_apply, cornerK_apply, img_apply, ch1_apply]
  rfl

/-- The blend along blue at one entry. -/
theorem blendK_apply (lut : FVec Ideal SLut .f32) (x : FVec Ideal SImg .f32) (b : Fin 8) (c : Fin 3) (h w : Fin 1024) :
    blendK (cornersK lut x) (frac 2 x) (ix4 b c h w)
      = lerpRG 0#32 lut x (ix4 b c h w)
        + frac 2 x (ix3 b h w) * (lerpRG 1#32 lut x (ix4 b c h w) - lerpRG 0#32 lut x (ix4 b c h w)) := by
  unfold blendK
  rw [stackIx_ix4, stackIx_ix4, pixIx_ix4, cornersK_apply_0, cornersK_apply_1]
  rfl

end Cert.Lut3D

end
-- ==== Proof.TriRef.lean ====
/-
  The weighted-sum program read at one image entry.

  Its result at the entry (b, c, h, w) is the channel-major sum at (c, b, h, w); each of the eight summands there
  is a per-pixel weight, read at the pixel (b, h, w), times the column gather at (c, b, h, w); a weight is a
  product of three factors, each a fractional part f or 1 − f; and the sum starts from the zero word, which is zero.
-/
import proofs.«129150_j43130061586455_2_alg».proof.Proof.Spec
import Idealize.ShloMosaic.Lib.ValueIdx
import Idealize.ShloMosaic.Lib.Pipeline.Value
import Idealize.ShloMosaic.PureOps.Ideal.Laws

noncomputable section

namespace Cert.Lut3D

open Idealize.ShloMosaic Idealize.ShloMosaic.ValueIdx

section Layout
variable {F : FTy → Type} [FloatOps F]

/-- A per-pixel weight repeated over the channels reads the pixel. -/
theorem wBc_apply (W : FVec F SPix .f32) (c : Fin 3) (b : Fin 8) (h w : Fin 1024) :
    wBc W (ix4 c b h w) = W (ix3 b h w) := by
  unfold wBc
  refine (broadcastInDim_apply _ bc_c1_cimg _ (ix4 c b h w) (ix4 (0 : Fin 1) b h w) (fun a => ?_)).trans
    (broadcastInDim_apply _ bc_pix_c1 W (ix4 (0 : Fin 1) b h w) (ix3 b h w) (fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

end Layout

/-- One weighted neighbour at one channel-major entry. -/
theorem termR_apply (W : FVec Ideal SPix .f32) (dr dg db : BitVec 32) (lut : FVec Ideal SLut .f32)
    (x : FVec Ideal SImg .f32) (c : Fin 3) (b : Fin 8) (h w : Fin 1024) :
    termR W dr dg db lut x (ix4 c b h w)
      = W (ix3 b h w)
        * Host.gather gR (shapeCast SLut2 lut cast_lut_lut2) (wrapIx (flat dr dg db x)) (ix4 c b h w) := by
  unfold termR
  rw [mulf_apply, wBc_apply]

/-- The sum of the eight weighted neighbours at one image entry. -/
theorem refR_apply (lut : FVec Ideal SLut .f32) (x : FVec Ideal SImg .f32) (b : Fin 8) (c : Fin 3) (h w : Fin 1024) :
    refR lut x (ix4 b c h w)
      = 0
        + (Ideal.ofBits .f32 0x3F800000#32 - frac 0 x (ix3 b h w)) * (Ideal.ofBits .f32 0x3F800000#32 - frac 1 x (ix3 b h w))
            * (Ideal.ofBits .f32 0x3F800000#32 - frac 2 x (ix3 b h w))
          * Host.gather gR (shapeCast SLut2 lut cast_lut_lut2) (wrapIx (flat 0#32 0#32 0#32 x)) (ix4 c b h w)
        + (Ideal.ofBits .f32 0x3F800000#32 - frac 0 x (ix3 b h w)) * (Ideal.ofBits .f32 0x3F800000#32 - frac 1 x (ix3 b h w))
            * frac 2 x (ix3 b h w)
          * Host.gather gR (shapeCast SLut2 lut cast_lut_lut2) (wrapIx (flat 0#32 0#32 1#32 x)) (ix4 c b h w)
        + (Ideal.ofBits .f32 0x3F800000#32 - frac 0 x (ix3 b h w)) * frac 1 x (ix3 b h w)
            * (Ideal.ofBits .f32 0x3F800000#32 - frac 2 x (ix3 b h w))
          * Host.gather gR (shapeCast SLut2 lut cast_lut_lut2) (wrapIx (flat 0#32 1#32 0#32 x)) (ix4 c b h w)
        + (Ideal.ofBits .f32 0x3F800000#32 - frac 0 x (ix3 b h w)) * frac 1 x (ix3 b h w)
            * frac 2 x (ix3 b h w)
          * Host.gather gR (shapeCast SLut2 lut cast_lut_lut2) (wrapIx (flat 0#32 1#32 1#32 x)) (ix4 c b h w)
        + frac 0 x (ix3 b h w) * (Ideal.ofBits .f32 0x3F800000#32 - frac 1 x (ix3 b h w))
            * (Ideal.ofBits .f32 0x3F800000#32 - frac 2 x (ix3 b h w))
          * Host.gather gR (shapeCast SLut2 lut cast_lut_lut2) (wrapIx (flat 1#32 0#32 0#32 x)) (ix4 c b h w)
        + frac 0 x (ix3 b h w) * (Ideal.ofBits .f32 0x3F800000#32 - frac 1 x (ix3 b h w))
            * frac 2 x (ix3 b h w)
          * Host.gather gR (shapeCast SLut2 lut cast_lut_lut2) (wrapIx (flat 1#32 0#32 1#32 x)) (ix4 c b h w)
        + frac 0 x (ix3 b h w) * frac 1 x (ix3 b h w)
            * (Ideal.ofBits .f32 0x3F800000#32 - frac 2 x (ix3 b h w))
          * Host.gather gR (shapeCast SLut2 lut cast_lut_lut2) (wrapIx (flat 1#32 1#32 0#32 x)) (ix4 c b h w)
        + frac 0 x (ix3 b h w) * frac 1 x (ix3 b h w)
            * frac 2 x (ix3 b h w)
          * Host.gather gR (shapeCast SLut2 lut cast_lut_lut2) (wrapIx (flat 1#32 1#32 1#32 x)) (ix4 c b h w) := by
  unfold refR
  refine (transpose_apply [1, 0, 2, 3] _ transp (ix4 b c h w) (ix4 c b h w) (fun a => ?_)).trans ?_
  · match a with
    | ⟨0, _⟩ => rfl
    | ⟨1, _⟩ => rfl
    | ⟨2, _⟩ => rfl
    | ⟨3, _⟩ => rfl
  · simp only [addf_apply, termR_apply, mulf_apply, subf_apply]
    rw [show broadcastInDim SCImg ![] bc0_cimg (constant (F := Ideal) S0 .f32 0x00000000#32) (ix4 c b h w)
        = Ideal.ofBits .f32 0x00000000#32 from rfl, Ideal.ofBits_zero_f32]
    rfl

end Cert.Lut3D

end
-- ==== Proof.Trilinear.lean ====
/-
  Trilinear interpolation, axis by axis, is the weighted sum of the eight neighbours.

  At an image entry (b, c, h, w) write fr, fg, fb for the three fractional parts at the pixel (b, h, w) and
  L(dr, dg, db) for the table entry of channel c at the neighbour (dr, dg, db) of that pixel.  Interpolating along
  red, then green, then blue gives  C₀ + fb · (C₁ − C₀)  with
      C_db = (L(0,0,db) · (1 − fr) + L(1,0,db) · fr) · (1 − fg) + (L(0,1,db) · (1 − fr) + L(1,1,db) · fr) · fg,
  and the reference is  0 + Σ over (dr, dg, db) of (w_r · w_g) · w_b · L(dr, dg, db)  with w = f or 1 − f.  On a
  finite table and a finite image every f and every L is a real number, and among real numbers the two
  expressions are equal by the ring laws.  Finiteness is needed: distributivity fails at an infinity.
-/
import proofs.«129150_j43130061586455_2_alg».proof.Proof.Spec
import proofs.«129150_j43130061586455_2_alg».proof.Proof.LibFinite
import proofs.«129150_j43130061586455_2_alg».proof.Proof.TriGather
import proofs.«129150_j43130061586455_2_alg».proof.Proof.TriFrac
import proofs.«129150_j43130061586455_2_alg».proof.Proof.TriKernel
import proofs.«129150_j43130061586455_2_alg».proof.Proof.TriRef

noncomputable section

namespace Cert.Lut3D

open Idealize.ShloMosaic Idealize.ShloMosaic.ValueIdx Cert.LibFinite

/-- The identity among real numbers. -/
theorem trilinear_real (l000 l001 l010 l011 l100 l101 l110 l111 fr fg fb : ℝ) :
    ((l000 * (1 - fr) + l100 * fr) * (1 - fg) + (l010 * (1 - fr) + l110 * fr) * fg)
      + fb * (((l001 * (1 - fr) + l101 * fr) * (1 - fg) + (l011 * (1 - fr) + l111 * fr) * fg)
              - ((l000 * (1 - fr) + l100 * fr) * (1 - fg) + (l010 * (1 - fr) + l110 * fr) * fg))
    = 0 + (1 - fr) * (1 - fg) * (1 - fb) * l000 + (1 - fr) * (1 - fg) * fb * l001
        + (1 - fr) * fg * (1 - fb) * l010 + (1 - fr) * fg * fb * l011
        + fr * (1 - fg) * (1 - fb) * l100 + fr * (1 - fg) * fb * l101
        + fr * fg * (1 - fb) * l110 + fr * fg * fb * l111 := by
  ring

/-- The same identity among extended reals that are real numbers. -/
theorem trilinear_ereal (l000 l001 l010 l011 l100 l101 l110 l111 fr fg fb : ℝ) :
    (((l000 : EReal) * (((1 : ℝ) : EReal) - fr) + (l100 : EReal) * fr) * (((1 : ℝ) : EReal) - fg)
        + ((l010 : EReal) * (((1 : ℝ) : EReal) - fr) + (l110 : EReal) * fr) * fg)
      + (fb : EReal) * ((((l001 : EReal) * (((1 : ℝ) : EReal) - fr) + (l101 : EReal) * fr) * (((1 : ℝ) : EReal) - fg)
                + ((l011 : EReal) * (((1 : ℝ) : EReal) - fr) + (l111 : EReal) * fr) * fg)
              - (((l000 : EReal) * (((1 : ℝ) : EReal) - fr) + (l100 : EReal) * fr) * (((1 : ℝ) : EReal) - fg)
                + ((l010 : EReal) * (((1 : ℝ) : EReal) - fr) + (l110 : EReal) * fr) * fg))
    = 0 + (((1 : ℝ) : EReal) - fr) * (((1 : ℝ) : EReal) - fg) * (((1 : ℝ) : EReal) - fb) * l000
        + (((1 : ℝ) : EReal) - fr) * (((1 : ℝ) : EReal) - fg) * fb * l001
        + (((1 : ℝ) : EReal) - fr) * fg * (((1 : ℝ) : EReal) - fb) * l010
        + (((1 : ℝ) : EReal) - fr) * fg * fb * l011
        + (fr : EReal) * (((1 : ℝ) : EReal) - fg) * (((1 : ℝ) : EReal) - fb) * l100
        + (fr : EReal) * (((1 : ℝ) : EReal) - fg) * fb * l101
        + (fr : EReal) * fg * (((1 : ℝ) : EReal) - fb) * l110
        + (fr : EReal) * fg * fb * l111 := by
  have h := trilinear_real l000 l001 l010 l011 l100 l101 l110 l111 fr fg fb
  simp only [← EReal.coe_sub, ← EReal.coe_mul, ← EReal.coe_add, ← EReal.coe_zero]
  exact congrArg _ h

/-- On a finite table and a finite image, the blend along blue of the two red-then-green interpolations is the sum of
    the eight weighted neighbours. -/
theorem blend_eq_ref (lut : FVec Ideal SLut .f32) (x : FVec Ideal SImg .f32)
    (hl : ∀ i, Cert.LibFinite.IsFin (lut i)) (hx : ∀ i, Cert.LibFinite.IsFin (x i)) :
    blendK (cornersK lut x) (frac 2 x) = refR lut x := by
  funext j
  obtain ⟨b, c, h, w, rfl⟩ : ∃ (b : Fin 8) (c : Fin 3) (h w : Fin 1024), j = ix4 b c h w :=
    ⟨j 0, j 1, j 2, j 3, eq_ix4 j⟩
  rw [blendK_apply, lerpRG_apply, lerpRG_apply, refR_apply]
  simp only [gatherK_eq_gatherR]
  -- the three fractional parts and the eight table entries are real numbers
  obtain ⟨fr, hfr⟩ := frac_fin 0 x hx (ix3 b h w)
  obtain ⟨fg, hfg⟩ := frac_fin 1 x hx (ix3 b h w)
  obtain ⟨fb, hfb⟩ := frac_fin 2 x hx (ix3 b h w)
  have hL : ∀ dr dg db : BitVec 32,
      IsFin (Host.gather gR (shapeCast SLut2 lut cast_lut_lut2) (wrapIx (flat dr dg db x)) (ix4 c b h w)) := by
    intro dr dg db
    obtain ⟨k, hk⟩ := gatherR_entry lut (wrapIx (flat dr dg db x)) (ix4 c b h w)
    rw [hk]
    exact hl k
  obtain ⟨l000, h000⟩ := hL 0#32 0#32 0#32
  obtain ⟨l001, h001⟩ := hL 0#32 0#32 1#32
  obtain ⟨l010, h010⟩ := hL 0#32 1#32 0#32
  obtain ⟨l011, h011⟩ := hL 0#32 1#32 1#32
  obtain ⟨l100, h100⟩ := hL 1#32 0#32 0#32
  obtain ⟨l101, h101⟩ := hL 1#32 0#32 1#32
  obtain ⟨l110, h110⟩ := hL 1#32 1#32 0#32
  obtain ⟨l111, h111⟩ := hL 1#32 1#32 1#32
  rw [hfr, hfg, hfb, h000, h001, h010, h011, h100, h101, h110, h111, oneWord_eq]
  exact trilinear_ereal l000 l001 l010 l011 l100 l101 l110 l111 fr fg fb

end Cert.Lut3D

end
-- ==== Proof.lean ====
/-
  Trilinear interpolation in a 3D lookup table: a host part that gathers the eight neighbouring table entries of every
  pixel and interpolates along red and green, and a blend kernel that interpolates along blue, against the sum of the
  eight neighbours each times the product of its three weights.

  On the extended reals the two agree wherever the table and the image hold real numbers: with fractions f_r, f_g, f_b
  and neighbours L(dr, dg, db), both sides are the same polynomial
      Σ_{dr,dg,db} w_r(dr) · w_g(dg) · w_b(db) · L(dr, dg, db),   w(0) = 1 − f, w(1) = f,
  once products distribute over sums — which is where real (finite) values are needed.  The bins, the fractions and
  the wrapped table positions are computed by the same operations on both sides.

  The kernel's frames: its host lines run, the 8 × 8 grid of blend points runs, and no line and no point writes an
  argument array.  The kernel's value: point (b, i) writes rows 128·i … 128·i + 127 of image b of the result, the blend
  of the same rows of the two stacked corner images and of the blue fraction; the 64 blocks tile the result.
-/
import proofs.«129150_j43130061586455_2_alg».proof.Defs
import proofs.«129150_j43130061586455_2_alg».proof.Proof.Gen.Kernel
import proofs.«129150_j43130061586455_2_alg».proof.Proof.Gen.KernelIdeal
import proofs.«129150_j43130061586455_2_alg».proof.Proof.Gen.ReferenceIdeal
import proofs.«129150_j43130061586455_2_alg».proof.Proof.Gen.Pre_finite_inputs
import proofs.«129150_j43130061586455_2_alg».proof.Proof.KFrame
import proofs.«129150_j43130061586455_2_alg».proof.Proof.KIFrame
import proofs.«129150_j43130061586455_2_alg».proof.Proof.KIFinal
import proofs.«129150_j43130061586455_2_alg».proof.Proof.KIHost
import proofs.«129150_j43130061586455_2_alg».proof.Proof.RefTerm
import proofs.«129150_j43130061586455_2_alg».proof.Proof.FinPre
import proofs.«129150_j43130061586455_2_alg».proof.Proof.Trilinear
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_p : Cert.frame_Kernel := fun m ρ _ => Cert.Kernel.Hand.frame m ρ

/-- So does its reading over the extended reals. -/
theorem frame_pi : Cert.frame_KernelIdeal := fun m ρ _ => Cert.KernelIdeal.Hand.frame m ρ

/-- The reference is host lines only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its reading over the extended reals. -/
theorem preserves : Cert.preserves_Kernel_KernelIdeal := trivial

/-- From memories agreeing on table and image, both programs end with the specification's sum of the eight weighted
    neighbours: the kernel's result array is the blend of what its host lines computed (the 64 blocks tile it), which
    is that sum when every entry is real; the reference's lines compose to it directly. -/
theorem algebraic : Cert.algebraic_KernelIdeal_ReferenceIdeal := by
  intro m ρ m' ρ' hpre hagree
  refine ⟨fun c => Cert.Lut3D.refR (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · have hf := Cert.Pre_finite_inputs.Decode.fin_of_pre _ _ (hpre c)
      refine ((h c).1 2).trans ((Cert.KernelIdeal.Hand.final m c).trans ?_)
      rw [Cert.KernelIdeal.Hand.V_corners, Cert.KernelIdeal.Hand.V_frac]
      exact Cert.Lut3D.blend_eq_ref _ _ hf.1 hf.2
    · exact ((h c).2 Cert.KernelIdeal.main_arg0 (Pipeline.mem_restRefs_of Cert.KernelIdeal.main_arg0 (by decide) (by decide))).trans
        (Cert.KernelIdeal.Hand.V_main_arg0 m c)
    · exact ((h c).2 Cert.KernelIdeal.main_arg1 (Pipeline.mem_restRefs_of Cert.KernelIdeal.main_arg1 (by decide) (by decide))).trans
        (Cert.KernelIdeal.Hand.V_main_arg1 m c)
  · refine (θ_run Cert.ReferenceIdeal.defs _ _).mono (fun r h c => ⟨(h c).1.trans ?_, (h c).2⟩)
      (Cert.ReferenceIdeal.ValueP.run (F := Ideal) m' ρ')
    refine (Cert.ReferenceIdeal.RefValue.res_eq m' c).trans ?_
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
